-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_

variable [Facts]

def fn {F : FTy → Type} [FloatOps F] (main_arg0 : FVec F S100000x128 .f32) (main_arg1 : FVec F S100000x1 .f32) (main_arg2 : IVec S1600000 32) (main_arg3 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  main_v8
-- ==== Kernel.lean ====
abbrev S100000x128 : Shape := ⟨2, ![100000, 128]⟩
abbrev S100000x1 : Shape := ⟨2, ![100000, 1]⟩
abbrev S1600000 : Shape := ⟨1, ![1600000]⟩
abbrev S5000x128 : Shape := ⟨2, ![5000, 128]⟩
abbrev S5000x1 : Shape := ⟨2, ![5000, 1]⟩
abbrev S_ : Shape := ⟨0, ![]⟩
abbrev S1600000x1 : Shape := ⟨2, ![1600000, 1]⟩
abbrev S1600000x128 : Shape := ⟨2, ![1600000, 128]⟩

abbrev nBuf : Space → Nat
  | .hbm => 154
  | .vmem => 140
  | .smem => 0
  | _ => 0

abbrev hbmTy0_0 (i : Nat) : BufTy := match i % 128 with
  | 0 => ⟨S100000x128, .f32⟩
  | 1 => ⟨S100000x1, .f32⟩
  | 2 => ⟨S1600000, .i32⟩
  | 3 => ⟨S1600000, .i32⟩
  | 4 => ⟨S100000x128, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x128, .f32⟩
  | 14 => ⟨S_, .f32⟩
  | 15 => ⟨S100000x128, .f32⟩
  | 16 => ⟨S1600000x1, .i32⟩
  | 17 => ⟨S100000x128, .f32⟩
  | 18 => ⟨S100000x128, .f32⟩
  | 19 => ⟨S100000x128, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S100000x128, .f32⟩
  | 34 => ⟨S100000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S100000x128, .f32⟩
  | 49 => ⟨S100000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S100000x128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S100000x128, .f32⟩
  | 109 => ⟨S100000x128, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S100000x128, .f32⟩
  | 124 => ⟨S100000x128, .f32⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S_, .f32⟩
  | 7 => ⟨S100000x128, .f32⟩
  | 8 => ⟨S1600000x1, .i32⟩
  | 9 => ⟨S100000x128, .f32⟩
  | 10 => ⟨S100000x128, .f32⟩
  | 11 => ⟨S100000x128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev vmemTy0_0 (i : Nat) : BufTy := match i % 128 with
  | 0 => ⟨S5000x128, .f32⟩
  | 1 => ⟨S5000x128, .f32⟩
  | 2 => ⟨S5000x1, .f32⟩
  | 3 => ⟨S5000x1, .f32⟩
  | 4 => ⟨S5000x128, .f32⟩
  | 5 => ⟨S5000x128, .f32⟩
  | 6 => ⟨S5000x128, .f32⟩
  | 7 => ⟨S5000x128, .f32⟩
  | 8 => ⟨S5000x1, .f32⟩
  | 9 => ⟨S5000x1, .f32⟩
  | 10 => ⟨S5000x128, .f32⟩
  | 11 => ⟨S5000x128, .f32⟩
  | 12 => ⟨S5000x128, .f32⟩
  | 13 => ⟨S5000x128, .f32⟩
  | 14 => ⟨S5000x128, .f32⟩
  | 15 => ⟨S5000x128, .f32⟩
  | 16 => ⟨S5000x1, .f32⟩
  | 17 => ⟨S5000x1, .f32⟩
  | 18 => ⟨S5000x128, .f32⟩
  | 19 => ⟨S5000x128, .f32⟩
  | 20 => ⟨S5000x128, .f32⟩
  | 21 => ⟨S5000x128, .f32⟩
  | 22 => ⟨S5000x1, .f32⟩
  | 23 => ⟨S5000x1, .f32⟩
  | 24 => ⟨S5000x128, .f32⟩
  | 25 => ⟨S5000x128, .f32⟩
  | 26 => ⟨S5000x128, .f32⟩
  | 27 => ⟨S5000x128, .f32⟩
  | 28 => ⟨S5000x128, .f32⟩
  | 29 => ⟨S5000x128, .f32⟩
  | 30 => ⟨S5000x1, .f32⟩
  | 31 => ⟨S5000x1, .f32⟩
  | 32 => ⟨S5000x128, .f32⟩
  | 33 => ⟨S5000x128, .f32⟩
  | 34 => ⟨S5000x128, .f32⟩
  | 35 => ⟨S5000x128, .f32⟩
  | 36 => ⟨S5000x1, .f32⟩
  | 37 => ⟨S5000x1, .f32⟩
  | 38 => ⟨S5000x128, .f32⟩
  | 39 => ⟨S5000x128, .f32⟩
  | 40 => ⟨S5000x128, .f32⟩
  | 41 => ⟨S5000x128, .f32⟩
  | 42 => ⟨S5000x128, .f32⟩
  | 43 => ⟨S5000x128, .f32⟩
  | 44 => ⟨S5000x1, .f32⟩
  | 45 => ⟨S5000x1, .f32⟩
  | 46 => ⟨S5000x128, .f32⟩
  | 47 => ⟨S5000x128, .f32⟩
  | 48 => ⟨S5000x128, .f32⟩
  | 49 => ⟨S5000x128, .f32⟩
  | 50 => ⟨S5000x1, .f32⟩
  | 51 => ⟨S5000x1, .f32⟩
  | 52 => ⟨S5000x128, .f32⟩
  | 53 => ⟨S5000x128, .f32⟩
  | 54 => ⟨S5000x128, .f32⟩
  | 55 => ⟨S5000x128, .f32⟩
  | 56 => ⟨S5000x128, .f32⟩
  | 57 => ⟨S5000x128, .f32⟩
  | 58 => ⟨S5000x1, .f32⟩
  | 59 => ⟨S5000x1, .f32⟩
  | 60 => ⟨S5000x128, .f32⟩
  | 61 => ⟨S5000x128, .f32⟩
  | 62 => ⟨S5000x128, .f32⟩
  | 63 => ⟨S5000x128, .f32⟩
  | 64 => ⟨S5000x1, .f32⟩
  | 65 => ⟨S5000x1, .f32⟩
  | 66 => ⟨S5000x128, .f32⟩
  | 67 => ⟨S5000x128, .f32⟩
  | 68 => ⟨S5000x128, .f32⟩
  | 69 => ⟨S5000x128, .f32⟩
  | 70 => ⟨S5000x128, .f32⟩
  | 71 => ⟨S5000x128, .f32⟩
  | 72 => ⟨S5000x1, .f32⟩
  | 73 => ⟨S5000x1, .f32⟩
  | 74 => ⟨S5000x128, .f32⟩
  | 75 => ⟨S5000x128, .f32⟩
  | 76 => ⟨S5000x128, .f32⟩
  | 77 => ⟨S5000x128, .f32⟩
  | 78 => ⟨S5000x1, .f32⟩
  | 79 => ⟨S5000x1, .f32⟩
  | 80 => ⟨S5000x128, .f32⟩
  | 81 => ⟨S5000x128, .f32⟩
  | 82 => ⟨S5000x128, .f32⟩
  | 83 => ⟨S5000x128, .f32⟩
  | 84 => ⟨S5000x128, .f32⟩
  | 85 => ⟨S5000x128, .f32⟩
  | 86 => ⟨S5000x1, .f32⟩
  | 87 => ⟨S5000x1, .f32⟩
  | 88 => ⟨S5000x128, .f32⟩
  | 89 => ⟨S5000x128, .f32⟩
  | 90 => ⟨S5000x128, .f32⟩
  | 91 => ⟨S5000x128, .f32⟩
  | 92 => ⟨S5000x1, .f32⟩
  | 93 => ⟨S5000x1, .f32⟩
  | 94 => ⟨S5000x128, .f32⟩
  | 95 => ⟨S5000x128, .f32⟩
  | 96 => ⟨S5000x128, .f32⟩
  | 97 => ⟨S5000x128, .f32⟩
  | 98 => ⟨S5000x128, .f32⟩
  | 99 => ⟨S5000x128, .f32⟩
  | 100 => ⟨S5000x1, .f32⟩
  | 101 => ⟨S5000x1, .f32⟩
  | 102 => ⟨S5000x128, .f32⟩
  | 103 => ⟨S5000x128, .f32⟩
  | 104 => ⟨S5000x128, .f32⟩
  | 105 => ⟨S5000x128, .f32⟩
  | 106 => ⟨S5000x1, .f32⟩
  | 107 => ⟨S5000x1, .f32⟩
  | 108 => ⟨S5000x128, .f32⟩
  | 109 => ⟨S5000x128, .f32⟩
  | 110 => ⟨S5000x128, .f32⟩
  | 111 => ⟨S5000x128, .f32⟩
  | 112 => ⟨S5000x128, .f32⟩
  | 113 => ⟨S5000x128, .f32⟩
  | 114 => ⟨S5000x1, .f32⟩
  | 115 => ⟨S5000x1, .f32⟩
  | 116 => ⟨S5000x128, .f32⟩
  | 117 => ⟨S5000x128, .f32⟩
  | 118 => ⟨S5000x128, .f32⟩
  | 119 => ⟨S5000x128, .f32⟩
  | 120 => ⟨S5000x1, .f32⟩
  | 121 => ⟨S5000x1, .f32⟩
  | 122 => ⟨S5000x128, .f32⟩
  | 123 => ⟨S5000x128, .f32⟩
  | 124 => ⟨S5000x128, .f32⟩
  | 125 => ⟨S5000x128, .f32⟩
  | 126 => ⟨S5000x128, .f32⟩
  | 127 => ⟨S5000x128, .f32⟩
  | _ => ⟨S100000x128, .f32⟩

abbrev vmemTy0_1 (i : Nat) : BufTy := match i % 128 with
  | 0 => ⟨S5000x1, .f32⟩
  | 1 => ⟨S5000x1, .f32⟩
  | 2 => ⟨S5000x128, .f32⟩
  | 3 => ⟨S5000x128, .f32⟩
  | 4 => ⟨S5000x128, .f32⟩
  | 5 => ⟨S5000x128, .f32⟩
  | 6 => ⟨S5000x1, .f32⟩
  | 7 => ⟨S5000x1, .f32⟩
  | 8 => ⟨S5000x128, .f32⟩
  | 9 => ⟨S5000x128, .f32⟩
  | 10 => ⟨S5000x128, .f32⟩
  | 11 => ⟨S5000x128, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 140 → Bool
  | ⟨i, _⟩ => dmaSemScopedAt i

abbrev sig : RefSig :=
  ofTc nBuf bufTy 0 140 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_c_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_13 : Ref sig .tc := ⟨.hbm, 80, rfl⟩
abbrev main_v61 : Ref sig .tc := ⟨.hbm, 81, rfl⟩
abbrev main_v62 : Ref sig .tc := ⟨.hbm, 82, rfl⟩
abbrev main_c_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_16 : Ref sig .tc := ⟨.hbm, 95, rfl⟩
abbrev main_v73 : Ref sig .tc := ⟨.hbm, 96, rfl⟩
abbrev main_v74 : Ref sig .tc := ⟨.hbm, 97, rfl⟩
abbrev main_c_17 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c_19 : Ref sig .tc := ⟨.hbm, 110, rfl⟩
abbrev main_v85 : Ref sig .tc := ⟨.hbm, 111, rfl⟩
abbrev main_v86 : Ref sig .tc := ⟨.hbm, 112, rfl⟩
abbrev main_c_20 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_21 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_c_22 : Ref sig .tc := ⟨.hbm, 125, rfl⟩
abbrev main_v97 : Ref sig .tc := ⟨.hbm, 126, rfl⟩
abbrev main_v98 : Ref sig .tc := ⟨.hbm, 127, rfl⟩
abbrev main_c_23 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_24 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_c_25 : Ref sig .tc := ⟨.hbm, 140, rfl⟩
abbrev main_v109 : Ref sig .tc := ⟨.hbm, 141, rfl⟩
abbrev main_v110 : Ref sig .tc := ⟨.hbm, 142, rfl⟩
abbrev main_c_26 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_27 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg2_1 : Ref sig .tc := ⟨.vmem, 67, rfl⟩
abbrev cc9_stg3_0 : Ref sig .tc := ⟨.vmem, 68, rfl⟩
abbrev cc9_stg3_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg2_1 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg1_1 : Ref sig .tc := ⟨.vmem, 79, rfl⟩
abbrev cc11_stg2_0 : Ref sig .tc := ⟨.vmem, 80, rfl⟩
abbrev cc11_stg2_1 : Ref sig .tc := ⟨.vmem, 81, rfl⟩
abbrev cc11_stg3_0 : Ref sig .tc := ⟨.vmem, 82, rfl⟩
abbrev cc11_stg3_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg1_1 : Ref sig .tc := ⟨.vmem, 87, rfl⟩
abbrev cc12_stg2_0 : Ref sig .tc := ⟨.vmem, 88, rfl⟩
abbrev cc12_stg2_1 : Ref sig .tc := ⟨.vmem, 89, rfl⟩
abbrev cc13_stg0_0 : Ref sig .tc := ⟨.vmem, 90, rfl⟩
abbrev cc13_stg0_1 : Ref sig .tc := ⟨.vmem, 91, rfl⟩
abbrev cc13_stg1_0 : Ref sig .tc := ⟨.vmem, 92, rfl⟩
abbrev cc13_stg1_1 : Ref sig .tc := ⟨.vmem, 93, rfl⟩
abbrev cc13_stg2_0 : Ref sig .tc := ⟨.vmem, 94, rfl⟩
abbrev cc13_stg2_1 : Ref sig .tc := ⟨.vmem, 95, rfl⟩
abbrev cc13_stg3_0 : Ref sig .tc := ⟨.vmem, 96, rfl⟩
abbrev cc13_stg3_1 : Ref sig .tc := ⟨.vmem, 97, rfl⟩
abbrev cc14_stg0_0 : Ref sig .tc := ⟨.vmem, 98, rfl⟩
abbrev cc14_stg0_1 : Ref sig .tc := ⟨.vmem, 99, rfl⟩
abbrev cc14_stg1_0 : Ref sig .tc := ⟨.vmem, 100, rfl⟩
abbrev cc14_stg1_1 : Ref sig .tc := ⟨.vmem, 101, rfl⟩
abbrev cc14_stg2_0 : Ref sig .tc := ⟨.vmem, 102, rfl⟩
abbrev cc14_stg2_1 : Ref sig .tc := ⟨.vmem, 103, rfl⟩
abbrev cc15_stg0_0 : Ref sig .tc := ⟨.vmem, 104, rfl⟩
abbrev cc15_stg0_1 : Ref sig .tc := ⟨.vmem, 105, rfl⟩
abbrev cc15_stg1_0 : Ref sig .tc := ⟨.vmem, 106, rfl⟩
abbrev cc15_stg1_1 : Ref sig .tc := ⟨.vmem, 107, rfl⟩
abbrev cc15_stg2_0 : Ref sig .tc := ⟨.vmem, 108, rfl⟩
abbrev cc15_stg2_1 : Ref sig .tc := ⟨.vmem, 109, rfl⟩
abbrev cc15_stg3_0 : Ref sig .tc := ⟨.vmem, 110, rfl⟩
abbrev cc15_stg3_1 : Ref sig .tc := ⟨.vmem, 111, rfl⟩
abbrev cc16_stg0_0 : Ref sig .tc := ⟨.vmem, 112, rfl⟩
abbrev cc16_stg0_1 : Ref sig .tc := ⟨.vmem, 113, rfl⟩
abbrev cc16_stg1_0 : Ref sig .tc := ⟨.vmem, 114, rfl⟩
abbrev cc16_stg1_1 : Ref sig .tc := ⟨.vmem, 115, rfl⟩
abbrev cc16_stg2_0 : Ref sig .tc := ⟨.vmem, 116, rfl⟩
abbrev cc16_stg2_1 : Ref sig .tc := ⟨.vmem, 117, rfl⟩
abbrev cc17_stg0_0 : Ref sig .tc := ⟨.vmem, 118, rfl⟩
abbrev cc17_stg0_1 : Ref sig .tc := ⟨.vmem, 119, rfl⟩
abbrev cc17_stg1_0 : Ref sig .tc := ⟨.vmem, 120, rfl⟩
abbrev cc17_stg1_1 : Ref sig .tc := ⟨.vmem, 121, rfl⟩
abbrev cc17_stg2_0 : Ref sig .tc := ⟨.vmem, 122, rfl⟩
abbrev cc17_stg2_1 : Ref sig .tc := ⟨.vmem, 123, rfl⟩
abbrev cc17_stg3_0 : Ref sig .tc := ⟨.vmem, 124, rfl⟩
abbrev cc17_stg3_1 : Ref sig .tc := ⟨.vmem, 125, rfl⟩
abbrev cc18_stg0_0 : Ref sig .tc := ⟨.vmem, 126, rfl⟩
abbrev cc18_stg0_1 : Ref sig .tc := ⟨.vmem, 127, rfl⟩
abbrev cc18_stg1_0 : Ref sig .tc := ⟨.vmem, 128, rfl⟩
abbrev cc18_stg1_1 : Ref sig .tc := ⟨.vmem, 129, rfl⟩
abbrev cc18_stg2_0 : Ref sig .tc := ⟨.vmem, 130, rfl⟩
abbrev cc18_stg2_1 : Ref sig .tc := ⟨.vmem, 131, rfl⟩
abbrev cc19_stg0_0 : Ref sig .tc := ⟨.vmem, 132, rfl⟩
abbrev cc19_stg0_1 : Ref sig .tc := ⟨.vmem, 133, rfl⟩
abbrev cc19_stg1_0 : Ref sig .tc := ⟨.vmem, 134, rfl⟩
abbrev cc19_stg1_1 : Ref sig .tc := ⟨.vmem, 135, rfl⟩
abbrev cc19_stg2_0 : Ref sig .tc := ⟨.vmem, 136, rfl⟩
abbrev cc19_stg2_1 : Ref sig .tc := ⟨.vmem, 137, rfl⟩
abbrev cc19_stg3_0 : Ref sig .tc := ⟨.vmem, 138, rfl⟩
abbrev cc19_stg3_1 : Ref sig .tc := ⟨.vmem, 139, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc9_sem0_0 : DmaSem sig := 62
abbrev cc9_sem0_1 : DmaSem sig := 63
abbrev cc9_sem1_0 : DmaSem sig := 64
abbrev cc9_sem1_1 : DmaSem sig := 65
abbrev cc9_sem2_0 : DmaSem sig := 66
abbrev cc9_sem2_1 : DmaSem sig := 67
abbrev cc9_sem3_0 : DmaSem sig := 68
abbrev cc9_sem3_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem2_1 : DmaSem sig := 75
abbrev cc11_sem0_0 : DmaSem sig := 76
abbrev cc11_sem0_1 : DmaSem sig := 77
abbrev cc11_sem1_0 : DmaSem sig := 78
abbrev cc11_sem1_1 : DmaSem sig := 79
abbrev cc11_sem2_0 : DmaSem sig := 80
abbrev cc11_sem2_1 : DmaSem sig := 81
abbrev cc11_sem3_0 : DmaSem sig := 82
abbrev cc11_sem3_1 : DmaSem sig := 83
abbrev cc12_sem0_0 : DmaSem sig := 84
abbrev cc12_sem0_1 : DmaSem sig := 85
abbrev cc12_sem1_0 : DmaSem sig := 86
abbrev cc12_sem1_1 : DmaSem sig := 87
abbrev cc12_sem2_0 : DmaSem sig := 88
abbrev cc12_sem2_1 : DmaSem sig := 89
abbrev cc13_sem0_0 : DmaSem sig := 90
abbrev cc13_sem0_1 : DmaSem sig := 91
abbrev cc13_sem1_0 : DmaSem sig := 92
abbrev cc13_sem1_1 : DmaSem sig := 93
abbrev cc13_sem2_0 : DmaSem sig := 94
abbrev cc13_sem2_1 : DmaSem sig := 95
abbrev cc13_sem3_0 : DmaSem sig := 96
abbrev cc13_sem3_1 : DmaSem sig := 97
abbrev cc14_sem0_0 : DmaSem sig := 98
abbrev cc14_sem0_1 : DmaSem sig := 99
abbrev cc14_sem1_0 : DmaSem sig := 100
abbrev cc14_sem1_1 : DmaSem sig := 101
abbrev cc14_sem2_0 : DmaSem sig := 102
abbrev cc14_sem2_1 : DmaSem sig := 103
abbrev cc15_sem0_0 : DmaSem sig := 104
abbrev cc15_sem0_1 : DmaSem sig := 105
abbrev cc15_sem1_0 : DmaSem sig := 106
abbrev cc15_sem1_1 : DmaSem sig := 107
abbrev cc15_sem2_0 : DmaSem sig := 108
abbrev cc15_sem2_1 : DmaSem sig := 109
abbrev cc15_sem3_0 : DmaSem sig := 110
abbrev cc15_sem3_1 : DmaSem sig := 111
abbrev cc16_sem0_0 : DmaSem sig := 112
abbrev cc16_sem0_1 : DmaSem sig := 113
abbrev cc16_sem1_0 : DmaSem sig := 114
abbrev cc16_sem1_1 : DmaSem sig := 115
abbrev cc16_sem2_0 : DmaSem sig := 116
abbrev cc16_sem2_1 : DmaSem sig := 117
abbrev cc17_sem0_0 : DmaSem sig := 118
abbrev cc17_sem0_1 : DmaSem sig := 119
abbrev cc17_sem1_0 : DmaSem sig := 120
abbrev cc17_sem1_1 : DmaSem sig := 121
abbrev cc17_sem2_0 : DmaSem sig := 122
abbrev cc17_sem2_1 : DmaSem sig := 123
abbrev cc17_sem3_0 : DmaSem sig := 124
abbrev cc17_sem3_1 : DmaSem sig := 125
abbrev cc18_sem0_0 : DmaSem sig := 126
abbrev cc18_sem0_1 : DmaSem sig := 127
abbrev cc18_sem1_0 : DmaSem sig := 128
abbrev cc18_sem1_1 : DmaSem sig := 129
abbrev cc18_sem2_0 : DmaSem sig := 130
abbrev cc18_sem2_1 : DmaSem sig := 131
abbrev cc19_sem0_0 : DmaSem sig := 132
abbrev cc19_sem0_1 : DmaSem sig := 133
abbrev cc19_sem1_0 : DmaSem sig := 134
abbrev cc19_sem1_1 : DmaSem sig := 135
abbrev cc19_sem2_0 : DmaSem sig := 136
abbrev cc19_sem2_1 : DmaSem sig := 137
abbrev cc19_sem3_0 : DmaSem sig := 138
abbrev cc19_sem3_1 : DmaSem sig := 139

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S5000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S5000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S5000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S5000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x1 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S5000x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x1 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S5000x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 2 → Memref sig .tc .vmem S5000x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![20], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S5000x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![20], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S5000x1 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S5000x128 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 2 → Memref sig .tc .vmem S5000x128 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![20], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S5000x1 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S5000x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![20], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S5000x1 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S5000x128 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev stage19_3 : Fin 2 → Memref sig .tc .vmem S5000x128 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

class Facts₀ : Prop where
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S5000x128_S5000x128 : S5000x128.ShapeCasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .f32 = 32 ∨ (Rect.block (s := S100000x1) S5000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S100000x1.size a
  hwx9_1 : ∀ i : grid9.Coords, EltTy.bits .f32 = 32 ∨ (Rect.block (s := S100000x1) S5000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S100000x128.size a
  hwx9_2 : ∀ i : grid9.Coords, EltTy.bits .f32 = 32 ∨ (Rect.block (s := S100000x128) S5000x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S100000x128.size a
  hwx9_3 : ∀ i : grid9.Coords, EltTy.bits .f32 = 32 ∨ (Rect.block (s := S100000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S100000x1.size a
  hwx10_1 : ∀ i : grid10.Coords, EltTy.bits .f32 = 32 ∨ (Rect.block (s := S100000x1) S5000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S100000x128.size a
  hwx10_2 : ∀ i : grid10.Coords, EltTy.bits .f32 = 32 ∨ (Rect.block (s := S100000x128) S5000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x1.size a ≤ S100000x1.size a
  hwx11_1 : ∀ i : grid11.Coords, EltTy.bits .f32 = 32 ∨ (Rect.block (s := S100000x1) S5000x1.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S100000x128.size a
  hwx11_2 : ∀ i : grid11.Coords, EltTy.bits .f32 = 32 ∨ (Rect.block (s := S100000x128) S5000x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S100000x128.size a
  hwx11_3 : ∀ i : grid11.Coords, EltTy.bits .f32 = 32 ∨ (Rect.block (s := S100000x128) S5000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x1.size a ≤ S100000x1.size a
  hwx12_1 : ∀ i : grid12.Coords, EltTy.bits .f32 = 32 ∨ (Rect.block (s := S100000x1) S5000x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x128.size a ≤ S100000x128.size a
  hwx12_2 : ∀ i : grid12.Coords, EltTy.bits .f32 = 32 ∨ (Rect.block (s := S100000x128) S5000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x1.size a ≤ S100000x1.size a
  hwx13_1 : ∀ i : grid13.Coords, EltTy.bits .f32 = 32 ∨ (Rect.block (s := S100000x1) S5000x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x128.size a ≤ S100000x128.size a
  hwx13_2 : ∀ i : grid13.Coords, EltTy.bits .f32 = 32 ∨ (Rect.block (s := S100000x128) S5000x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S5000x128.size a ≤ S100000x128.size a
  hwx13_3 : ∀ i : grid13.Coords, EltTy.bits .f32 = 32 ∨ (Rect.block (s := S100000x128) S5000x128.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S100000x128.size a
  hwx14_0 : ∀ i : grid14.Coords, EltTy.bits .f32 = 32 ∨ (Rect.block (s := S100000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x1.size a ≤ S100000x1.size a
  hwx14_1 : ∀ i : grid14.Coords, EltTy.bits .f32 = 32 ∨ (Rect.block (s := S100000x1) S5000x1.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x128.size a ≤ S100000x128.size a
  hwx14_2 : ∀ i : grid14.Coords, EltTy.bits .f32 = 32 ∨ (Rect.block (s := S100000x128) S5000x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S100000x128.size a
  hwx15_0 : ∀ i : grid15.Coords, EltTy.bits .f32 = 32 ∨ (Rect.block (s := S100000x128) S5000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x1.size a ≤ S100000x1.size a
  hwx15_1 : ∀ i : grid15.Coords, EltTy.bits .f32 = 32 ∨ (Rect.block (s := S100000x1) S5000x1.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x128.size a ≤ S100000x128.size a
  hwx15_2 : ∀ i : grid15.Coords, EltTy.bits .f32 = 32 ∨ (Rect.block (s := S100000x128) S5000x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S5000x128.size a ≤ S100000x128.size a
  hwx15_3 : ∀ i : grid15.Coords, EltTy.bits .f32 = 32 ∨ (Rect.block (s := S100000x128) S5000x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S100000x128.size a
  hwx16_0 : ∀ i : grid16.Coords, EltTy.bits .f32 = 32 ∨ (Rect.block (s := S100000x128) S5000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x1.size a ≤ S100000x1.size a
  hwx16_1 : ∀ i : grid16.Coords, EltTy.bits .f32 = 32 ∨ (Rect.block (s := S100000x1) S5000x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x128.size a ≤ S100000x128.size a
  hwx16_2 : ∀ i : grid16.Coords, EltTy.bits .f32 = 32 ∨ (Rect.block (s := S100000x128) S5000x128.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x128.size a ≤ S100000x128.size a
  hwx17_0 : ∀ i : grid17.Coords, EltTy.bits .f32 = 32 ∨ (Rect.block (s := S100000x128) S5000x128.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S5000x1.size a ≤ S100000x1.size a
  hwx17_1 : ∀ i : grid17.Coords, EltTy.bits .f32 = 32 ∨ (Rect.block (s := S100000x1) S5000x1.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S5000x128.size a ≤ S100000x128.size a
  hwx17_2 : ∀ i : grid17.Coords, EltTy.bits .f32 = 32 ∨ (Rect.block (s := S100000x128) S5000x128.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S5000x128.size a ≤ S100000x128.size a
  hwx17_3 : ∀ i : grid17.Coords, EltTy.bits .f32 = 32 ∨ (Rect.block (s := S100000x128) S5000x128.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x128.size a ≤ S100000x128.size a
  hwx18_0 : ∀ i : grid18.Coords, EltTy.bits .f32 = 32 ∨ (Rect.block (s := S100000x128) S5000x128.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S5000x1.size a ≤ S100000x1.size a
  hwx18_1 : ∀ i : grid18.Coords, EltTy.bits .f32 = 32 ∨ (Rect.block (s := S100000x1) S5000x1.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S5000x128.size a ≤ S100000x128.size a
  hwx18_2 : ∀ i : grid18.Coords, EltTy.bits .f32 = 32 ∨ (Rect.block (s := S100000x128) S5000x128.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x128.size a ≤ S100000x128.size a
  hwx19_0 : ∀ i : grid19.Coords, EltTy.bits .f32 = 32 ∨ (Rect.block (s := S100000x128) S5000x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S5000x1.size a ≤ S100000x1.size a
  hwx19_1 : ∀ i : grid19.Coords, EltTy.bits .f32 = 32 ∨ (Rect.block (s := S100000x1) S5000x1.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S5000x128.size a ≤ S100000x128.size a
  hwx19_2 : ∀ i : grid19.Coords, EltTy.bits .f32 = 32 ∨ (Rect.block (s := S100000x128) S5000x128.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S5000x128.size a ≤ S100000x128.size a
  hwx19_3 : ∀ i : grid19.Coords, EltTy.bits .f32 = 32 ∨ (Rect.block (s := S100000x128) S5000x128.size (cc19_transform_3 i) (hinb19_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v22) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v23) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v23) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v34) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg0) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v35) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v35) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v36) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v46) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg1) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg0) S5000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v47) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v47) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg1) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v48) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v58) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg1) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg0) S5000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v59) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v59) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg1) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v60) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v70) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg1) S5000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_arg0) S5000x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v71) S5000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v71) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg1) S5000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v72) S5000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v82) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg1) S5000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_arg0) S5000x128.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v83) S5000x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v83) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg1) S5000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v84) S5000x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v94) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg1) S5000x1.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_arg0) S5000x128.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v95) S5000x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v95) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg1) S5000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v96) S5000x128.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v106) S5000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_arg1) S5000x1.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_arg0) S5000x128.size cc17_transform_2 reads17_2 false false 2 stage17_2 sem17_2
    hrank17 hreads17_2 hinb17_2 nbuf17_2 (Memref.isWhole_whole _) hwx17_2 hstage17_2

abbrev win17_3 : Pipeline.Window sig grid17 :=
  Pipeline.Window.ofSpec (Memref.whole main_v107) S5000x128.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v107) S5000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_arg1) S5000x1.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v108) S5000x128.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v118) S5000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_arg1) S5000x1.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_arg0) S5000x128.size cc19_transform_2 reads19_2 false false 2 stage19_2 sem19_2
    hrank19 hreads19_2 hinb19_2 nbuf19_2 (Memref.isWhole_whole _) hwx19_2 hstage19_2

abbrev win19_3 : Pipeline.Window sig grid19 :=
  Pipeline.Window.ofSpec (Memref.whole main_v119) S5000x128.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩

abbrev nBuf : Space → Nat
  | .hbm => 244
  | .vmem => 0
  | .smem => 0
  | _ => 0

abbrev hbmTy0_0 (i : Nat) : BufTy := match i % 128 with
  | 0 => ⟨S100000x128, .f32⟩
  | 1 => ⟨S100000x1, .f32⟩
  | 2 => ⟨S1600000, .i32⟩
  | 3 => ⟨S1600000, .i32⟩
  | 4 => ⟨S100000x128, .f32⟩
  | 5 => ⟨S100000x128, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x128, .f32⟩
  | 15 => ⟨S_, .f32⟩
  | 16 => ⟨S100000x128, .f32⟩
  | 17 => ⟨S1600000x1, .i32⟩
  | 18 => ⟨S100000x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S100000x128, .f32⟩
  | 28 => ⟨S100000x128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S100000x128, .f32⟩
  | 101 => ⟨S100000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S100000x128, .f32⟩
  | 125 => ⟨S100000x128, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S100000x128, .f32⟩
  | 21 => ⟨S100000x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S100000x128, .f32⟩
  | 92 => ⟨S100000x128, .f32⟩
  | 93 => ⟨S100000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_13 : Ref sig .tc := ⟨.hbm, 78, rfl⟩
abbrev main_v59 : Ref sig .tc := ⟨.hbm, 79, rfl⟩
abbrev main_v60 : Ref sig .tc := ⟨.hbm, 80, rfl⟩
abbrev main_c_14 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_cst_17 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_18 : Ref sig .tc := ⟨.hbm, 102, rfl⟩
abbrev main_v78 : Ref sig .tc := ⟨.hbm, 103, rfl⟩
abbrev main_v79 : Ref sig .tc := ⟨.hbm, 104, rfl⟩
abbrev main_c_19 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_20 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_21 : Ref sig .tc := ⟨.hbm, 117, rfl⟩
abbrev main_v90 : Ref sig .tc := ⟨.hbm, 118, rfl⟩
abbrev main_v91 : Ref sig .tc := ⟨.hbm, 119, rfl⟩
abbrev main_cst_22 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_23 : Ref sig .tc := ⟨.hbm, 126, rfl⟩
abbrev main_v97 : Ref sig .tc := ⟨.hbm, 127, rfl⟩
abbrev main_v98 : Ref sig .tc := ⟨.hbm, 128, rfl⟩
abbrev main_c_24 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_25 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_26 : Ref sig .tc := ⟨.hbm, 141, rfl⟩
abbrev main_v109 : Ref sig .tc := ⟨.hbm, 142, rfl⟩
abbrev main_v110 : Ref sig .tc := ⟨.hbm, 143, rfl⟩
abbrev main_cst_27 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_c_28 : Ref sig .tc := ⟨.hbm, 150, rfl⟩
abbrev main_v116 : Ref sig .tc := ⟨.hbm, 151, rfl⟩
abbrev main_v117 : Ref sig .tc := ⟨.hbm, 152, rfl⟩
abbrev main_c_29 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_30 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_31 : Ref sig .tc := ⟨.hbm, 165, rfl⟩
abbrev main_v128 : Ref sig .tc := ⟨.hbm, 166, rfl⟩
abbrev main_v129 : Ref sig .tc := ⟨.hbm, 167, rfl⟩
abbrev main_cst_32 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_c_33 : Ref sig .tc := ⟨.hbm, 174, rfl⟩
abbrev main_v135 : Ref sig .tc := ⟨.hbm, 175, rfl⟩
abbrev main_v136 : Ref sig .tc := ⟨.hbm, 176, rfl⟩
abbrev main_c_34 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_35 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_36 : Ref sig .tc := ⟨.hbm, 189, rfl⟩
abbrev main_v147 : Ref sig .tc := ⟨.hbm, 190, rfl⟩
abbrev main_v148 : Ref sig .tc := ⟨.hbm, 191, rfl⟩
abbrev main_cst_37 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_c_38 : Ref sig .tc := ⟨.hbm, 198, rfl⟩
abbrev main_v154 : Ref sig .tc := ⟨.hbm, 199, rfl⟩
abbrev main_v155 : Ref sig .tc := ⟨.hbm, 200, rfl⟩
abbrev main_c_39 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_40 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_41 : Ref sig .tc := ⟨.hbm, 213, rfl⟩
abbrev main_v166 : Ref sig .tc := ⟨.hbm, 214, rfl⟩
abbrev main_v167 : Ref sig .tc := ⟨.hbm, 215, rfl⟩
abbrev main_cst_42 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_c_43 : Ref sig .tc := ⟨.hbm, 222, rfl⟩
abbrev main_v173 : Ref sig .tc := ⟨.hbm, 223, rfl⟩
abbrev main_v174 : Ref sig .tc := ⟨.hbm, 224, rfl⟩
abbrev main_c_44 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_45 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_cst_46 : Ref sig .tc := ⟨.hbm, 237, rfl⟩
abbrev main_v185 : Ref sig .tc := ⟨.hbm, 238, rfl⟩
abbrev main_v186 : Ref sig .tc := ⟨.hbm, 239, rfl⟩
abbrev main_cst_47 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result named.

  The program is twenty tiled passes over the rows among ten stretches of host operations. Its run ends with
  every unscoped buffer at the contents the last boundary of that chain gives it; here the result buffer is
  kept in the postcondition beside the four arguments, so that its contents can be computed boundary by
  boundary afterwards.
-/
import proofs.«108799_j25357486915690_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v119) = W30 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h c =>
      ⟨h c _ (mem_uc main_v119 (by decide)),
       (h c _ (mem_uc main_arg0 (by decide))).trans (W30_main_arg0 m ρ c),
       (h c _ (mem_uc main_arg1 (by decide))).trans (W30_main_arg1 m ρ c),
       (h c _ (mem_uc main_arg2 (by decide))).trans (W30_main_arg2 m ρ c),
       (h c _ (mem_uc main_arg3 (by decide))).trans (W30_main_arg3 m ρ c)⟩)

end Cert.KernelIdeal.Hand

end
-- ==== Proof.Spec.lean ====
/-
  Ten rounds of normalised propagation on a graph, as one function of the node features.

  With `h` the [100000,128] feature array, `n` the [100000,1] column of per-node factors and `agg` the
  edge aggregation (gather the rows at the edges' sources, add them up at the edges' targets), one round is
      h ↦ (agg (h · n) · n) · 0.9 + h₀ · 0.1
  where `· n` multiplies row `r` by `n r`, the two scalars are the f32 words 0x3F666666 and 0x3DCCCCCD,
  and `h₀` is the input. `propagate … k` is the features after `k` rounds. The aggregation is a parameter:
  both programs apply the same host operations there, and nothing below looks inside it.

  The entry-wise readings say what one entry depends on: `scaleRows` at (r, q) is the entry times the
  factor of row `r`; `mix` at (r, q) is ((a · n r) · 0.9) + (h₀ · 0.1) at that entry. The block
  readings say the same of a block of 5000 rows cut out of the arrays, which is how a tiled pass over the
  rows computes them: row `p` of the block that starts at row `5000 t` is row `5000 t + p` of the array.
-/
import Idealize.ShloMosaic.PureOps
import Idealize.ShloMosaic.Lib.ValueIdx
import Idealize.ShloMosaic.Lib.Pipeline.Value

noncomputable section

namespace Cert.Appnp

open Idealize.ShloMosaic

/-- Node features, the per-node factor column, a scalar. -/
abbrev SNd : Shape := ⟨2, ![100000, 128]⟩
abbrev SN1 : Shape := ⟨2, ![100000, 1]⟩
abbrev S0 : Shape := ⟨0, ![]⟩
/-- The edge lists, as a vector, as a column, and the gathered rows. -/
abbrev SE : Shape := ⟨1, ![1600000]⟩
abbrev SE1 : Shape := ⟨2, ![1600000, 1]⟩
abbrev SEd : Shape := ⟨2, ![1600000, 128]⟩
/-- A block of 5000 rows of each. -/
abbrev SBd : Shape := ⟨2, ![5000, 128]⟩
abbrev SB1 : Shape := ⟨2, ![5000, 1]⟩

variable {F : FTy → Type} [FloatOps F]

/-- A column repeats along the rows' second axis; a scalar repeats everywhere. -/
theorem colBroadcasts : SN1.BroadcastsInDim SNd (![0, 1] : Fin 2 → Fin SNd.rank) := by decide
theorem scalarBroadcasts : S0.BroadcastsInDim SNd (![] : Fin 0 → Fin SNd.rank) := by decide
theorem edgeScalar : S0.BroadcastsInDim SE (![] : Fin 0 → Fin SE.rank) := by decide
theorem edgeColumn : SE.BroadcastsInDim SE1 (![0] : Fin 1 → Fin SE1.rank) := by decide

/-- THE EDGE AGGREGATION, as both programs spell it on the host: a negative source index wraps by the number of
    nodes, the rows of `hs` at the sources are gathered (dimension record `gd`), and they are added up at the
    targets into an array of zeros (dimension record `sd`). It is carried whole: no proof below opens it. -/
def aggregate (gd : GatherDims SNd SE1 SEd) (sd : ScatterDims SNd SE1 SEd) (src dst : IVec SE 32) (hs : FVec F SNd .f32) :
    FVec F SNd .f32 :=
  Host.scatterAdd sd (broadcastInDim SNd ![] scalarBroadcasts (constant S0 .f32 0x00000000#32))
    (broadcastInDim SE1 ![0] edgeColumn dst)
    (Host.gather gd hs (broadcastInDim SE1 ![0] edgeColumn
      (select (cmpi .slt src (broadcastInDim SE ![] edgeScalar (constantI S0 32 0#32)))
        (addi src (broadcastInDim SE ![] edgeScalar (constantI S0 32 100000#32))) src)))

/-- Row `r` of `x` times the factor `n r`. -/
def scaleRows (x : FVec F SNd .f32) (n : FVec F SN1 .f32) :
    FVec F SNd .f32 :=
  mulf x (broadcastInDim SNd ![0, 1] colBroadcasts n)

/-- The end of a round: the aggregate scaled by the factors and by 0.9, plus a tenth of the input. -/
def mix (a : FVec F SNd .f32) (n : FVec F SN1 .f32) (h0 : FVec F SNd .f32) : FVec F SNd .f32 :=
  addf (mulf (mulf a (broadcastInDim SNd ![0, 1] colBroadcasts n)) (broadcastInDim SNd ![] scalarBroadcasts (constant S0 .f32 0x3F666666#32)))
    (mulf h0 (broadcastInDim SNd ![] scalarBroadcasts (constant S0 .f32 0x3DCCCCCD#32)))

/-- The features after `k` rounds. -/
def propagate (agg : FVec F SNd .f32 → FVec F SNd .f32) (n : FVec F SN1 .f32) (h0 : FVec F SNd .f32) : Nat → FVec F SNd .f32
  | 0 => h0
  | k + 1 => mix (agg (scaleRows (propagate agg n h0 k) n)) n h0

/-- The factor column repeated along a row, read at an entry: the factor of the entry's row. -/
theorem column_apply (n : FVec F SN1 .f32) (i : SNd.Idx) (k : SN1.Idx)
    (hk : (k 0).val = (i 0).val) : broadcastInDim SNd ![0, 1] colBroadcasts n i = n k := by
  refine broadcastInDim_apply _ colBroadcasts n i k fun a => ?_
  match a with
  | ⟨0, _⟩ => exact hk
  | ⟨1, _⟩ => have h1 : (k 1).val < 1 := (k 1).isLt; show (k 1).val = 0; omega

/-- A scalar repeated over the array, read at an entry. -/
theorem scalar_apply (b : BitVec 32) (i : SNd.Idx) :
    broadcastInDim SNd ![] scalarBroadcasts (constant (F := F) S0 .f32 b) i = FloatOps.ofBits .f32 b := rfl

/-- `scaleRows` at an entry. -/
theorem scaleRows_apply (x : FVec F SNd .f32) (n : FVec F SN1 .f32)
    (i : SNd.Idx) (k : SN1.Idx) (hk : (k 0).val = (i 0).val) : scaleRows x n i = FloatOps.mulf (x i) (n k) := by
  show FloatOps.mulf (x i) (broadcastInDim SNd ![0, 1] colBroadcasts n i) = _
  rw [column_apply n i k hk]

/-- `mix` at an entry. -/
theorem mix_apply (a : FVec F SNd .f32) (n : FVec F SN1 .f32) (h0 : FVec F SNd .f32) (i : SNd.Idx) (k : SN1.Idx) (hk : (k 0).val = (i 0).val) :
    mix a n h0 i = FloatOps.addf (FloatOps.mulf (FloatOps.mulf (a i) (n k)) (FloatOps.ofBits .f32 0x3F666666#32))
      (FloatOps.mulf (h0 i) (FloatOps.ofBits .f32 0x3DCCCCCD#32)) := by
  show FloatOps.addf (FloatOps.mulf (FloatOps.mulf (a i) (broadcastInDim SNd ![0, 1] colBroadcasts n i)) _) _ = _
  rw [column_apply n i k hk]
  rfl

/-- A block's factor column repeated along a row of the block, read at an entry of the block. -/
theorem blockColumn_apply (hb : SB1.Broadcasts SBd) (x1 : SB1.Idx → F .f32) (j : SBd.Idx) (k : SB1.Idx) (hk : (k 0).val = (j 0).val) :
    broadcastTo SBd x1 hb j = x1 k := by
  refine broadcastTo_apply x1 hb j k fun a => ?_
  match a with
  | ⟨0, _⟩ => exact hk
  | ⟨1, _⟩ => have h1 : (k 1).val < 1 := (k 1).isLt; show (k 1).val = 0; omega

/-- A BLOCK OF SCALED ROWS. `x0` and `x1` are a block of 5000 rows of `A` and of the factor column `B` starting at row `r`
    (`e` places an entry of the block in the array). The block's rows times the block's factors, at an entry of the
    block, is `scaleRows A B` at that entry's place in the array. -/
theorem scaleRows_block (hb : SB1.Broadcasts SBd) (A : FVec F SNd .f32) (B : FVec F SN1 .f32)
    (x0 : Vec F SBd .f32) (x1 : Vec F SB1 .f32) (r : Nat) (e : SBd.Idx → SNd.Idx)
    (he : ∀ j, (e j 0).val = r + (j 0).val)
    (h0 : ∀ j, x0 j = A (e j))
    (h1 : ∀ (k : SB1.Idx) (i : SN1.Idx), (i 0).val = r + (k 0).val → x1 k = B i) (j : SBd.Idx) :
    (mulf x0 (broadcastTo SBd x1 hb) : FVec F SBd .f32) j = scaleRows A B (e j) := by
  rw [scaleRows_apply A B (e j) (ValueIdx.ix2 (n0 := 100000) (n1 := 1) (e j 0) 0) rfl]
  show FloatOps.mulf (x0 j) (broadcastTo SBd x1 hb j) = _
  rw [blockColumn_apply hb x1 j (ValueIdx.ix2 (n0 := 5000) (n1 := 1) (j 0) 0) rfl, h0 j,
    h1 (ValueIdx.ix2 (n0 := 5000) (n1 := 1) (j 0) 0) (ValueIdx.ix2 (n0 := 100000) (n1 := 1) (e j 0) 0) (he j)]

/-- The same when the pass first casts the block of rows to its own shape. -/
theorem scaleRows_block_cast (hs : SBd.ShapeCasts SBd) (hb : SB1.Broadcasts SBd) (A : FVec F SNd .f32) (B : FVec F SN1 .f32)
    (x0 : Vec F SBd .f32) (x1 : Vec F SB1 .f32) (r : Nat) (e : SBd.Idx → SNd.Idx)
    (he : ∀ j, (e j 0).val = r + (j 0).val)
    (h0 : ∀ j, x0 j = A (e j))
    (h1 : ∀ (k : SB1.Idx) (i : SN1.Idx), (i 0).val = r + (k 0).val → x1 k = B i) (j : SBd.Idx) :
    (mulf (shapeCast SBd x0 hs) (broadcastTo SBd x1 hb) : FVec F SBd .f32) j = scaleRows A B (e j) := by
  rw [shapeCast_self]
  exact scaleRows_block hb A B x0 x1 r e he h0 h1 j

/-- A BLOCK OF THE ROUND'S END. With `x0`, `x1`, `x2` the blocks of the aggregate `A`, the factor column `B` and the
    input `H` at rows `r …`, the tiled pass's arithmetic on the block (a cast of the block to its own shape, the
    factors repeated along the rows, the two scalars splat) at an entry is `mix A B H` at the entry's place. -/
theorem mix_block (hs : SBd.ShapeCasts SBd) (hb : SB1.Broadcasts SBd) (A : FVec F SNd .f32) (B : FVec F SN1 .f32) (H : FVec F SNd .f32)
    (x0 : Vec F SBd .f32) (x1 : Vec F SB1 .f32) (x2 : Vec F SBd .f32) (r : Nat) (e : SBd.Idx → SNd.Idx)
    (he : ∀ j, (e j 0).val = r + (j 0).val)
    (h0 : ∀ j, x0 j = A (e j))
    (h1 : ∀ (k : SB1.Idx) (i : SN1.Idx), (i 0).val = r + (k 0).val → x1 k = B i)
    (h2 : ∀ j, x2 j = H (e j)) (j : SBd.Idx) :
    (addf (mulf (mulf (shapeCast SBd x0 hs) (broadcastTo SBd x1 hb)) (broadcast SBd (Scalar.ofBits (F := F) .f32 0x3F666666#32)))
      (mulf x2 (broadcast SBd (Scalar.ofBits (F := F) .f32 0x3DCCCCCD#32))) : FVec F SBd .f32) j = mix A B H (e j) := by
  rw [mix_apply A B H (e j) (ValueIdx.ix2 (n0 := 100000) (n1 := 1) (e j 0) 0) rfl, shapeCast_self]
  show FloatOps.addf (FloatOps.mulf (FloatOps.mulf (x0 j) (broadcastTo SBd x1 hb j)) _) (FloatOps.mulf (x2 j) _) = _
  rw [blockColumn_apply hb x1 j (ValueIdx.ix2 (n0 := 5000) (n1 := 1) (j 0) 0) rfl, h0 j, h2 j,
    h1 (ValueIdx.ix2 (n0 := 5000) (n1 := 1) (j 0) 0) (ValueIdx.ix2 (n0 := 100000) (n1 := 1) (e j 0) 0) (he j)]
  rfl

end Cert.Appnp

end
-- ==== Proof.Pass0.lean ====
/-
  Pass 0 of the idealized kernel: every row of an array times its node's factor, 5000 rows at a time.

  The pass reads the array `main_arg0` and the factor column through blocks of 5000 rows and writes `main_v0`
  block by block; block `t` of each starts at row `5000 t`. What a grid point writes back is its block of
  `scaleRows` of the two arrays as the pass finds them; the twenty blocks cover the rows, so the array
  the pass leaves is `scaleRows` of them. The other buffers the chain needs are as the pass found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass0

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The three index maps over the grid: point `t`'s blocks are block `t` along the rows and block 0 across. -/
theorem blocks_at : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

section AtEntry
variable (V : (c : Dev nD) → (b : Ref sig .tc) → Buf (Elt F) ((c : Thread nD τ).loc b))

/-- What point `t` writes back is block `t` of the scaled rows of the arrays the pass finds. -/
theorem flushed_eq (c : Dev nD) (t : Fin cfg0.N) :
    (dat0 V c).flushed 2 t = ((cfg0.win 2).blk t).view.read (Elt F) (scaleRows (V c main_arg0) (V c main_arg1)) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S5000x1) offsets_zero]
  obtain ⟨e0, e1, e2, e3, e4, e5⟩ := blocks_at t
  funext j
  refine scaleRows_block broadcasts_S5000x1_S5000x128 (V c main_arg0) (V c main_arg1) (iblk0 V c 0 t) (iblk0 V c 1 t)
    (t.val * 5000) (((cfg0.win 2).blk t).view.emb) (fun y => ?_) (fun y => ?_) (fun k i hi => ?_) j
  · show win0_2.index t (0 : Fin 2) * 5000 + 1 * (y 0).val = _
    rw [e4]; omega
  · show V c main_arg0 (((cfg0.win 0).blk t).view.emb y) = V c main_arg0 (((cfg0.win 2).blk t).view.emb y)
    refine congrArg _ (funext fun a => Fin.ext ?_)
    match a with
    | ⟨0, _⟩ => show win0_0.index t (0 : Fin 2) * 5000 + 1 * (y 0).val = win0_2.index t (0 : Fin 2) * 5000 + 1 * (y 0).val; rw [e0, e4]
    | ⟨1, _⟩ => show win0_0.index t (1 : Fin 2) * 128 + 1 * (y 1).val = win0_2.index t (1 : Fin 2) * 128 + 1 * (y 1).val; rw [e1, e5]
  · show V c main_arg1 (((cfg0.win 1).blk t).view.emb k) = V c main_arg1 i
    refine congrArg _ (funext fun a => Fin.ext ?_)
    match a with
    | ⟨0, _⟩ => show win0_1.index t (0 : Fin 2) * 5000 + 1 * (k 0).val = (i 0).val; rw [e2, hi]; omega
    | ⟨1, _⟩ =>
      show win0_1.index t (1 : Fin 2) * 1 + 1 * (k 1).val = (i 1).val
      have hk : (k 1).val < 1 := (k 1).isLt
      have hi1 : (i 1).val < 1 := (i 1).isLt
      rw [e3]; omega

/-- An index of the array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Row `r` is in the block of point `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := blocks_at t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- The array the pass leaves: the scaled rows of the arrays it found. -/
theorem array_eq (c : Dev nD) : (dat0 V c).arrAt 2 cfg0.N = scaleRows (V c main_arg0) (V c main_arg1) :=
  (dat0 V c).arrAt_eq_of_cover 2 (scaleRows (V c main_arg0) (V c main_arg1)) (fun t _ => flushed_eq V c t) (fun i => covered i)

end AtEntry

variable (m : (ℓ : Loc nD τ sig) → Buf (Elt F) ℓ) (ρ : Dev nD → PrngReg)

/-- Across the pass: its output at the scaled rows of its input, the four arguments as they were. -/
theorem result (c : Dev nD) : W1 m ρ c (Proc.devRef .tc main_v0)
    = scaleRows (W0 m ρ c (Proc.devRef .tc main_arg0)) (W0 m ρ c (Proc.devRef .tc main_arg1)) :=
  (W1_arr m ρ c 2).trans (array_eq (V0 m ρ) c)
theorem keep_arg0 (c : Dev nD) : W1 m ρ c (Proc.devRef .tc main_arg0) = W0 m ρ c (Proc.devRef .tc main_arg0) :=
  (W1_arr m ρ c 0).trans (((dat0 (V0 m ρ) c).arrAt_in 0 rfl _).trans (A_eq0 (V0 m ρ) c 0))
theorem keep_arg1 (c : Dev nD) : W1 m ρ c (Proc.devRef .tc main_arg1) = W0 m ρ c (Proc.devRef .tc main_arg1) :=
  (W1_arr m ρ c 1).trans (((dat0 (V0 m ρ) c).arrAt_in 1 rfl _).trans (A_eq0 (V0 m ρ) c 1))
theorem keep_arg2 (c : Dev nD) : W1 m ρ c (Proc.devRef .tc main_arg2) = W0 m ρ c (Proc.devRef .tc main_arg2) :=
  W1_of_ne m ρ c main_arg2 (by decide)
theorem keep_arg3 (c : Dev nD) : W1 m ρ c (Proc.devRef .tc main_arg3) = W0 m ρ c (Proc.devRef .tc main_arg3) :=
  W1_of_ne m ρ c main_arg3 (by decide)

end Cert.KernelIdeal.Hand.Pass0

end
-- ==== Proof.Edges1.lean ====
/-
  The host operations between two passes of the idealized kernel (stretch 1): the edge aggregation.

  From any buffer contents the thirteen operations leave in `main_v10` the aggregation (Spec: `aggregate`) of
  the rows of `main_v0` along the edge lists, and write none of the four arguments.
-/
import proofs.«108799_j25357486915690_1_alg».proof.Proof.Gen.KernelIdeal.Frame
import proofs.«108799_j25357486915690_1_alg».proof.Proof.Spec

set_option maxRecDepth 16384

noncomputable section

namespace Cert.KernelIdeal.Hand.Edges1

open Cert.KernelIdeal Cert.KernelIdeal.Gen Cert.Appnp
open Idealize.ShloMosaic Idealize.ShloMosaic.TcCoe Idealize.ShloMosaic.StableHlo Idealize.SL.Sem

variable {F : FTy → Type} [FloatOps F]

set_option maxHeartbeats 2000000 in
/-- After the stretch the scatter's result holds the aggregation of the gathered array. -/
theorem result (Wc : Valuation τ sig (Elt F)) :
    StableHlo.after hostOps1 Wc (Proc.devRef .tc main_v10)
      = aggregate gather_S100000x128_S1600000x1_S1600000x128_1_0_n_n_0_1_1128 scatter_S100000x128_S1600000x1_S1600000x128_1_0_0_1
          (Wc (Proc.devRef .tc main_arg2)) (Wc (Proc.devRef .tc main_arg3)) (Wc (Proc.devRef .tc main_v0)) := by
  after_results
  rfl

theorem keep_arg0 (Wc : Valuation τ sig (Elt F)) :
    StableHlo.after hostOps1 Wc (Proc.devRef .tc main_arg0) = Wc (Proc.devRef .tc main_arg0) := by
  after_results
theorem keep_arg1 (Wc : Valuation τ sig (Elt F)) :
    StableHlo.after hostOps1 Wc (Proc.devRef .tc main_arg1) = Wc (Proc.devRef .tc main_arg1) := by
  after_results
theorem keep_arg2 (Wc : Valuation τ sig (Elt F)) :
    StableHlo.after hostOps1 Wc (Proc.devRef .tc main_arg2) = Wc (Proc.devRef .tc main_arg2) := by
  after_results
theorem keep_arg3 (Wc : Valuation τ sig (Elt F)) :
    StableHlo.after hostOps1 Wc (Proc.devRef .tc main_arg3) = Wc (Proc.devRef .tc main_arg3) := by
  after_results

end Cert.KernelIdeal.Hand.Edges1

end
-- ==== Proof.Pass1.lean ====
/-
  Pass 1 of the idealized kernel: the end of a round, 5000 rows at a time.

  The pass reads the aggregate `main_v10`, the factor column and the input features through blocks of 5000
  rows and writes `main_v11` block by block; block `t` of each starts at row `5000 t`. What a grid point
  writes back is its block of `mix` of the three arrays as the pass finds them; the twenty blocks cover the
  rows, so the array the pass leaves is `mix` of them. The other buffers the chain needs are as the pass
  found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass1

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The four index maps over the grid: point `t`'s blocks are block `t` along the rows and block 0 across. -/
theorem blocks_at : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

section AtEntry
variable (V : (c : Dev nD) → (b : Ref sig .tc) → Buf (Elt F) ((c : Thread nD τ).loc b))

/-- What point `t` writes back is block `t` of the round's end computed from the arrays the pass finds. -/
theorem flushed_eq (c : Dev nD) (t : Fin cfg1.N) :
    (dat1 V c).flushed 3 t
      = ((cfg1.win 3).blk t).view.read (Elt F) (mix (V c main_v10) (V c main_arg1) (V c main_arg0)) := by
  show (cfg1.win 3).cut (grid1.coords t) ((dat1 V c).after 3 t) = _
  rw [after1_3]
  unfold out1_3
  rw [View.canon_unit_zero offsets_zero]
  simp only [View.ld_unit_zero (S := S5000x128) offsets_zero, View.ld_unit_zero (S := S5000x1) offsets_zero]
  obtain ⟨e0, e1, e2, e3, e4, e5, e6, e7⟩ := blocks_at t
  funext j
  refine mix_block shapeCasts_S5000x128_S5000x128 broadcasts_S5000x1_S5000x128 (V c main_v10) (V c main_arg1) (V c main_arg0)
    (iblk1 V c 0 t) (iblk1 V c 1 t) (iblk1 V c 2 t)
    (t.val * 5000) (((cfg1.win 3).blk t).view.emb) (fun y => ?_) (fun y => ?_) (fun k i hi => ?_) (fun y => ?_) j
  · show win1_3.index t (0 : Fin 2) * 5000 + 1 * (y 0).val = _
    rw [e6]; omega
  · show V c main_v10 (((cfg1.win 0).blk t).view.emb y) = V c main_v10 (((cfg1.win 3).blk t).view.emb y)
    refine congrArg _ (funext fun a => Fin.ext ?_)
    match a with
    | ⟨0, _⟩ => show win1_0.index t (0 : Fin 2) * 5000 + 1 * (y 0).val = win1_3.index t (0 : Fin 2) * 5000 + 1 * (y 0).val; rw [e0, e6]
    | ⟨1, _⟩ => show win1_0.index t (1 : Fin 2) * 128 + 1 * (y 1).val = win1_3.index t (1 : Fin 2) * 128 + 1 * (y 1).val; rw [e1, e7]
  · show V c main_arg1 (((cfg1.win 1).blk t).view.emb k) = V c main_arg1 i
    refine congrArg _ (funext fun a => Fin.ext ?_)
    match a with
    | ⟨0, _⟩ => show win1_1.index t (0 : Fin 2) * 5000 + 1 * (k 0).val = (i 0).val; rw [e2, hi]; omega
    | ⟨1, _⟩ =>
      show win1_1.index t (1 : Fin 2) * 1 + 1 * (k 1).val = (i 1).val
      have hk : (k 1).val < 1 := (k 1).isLt
      have hi1 : (i 1).val < 1 := (i 1).isLt
      rw [e3]; omega
  · show V c main_arg0 (((cfg1.win 2).blk t).view.emb y) = V c main_arg0 (((cfg1.win 3).blk t).view.emb y)
    refine congrArg _ (funext fun a => Fin.ext ?_)
    match a with
    | ⟨0, _⟩ => show win1_2.index t (0 : Fin 2) * 5000 + 1 * (y 0).val = win1_3.index t (0 : Fin 2) * 5000 + 1 * (y 0).val; rw [e4, e6]
    | ⟨1, _⟩ => show win1_2.index t (1 : Fin 2) * 128 + 1 * (y 1).val = win1_3.index t (1 : Fin 2) * 128 + 1 * (y 1).val; rw [e5, e7]

/-- An index of the array is in point `t`'s block iff each coordinate is in the block's range on its axis. -/
theorem mem_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v11).slice (win1_3.rect t)).set ↔ _
  rw [View.set_slice_whole, Rect.mem_set_unit]
  exact Iff.rfl

/-- Row `r` is in the block of point `r / 5000`. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e6, e7⟩ := blocks_at t
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    rw [e6, ht]; omega
  | ⟨1, _⟩ =>
    show win1_3.index t (1 : Fin 2) * 128 ≤ (i 1).val ∧ (i 1).val < win1_3.index t (1 : Fin 2) * 128 + 128
    rw [e7]; omega

/-- The array the pass leaves: the round's end computed from the arrays it found. -/
theorem array_eq (c : Dev nD) : (dat1 V c).arrAt 3 cfg1.N = mix (V c main_v10) (V c main_arg1) (V c main_arg0) :=
  (dat1 V c).arrAt_eq_of_cover 3 (mix (V c main_v10) (V c main_arg1) (V c main_arg0)) (fun t _ => flushed_eq V c t)
    (fun i => covered i)

end AtEntry

variable (m : (ℓ : Loc nD τ sig) → Buf (Elt F) ℓ) (ρ : Dev nD → PrngReg)

/-- Across the pass: its output at the round's end of its inputs, the four arguments as they were. -/
theorem result (c : Dev nD) : W3 m ρ c (Proc.devRef .tc main_v11)
    = mix (W2 m ρ c (Proc.devRef .tc main_v10)) (W2 m ρ c (Proc.devRef .tc main_arg1)) (W2 m ρ c (Proc.devRef .tc main_arg0)) :=
  (W3_arr m ρ c 3).trans (array_eq (V2 m ρ) c)
theorem keep_arg0 (c : Dev nD) : W3 m ρ c (Proc.devRef .tc main_arg0) = W2 m ρ c (Proc.devRef .tc main_arg0) :=
  (W3_arr m ρ c 2).trans (((dat1 (V2 m ρ) c).arrAt_in 2 rfl _).trans (A_eq1 (V2 m ρ) c 2))
theorem keep_arg1 (c : Dev nD) : W3 m ρ c (Proc.devRef .tc main_arg1) = W2 m ρ c (Proc.devRef .tc main_arg1) :=
  (W3_arr m ρ c 1).trans (((dat1 (V2 m ρ) c).arrAt_in 1 rfl _).trans (A_eq1 (V2 m ρ) c 1))
theorem keep_arg2 (c : Dev nD) : W3 m ρ c (Proc.devRef .tc main_arg2) = W2 m ρ c (Proc.devRef .tc main_arg2) :=
  W3_of_ne m ρ c main_arg2 (by decide)
theorem keep_arg3 (c : Dev nD) : W3 m ρ c (Proc.devRef .tc main_arg3) = W2 m ρ c (Proc.devRef .tc main_arg3) :=
  W3_of_ne m ρ c main_arg3 (by decide)

end Cert.KernelIdeal.Hand.Pass1

end
-- ==== Proof.Pass2.lean ====
/-
  Pass 2 of the idealized kernel: every row of an array times its node's factor, 5000 rows at a time.

  The pass reads the array `main_v11` and the factor column through blocks of 5000 rows and writes `main_v12`
  block by block; block `t` of each starts at row `5000 t`. What a grid point writes back is its block of
  `scaleRows` of the two arrays as the pass finds them; the twenty blocks cover the rows, so the array
  the pass leaves is `scaleRows` of them. The other buffers the chain needs are as the pass found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass2

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The three index maps over the grid: point `t`'s blocks are block `t` along the rows and block 0 across. -/
theorem blocks_at : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

section AtEntry
variable (V : (c : Dev nD) → (b : Ref sig .tc) → Buf (Elt F) ((c : Thread nD τ).loc b))

/-- What point `t` writes back is block `t` of the scaled rows of the arrays the pass finds. -/
theorem flushed_eq (c : Dev nD) (t : Fin cfg2.N) :
    (dat2 V c).flushed 2 t = ((cfg2.win 2).blk t).view.read (Elt F) (scaleRows (V c main_v11) (V c main_arg1)) := by
  show (cfg2.win 2).cut (grid2.coords t) ((dat2 V c).after 2 t) = _
  rw [after2_2]
  unfold out2_2
  rw [View.canon_unit_zero offsets_zero]
  simp only [View.ld_unit_zero (S := S5000x128) offsets_zero, View.ld_unit_zero (S := S5000x1) offsets_zero]
  obtain ⟨e0, e1, e2, e3, e4, e5⟩ := blocks_at t
  funext j
  refine scaleRows_block_cast shapeCasts_S5000x128_S5000x128 broadcasts_S5000x1_S5000x128 (V c main_v11) (V c main_arg1) (iblk2 V c 0 t) (iblk2 V c 1 t)
    (t.val * 5000) (((cfg2.win 2).blk t).view.emb) (fun y => ?_) (fun y => ?_) (fun k i hi => ?_) j
  · show win2_2.index t (0 : Fin 2) * 5000 + 1 * (y 0).val = _
    rw [e4]; omega
  · show V c main_v11 (((cfg2.win 0).blk t).view.emb y) = V c main_v11 (((cfg2.win 2).blk t).view.emb y)
    refine congrArg _ (funext fun a => Fin.ext ?_)
    match a with
    | ⟨0, _⟩ => show win2_0.index t (0 : Fin 2) * 5000 + 1 * (y 0).val = win2_2.index t (0 : Fin 2) * 5000 + 1 * (y 0).val; rw [e0, e4]
    | ⟨1, _⟩ => show win2_0.index t (1 : Fin 2) * 128 + 1 * (y 1).val = win2_2.index t (1 : Fin 2) * 128 + 1 * (y 1).val; rw [e1, e5]
  · show V c main_arg1 (((cfg2.win 1).blk t).view.emb k) = V c main_arg1 i
    refine congrArg _ (funext fun a => Fin.ext ?_)
    match a with
    | ⟨0, _⟩ => show win2_1.index t (0 : Fin 2) * 5000 + 1 * (k 0).val = (i 0).val; rw [e2, hi]; omega
    | ⟨1, _⟩ =>
      show win2_1.index t (1 : Fin 2) * 1 + 1 * (k 1).val = (i 1).val
      have hk : (k 1).val < 1 := (k 1).isLt
      have hi1 : (i 1).val < 1 := (i 1).isLt
      rw [e3]; omega

/-- An index of the array is in point `t`'s block iff each coordinate is in the block's range on its axis. -/
theorem mem_block (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v12).slice (win2_2.rect t)).set ↔ _
  rw [View.set_slice_whole, Rect.mem_set_unit]
  exact Iff.rfl

/-- Row `r` is in the block of point `r / 5000`. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e4, e5⟩ := blocks_at t
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 128 ≤ (i 1).val ∧ (i 1).val < win2_2.index t (1 : Fin 2) * 128 + 128
    rw [e5]; omega

/-- The array the pass leaves: the scaled rows of the arrays it found. -/
theorem array_eq (c : Dev nD) : (dat2 V c).arrAt 2 cfg2.N = scaleRows (V c main_v11) (V c main_arg1) :=
  (dat2 V c).arrAt_eq_of_cover 2 (scaleRows (V c main_v11) (V c main_arg1)) (fun t _ => flushed_eq V c t) (fun i => covered i)

end AtEntry

variable (m : (ℓ : Loc nD τ sig) → Buf (Elt F) ℓ) (ρ : Dev nD → PrngReg)

/-- Across the pass: its output at the scaled rows of its input, the four arguments as they were. -/
theorem result (c : Dev nD) : W4 m ρ c (Proc.devRef .tc main_v12)
    = scaleRows (W3 m ρ c (Proc.devRef .tc main_v11)) (W3 m ρ c (Proc.devRef .tc main_arg1)) :=
  (W4_arr m ρ c 2).trans (array_eq (V3 m ρ) c)
theorem keep_arg0 (c : Dev nD) : W4 m ρ c (Proc.devRef .tc main_arg0) = W3 m ρ c (Proc.devRef .tc main_arg0) :=
  W4_of_ne m ρ c main_arg0 (by decide)
theorem keep_arg1 (c : Dev nD) : W4 m ρ c (Proc.devRef .tc main_arg1) = W3 m ρ c (Proc.devRef .tc main_arg1) :=
  (W4_arr m ρ c 1).trans (((dat2 (V3 m ρ) c).arrAt_in 1 rfl _).trans (A_eq2 (V3 m ρ) c 1))
theorem keep_arg2 (c : Dev nD) : W4 m ρ c (Proc.devRef .tc main_arg2) = W3 m ρ c (Proc.devRef .tc main_arg2) :=
  W4_of_ne m ρ c main_arg2 (by decide)
theorem keep_arg3 (c : Dev nD) : W4 m ρ c (Proc.devRef .tc main_arg3) = W3 m ρ c (Proc.devRef .tc main_arg3) :=
  W4_of_ne m ρ c main_arg3 (by decide)

end Cert.KernelIdeal.Hand.Pass2

end
-- ==== Proof.Edges3.lean ====
/-
  The host operations between two passes of the idealized kernel (stretch 3): the edge aggregation.

  From any buffer contents the thirteen operations leave in `main_v22` the aggregation (Spec: `aggregate`) of
  the rows of `main_v12` along the edge lists, and write none of the four arguments.
-/
import proofs.«108799_j25357486915690_1_alg».proof.Proof.Gen.KernelIdeal.Frame
import proofs.«108799_j25357486915690_1_alg».proof.Proof.Spec

set_option maxRecDepth 16384

noncomputable section

namespace Cert.KernelIdeal.Hand.Edges3

open Cert.KernelIdeal Cert.KernelIdeal.Gen Cert.Appnp
open Idealize.ShloMosaic Idealize.ShloMosaic.TcCoe Idealize.ShloMosaic.StableHlo Idealize.SL.Sem

variable {F : FTy → Type} [FloatOps F]

set_option maxHeartbeats 2000000 in
/-- After the stretch the scatter's result holds the aggregation of the gathered array. -/
theorem result (Wc : Valuation τ sig (Elt F)) :
    StableHlo.after hostOps3 Wc (Proc.devRef .tc main_v22)
      = aggregate gather_S100000x128_S1600000x1_S1600000x128_1_0_n_n_0_1_1128 scatter_S100000x128_S1600000x1_S1600000x128_1_0_0_1
          (Wc (Proc.devRef .tc main_arg2)) (Wc (Proc.devRef .tc main_arg3)) (Wc (Proc.devRef .tc main_v12)) := by
  after_results
  rfl

theorem keep_arg0 (Wc : Valuation τ sig (Elt F)) :
    StableHlo.after hostOps3 Wc (Proc.devRef .tc main_arg0) = Wc (Proc.devRef .tc main_arg0) := by
  after_results
theorem keep_arg1 (Wc : Valuation τ sig (Elt F)) :
    StableHlo.after hostOps3 Wc (Proc.devRef .tc main_arg1) = Wc (Proc.devRef .tc main_arg1) := by
  after_results
theorem keep_arg2 (Wc : Valuation τ sig (Elt F)) :
    StableHlo.after hostOps3 Wc (Proc.devRef .tc main_arg2) = Wc (Proc.devRef .tc main_arg2) := by
  after_results
theorem keep_arg3 (Wc : Valuation τ sig (Elt F)) :
    StableHlo.after hostOps3 Wc (Proc.devRef .tc main_arg3) = Wc (Proc.devRef .tc main_arg3) := by
  after_results

end Cert.KernelIdeal.Hand.Edges3

end
-- ==== Proof.Pass3.lean ====
/-
  Pass 3 of the idealized kernel: the end of a round, 5000 rows at a time.

  The pass reads the aggregate `main_v22`, the factor column and the input features through blocks of 5000
  rows and writes `main_v23` block by block; block `t` of each starts at row `5000 t`. What a grid point
  writes back is its block of `mix` of the three arrays as the pass finds them; the twenty blocks cover the
  rows, so the array the pass leaves is `mix` of them. The other buffers the chain needs are as the pass
  found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass3

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The four index maps over the grid: point `t`'s blocks are block `t` along the rows and block 0 across. -/
theorem blocks_at : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

section AtEntry
variable (V : (c : Dev nD) → (b : Ref sig .tc) → Buf (Elt F) ((c : Thread nD τ).loc b))

/-- What point `t` writes back is block `t` of the round's end computed from the arrays the pass finds. -/
theorem flushed_eq (c : Dev nD) (t : Fin cfg3.N) :
    (dat3 V c).flushed 3 t
      = ((cfg3.win 3).blk t).view.read (Elt F) (mix (V c main_v22) (V c main_arg1) (V c main_arg0)) := by
  show (cfg3.win 3).cut (grid3.coords t) ((dat3 V c).after 3 t) = _
  rw [after3_3]
  unfold out3_3
  rw [View.canon_unit_zero offsets_zero]
  simp only [View.ld_unit_zero (S := S5000x128) offsets_zero, View.ld_unit_zero (S := S5000x1) offsets_zero]
  obtain ⟨e0, e1, e2, e3, e4, e5, e6, e7⟩ := blocks_at t
  funext j
  refine mix_block shapeCasts_S5000x128_S5000x128 broadcasts_S5000x1_S5000x128 (V c main_v22) (V c main_arg1) (V c main_arg0)
    (iblk3 V c 0 t) (iblk3 V c 1 t) (iblk3 V c 2 t)
    (t.val * 5000) (((cfg3.win 3).blk t).view.emb) (fun y => ?_) (fun y => ?_) (fun k i hi => ?_) (fun y => ?_) j
  · show win3_3.index t (0 : Fin 2) * 5000 + 1 * (y 0).val = _
    rw [e6]; omega
  · show V c main_v22 (((cfg3.win 0).blk t).view.emb y) = V c main_v22 (((cfg3.win 3).blk t).view.emb y)
    refine congrArg _ (funext fun a => Fin.ext ?_)
    match a with
    | ⟨0, _⟩ => show win3_0.index t (0 : Fin 2) * 5000 + 1 * (y 0).val = win3_3.index t (0 : Fin 2) * 5000 + 1 * (y 0).val; rw [e0, e6]
    | ⟨1, _⟩ => show win3_0.index t (1 : Fin 2) * 128 + 1 * (y 1).val = win3_3.index t (1 : Fin 2) * 128 + 1 * (y 1).val; rw [e1, e7]
  · show V c main_arg1 (((cfg3.win 1).blk t).view.emb k) = V c main_arg1 i
    refine congrArg _ (funext fun a => Fin.ext ?_)
    match a with
    | ⟨0, _⟩ => show win3_1.index t (0 : Fin 2) * 5000 + 1 * (k 0).val = (i 0).val; rw [e2, hi]; omega
    | ⟨1, _⟩ =>
      show win3_1.index t (1 : Fin 2) * 1 + 1 * (k 1).val = (i 1).val
      have hk : (k 1).val < 1 := (k 1).isLt
      have hi1 : (i 1).val < 1 := (i 1).isLt
      rw [e3]; omega
  · show V c main_arg0 (((cfg3.win 2).blk t).view.emb y) = V c main_arg0 (((cfg3.win 3).blk t).view.emb y)
    refine congrArg _ (funext fun a => Fin.ext ?_)
    match a with
    | ⟨0, _⟩ => show win3_2.index t (0 : Fin 2) * 5000 + 1 * (y 0).val = win3_3.index t (0 : Fin 2) * 5000 + 1 * (y 0).val; rw [e4, e6]
    | ⟨1, _⟩ => show win3_2.index t (1 : Fin 2) * 128 + 1 * (y 1).val = win3_3.index t (1 : Fin 2) * 128 + 1 * (y 1).val; rw [e5, e7]

/-- An index of the array is in point `t`'s block iff each coordinate is in the block's range on its axis. -/
theorem mem_block (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v23).slice (win3_3.rect t)).set ↔ _
  rw [View.set_slice_whole, Rect.mem_set_unit]
  exact Iff.rfl

/-- Row `r` is in the block of point `r / 5000`. -/
theorem covered (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, e6, e7⟩ := blocks_at t
  refine ⟨t, flush3_3 t, ?_⟩
  rw [mem_block]
  intro a
  match a with
  | ⟨0, _⟩ =>
    show win3_3.index t (0 : Fin 2) * 5000 ≤ (i 0).val ∧ (i 0).val < win3_3.index t (0 : Fin 2) * 5000 + 5000
    rw [e6, ht]; omega
  | ⟨1, _⟩ =>
    show win3_3.index t (1 : Fin 2) * 128 ≤ (i 1).val ∧ (i 1).val < win3_3.index t (1 : Fin 2) * 128 + 128
    rw [e7]; omega

/-- The array the pass leaves: the round's end computed from the arrays it found. -/
theorem array_eq (c : Dev nD) : (dat3 V c).arrAt 3 cfg3.N = mix (V c main_v22) (V c main_arg1) (V c main_arg0) :=
  (dat3 V c).arrAt_eq_of_cover 3 (mix (V c main_v22) (V c main_arg1) (V c main_arg0)) (fun t _ => flushed_eq V c t)
    (fun i => covered i)

end AtEntry

variable (m : (ℓ : Loc nD τ sig) → Buf (Elt F) ℓ) (ρ : Dev nD → PrngReg)

/-- Across the pass: its output at the round's end of its inputs, the four arguments as they were. -/
theorem result (c : Dev nD) : W6 m ρ c (Proc.devRef .tc main_v23)
    = mix (W5 m ρ c (Proc.devRef .tc main_v22)) (W5 m ρ c (Proc.devRef .tc main_arg1)) (W5 m ρ c (Proc.devRef .tc main_arg0)) :=
  (W6_arr m ρ c 3).trans (array_eq (V5 m ρ) c)
theorem keep_arg0 (c : Dev nD) : W6 m ρ c (Proc.devRef .tc main_arg0) = W5 m ρ c (Proc.devRef .tc main_arg0) :=
  (W6_arr m ρ c 2).trans (((dat3 (V5 m ρ) c).arrAt_in 2 rfl _).trans (A_eq3 (V5 m ρ) c 2))
theorem keep_arg1 (c : Dev nD) : W6 m ρ c (Proc.devRef .tc main_arg1) = W5 m ρ c (Proc.devRef .tc main_arg1) :=
  (W6_arr m ρ c 1).trans (((dat3 (V5 m ρ) c).arrAt_in 1 rfl _).trans (A_eq3 (V5 m ρ) c 1))
theorem keep_arg2 (c : Dev nD) : W6 m ρ c (Proc.devRef .tc main_arg2) = W5 m ρ c (Proc.devRef .tc main_arg2) :=
  W6_of_ne m ρ c main_arg2 (by decide)
theorem keep_arg3 (c : Dev nD) : W6 m ρ c (Proc.devRef .tc main_arg3) = W5 m ρ c (Proc.devRef .tc main_arg3) :=
  W6_of_ne m ρ c main_arg3 (by decide)

end Cert.KernelIdeal.Hand.Pass3

end
-- ==== Proof.Pass4.lean ====
/-
  Pass 4 of the idealized kernel: every row of an array times its node's factor, 5000 rows at a time.

  The pass reads the array `main_v23` and the factor column through blocks of 5000 rows and writes `main_v24`
  block by block; block `t` of each starts at row `5000 t`. What a grid point writes back is its block of
  `scaleRows` of the two arrays as the pass finds them; the twenty blocks cover the rows, so the array
  the pass leaves is `scaleRows` of them. The other buffers the chain needs are as the pass found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass4

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The three index maps over the grid: point `t`'s blocks are block `t` along the rows and block 0 across. -/
theorem blocks_at : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

section AtEntry
variable (V : (c : Dev nD) → (b : Ref sig .tc) → Buf (Elt F) ((c : Thread nD τ).loc b))

/-- What point `t` writes back is block `t` of the scaled rows of the arrays the pass finds. -/
theorem flushed_eq (c : Dev nD) (t : Fin cfg4.N) :
    (dat4 V c).flushed 2 t = ((cfg4.win 2).blk t).view.read (Elt F) (scaleRows (V c main_v23) (V c main_arg1)) := by
  show (cfg4.win 2).cut (grid4.coords t) ((dat4 V c).after 2 t) = _
  rw [after4_2]
  unfold out4_2
  rw [View.canon_unit_zero offsets_zero]
  simp only [View.ld_unit_zero (S := S5000x128) offsets_zero, View.ld_unit_zero (S := S5000x1) offsets_zero]
  obtain ⟨e0, e1, e2, e3, e4, e5⟩ := blocks_at t
  funext j
  refine scaleRows_block_cast shapeCasts_S5000x128_S5000x128 broadcasts_S5000x1_S5000x128 (V c main_v23) (V c main_arg1) (iblk4 V c 0 t) (iblk4 V c 1 t)
    (t.val * 5000) (((cfg4.win 2).blk t).view.emb) (fun y => ?_) (fun y => ?_) (fun k i hi => ?_) j
  · show win4_2.index t (0 : Fin 2) * 5000 + 1 * (y 0).val = _
    rw [e4]; omega
  · show V c main_v23 (((cfg4.win 0).blk t).view.emb y) = V c main_v23 (((cfg4.win 2).blk t).view.emb y)
    refine congrArg _ (funext fun a => Fin.ext ?_)
    match a with
    | ⟨0, _⟩ => show win4_0.index t (0 : Fin 2) * 5000 + 1 * (y 0).val = win4_2.index t (0 : Fin 2) * 5000 + 1 * (y 0).val; rw [e0, e4]
    | ⟨1, _⟩ => show win4_0.index t (1 : Fin 2) * 128 + 1 * (y 1).val = win4_2.index t (1 : Fin 2) * 128 + 1 * (y 1).val; rw [e1, e5]
  · show V c main_arg1 (((cfg4.win 1).blk t).view.emb k) = V c main_arg1 i
    refine congrArg _ (funext fun a => Fin.ext ?_)
    match a with
    | ⟨0, _⟩ => show win4_1.index t (0 : Fin 2) * 5000 + 1 * (k 0).val = (i 0).val; rw [e2, hi]; omega
    | ⟨1, _⟩ =>
      show win4_1.index t (1 : Fin 2) * 1 + 1 * (k 1).val = (i 1).val
      have hk : (k 1).val < 1 := (k 1).isLt
      have hi1 : (i 1).val < 1 := (i 1).isLt
      rw [e3]; omega

/-- An index of the array is in point `t`'s block iff each coordinate is in the block's range on its axis. -/
theorem mem_block (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v24).slice (win4_2.rect t)).set ↔ _
  rw [View.set_slice_whole, Rect.mem_set_unit]
  exact Iff.rfl

/-- Row `r` is in the block of point `r / 5000`. -/
theorem covered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, e4, e5⟩ := blocks_at t
  refine ⟨t, flush4_2 t, ?_⟩
  rw [mem_block]
  intro a
  match a with
  | ⟨0, _⟩ =>
    show win4_2.index t (0 : Fin 2) * 5000 ≤ (i 0).val ∧ (i 0).val < win4_2.index t (0 : Fin 2) * 5000 + 5000
    rw [e4, ht]; omega
  | ⟨1, _⟩ =>
    show win4_2.index t (1 : Fin 2) * 128 ≤ (i 1).val ∧ (i 1).val < win4_2.index t (1 : Fin 2) * 128 + 128
    rw [e5]; omega

/-- The array the pass leaves: the scaled rows of the arrays it found. -/
theorem array_eq (c : Dev nD) : (dat4 V c).arrAt 2 cfg4.N = scaleRows (V c main_v23) (V c main_arg1) :=
  (dat4 V c).arrAt_eq_of_cover 2 (scaleRows (V c main_v23) (V c main_arg1)) (fun t _ => flushed_eq V c t) (fun i => covered i)

end AtEntry

variable (m : (ℓ : Loc nD τ sig) → Buf (Elt F) ℓ) (ρ : Dev nD → PrngReg)

/-- Across the pass: its output at the scaled rows of its input, the four arguments as they were. -/
theorem result (c : Dev nD) : W7 m ρ c (Proc.devRef .tc main_v24)
    = scaleRows (W6 m ρ c (Proc.devRef .tc main_v23)) (W6 m ρ c (Proc.devRef .tc main_arg1)) :=
  (W7_arr m ρ c 2).trans (array_eq (V6 m ρ) c)
theorem keep_arg0 (c : Dev nD) : W7 m ρ c (Proc.devRef .tc main_arg0) = W6 m ρ c (Proc.devRef .tc main_arg0) :=
  W7_of_ne m ρ c main_arg0 (by decide)
theorem keep_arg1 (c : Dev nD) : W7 m ρ c (Proc.devRef .tc main_arg1) = W6 m ρ c (Proc.devRef .tc main_arg1) :=
  (W7_arr m ρ c 1).trans (((dat4 (V6 m ρ) c).arrAt_in 1 rfl _).trans (A_eq4 (V6 m ρ) c 1))
theorem keep_arg2 (c : Dev nD) : W7 m ρ c (Proc.devRef .tc main_arg2) = W6 m ρ c (Proc.devRef .tc main_arg2) :=
  W7_of_ne m ρ c main_arg2 (by decide)
theorem keep_arg3 (c : Dev nD) : W7 m ρ c (Proc.devRef .tc main_arg3) = W6 m ρ c (Proc.devRef .tc main_arg3) :=
  W7_of_ne m ρ c main_arg3 (by decide)

end Cert.KernelIdeal.Hand.Pass4

end
-- ==== Proof.Edges5.lean ====
/-
  The host operations between two passes of the idealized kernel (stretch 5): the edge aggregation.

  From any buffer contents the thirteen operations leave in `main_v34` the aggregation (Spec: `aggregate`) of
  the rows of `main_v24` along the edge lists, and write none of the four arguments.
-/
import proofs.«108799_j25357486915690_1_alg».proof.Proof.Gen.KernelIdeal.Frame
import proofs.«108799_j25357486915690_1_alg».proof.Proof.Spec

set_option maxRecDepth 16384

noncomputable section

namespace Cert.KernelIdeal.Hand.Edges5

open Cert.KernelIdeal Cert.KernelIdeal.Gen Cert.Appnp
open Idealize.ShloMosaic Idealize.ShloMosaic.TcCoe Idealize.ShloMosaic.StableHlo Idealize.SL.Sem

variable {F : FTy → Type} [FloatOps F]

set_option maxHeartbeats 2000000 in
/-- After the stretch the scatter's result holds the aggregation of the gathered array. -/
theorem result (Wc : Valuation τ sig (Elt F)) :
    StableHlo.after hostOps5 Wc (Proc.devRef .tc main_v34)
      = aggregate gather_S100000x128_S1600000x1_S1600000x128_1_0_n_n_0_1_1128 scatter_S100000x128_S1600000x1_S1600000x128_1_0_0_1
          (Wc (Proc.devRef .tc main_arg2)) (Wc (Proc.devRef .tc main_arg3)) (Wc (Proc.devRef .tc main_v24)) := by
  after_results
  rfl

theorem keep_arg0 (Wc : Valuation τ sig (Elt F)) :
    StableHlo.after hostOps5 Wc (Proc.devRef .tc main_arg0) = Wc (Proc.devRef .tc main_arg0) := by
  after_results
theorem keep_arg1 (Wc : Valuation τ sig (Elt F)) :
    StableHlo.after hostOps5 Wc (Proc.devRef .tc main_arg1) = Wc (Proc.devRef .tc main_arg1) := by
  after_results
theorem keep_arg2 (Wc : Valuation τ sig (Elt F)) :
    StableHlo.after hostOps5 Wc (Proc.devRef .tc main_arg2) = Wc (Proc.devRef .tc main_arg2) := by
  after_results
theorem keep_arg3 (Wc : Valuation τ sig (Elt F)) :
    StableHlo.after hostOps5 Wc (Proc.devRef .tc main_arg3) = Wc (Proc.devRef .tc main_arg3) := by
  after_results

end Cert.KernelIdeal.Hand.Edges5

end
-- ==== Proof.Pass5.lean ====
/-
  Pass 5 of the idealized kernel: the end of a round, 5000 rows at a time.

  The pass reads the aggregate `main_v34`, the factor column and the input features through blocks of 5000
  rows and writes `main_v35` block by block; block `t` of each starts at row `5000 t`. What a grid point
  writes back is its block of `mix` of the three arrays as the pass finds them; the twenty blocks cover the
  rows, so the array the pass leaves is `mix` of them. The other buffers the chain needs are as the pass
  found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass5

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The four index maps over the grid: point `t`'s blocks are block `t` along the rows and block 0 across. -/
theorem blocks_at : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

section AtEntry
variable (V : (c : Dev nD) → (b : Ref sig .tc) → Buf (Elt F) ((c : Thread nD τ).loc b))

/-- What point `t` writes back is block `t` of the round's end computed from the arrays the pass finds. -/
theorem flushed_eq (c : Dev nD) (t : Fin cfg5.N) :
    (dat5 V c).flushed 3 t
      = ((cfg5.win 3).blk t).view.read (Elt F) (mix (V c main_v34) (V c main_arg1) (V c main_arg0)) := by
  show (cfg5.win 3).cut (grid5.coords t) ((dat5 V c).after 3 t) = _
  rw [after5_3]
  unfold out5_3
  rw [View.canon_unit_zero offsets_zero]
  simp only [View.ld_unit_zero (S := S5000x128) offsets_zero, View.ld_unit_zero (S := S5000x1) offsets_zero]
  obtain ⟨e0, e1, e2, e3, e4, e5, e6, e7⟩ := blocks_at t
  funext j
  refine mix_block shapeCasts_S5000x128_S5000x128 broadcasts_S5000x1_S5000x128 (V c main_v34) (V c main_arg1) (V c main_arg0)
    (iblk5 V c 0 t) (iblk5 V c 1 t) (iblk5 V c 2 t)
    (t.val * 5000) (((cfg5.win 3).blk t).view.emb) (fun y => ?_) (fun y => ?_) (fun k i hi => ?_) (fun y => ?_) j
  · show win5_3.index t (0 : Fin 2) * 5000 + 1 * (y 0).val = _
    rw [e6]; omega
  · show V c main_v34 (((cfg5.win 0).blk t).view.emb y) = V c main_v34 (((cfg5.win 3).blk t).view.emb y)
    refine congrArg _ (funext fun a => Fin.ext ?_)
    match a with
    | ⟨0, _⟩ => show win5_0.index t (0 : Fin 2) * 5000 + 1 * (y 0).val = win5_3.index t (0 : Fin 2) * 5000 + 1 * (y 0).val; rw [e0, e6]
    | ⟨1, _⟩ => show win5_0.index t (1 : Fin 2) * 128 + 1 * (y 1).val = win5_3.index t (1 : Fin 2) * 128 + 1 * (y 1).val; rw [e1, e7]
  · show V c main_arg1 (((cfg5.win 1).blk t).view.emb k) = V c main_arg1 i
    refine congrArg _ (funext fun a => Fin.ext ?_)
    match a with
    | ⟨0, _⟩ => show win5_1.index t (0 : Fin 2) * 5000 + 1 * (k 0).val = (i 0).val; rw [e2, hi]; omega
    | ⟨1, _⟩ =>
      show win5_1.index t (1 : Fin 2) * 1 + 1 * (k 1).val = (i 1).val
      have hk : (k 1).val < 1 := (k 1).isLt
      have hi1 : (i 1).val < 1 := (i 1).isLt
      rw [e3]; omega
  · show V c main_arg0 (((cfg5.win 2).blk t).view.emb y) = V c main_arg0 (((cfg5.win 3).blk t).view.emb y)
    refine congrArg _ (funext fun a => Fin.ext ?_)
    match a with
    | ⟨0, _⟩ => show win5_2.index t (0 : Fin 2) * 5000 + 1 * (y 0).val = win5_3.index t (0 : Fin 2) * 5000 + 1 * (y 0).val; rw [e4, e6]
    | ⟨1, _⟩ => show win5_2.index t (1 : Fin 2) * 128 + 1 * (y 1).val = win5_3.index t (1 : Fin 2) * 128 + 1 * (y 1).val; rw [e5, e7]

/-- An index of the array is in point `t`'s block iff each coordinate is in the block's range on its axis. -/
theorem mem_block (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v35).slice (win5_3.rect t)).set ↔ _
  rw [View.set_slice_whole, Rect.mem_set_unit]
  exact Iff.rfl

/-- Row `r` is in the block of point `r / 5000`. -/
theorem covered (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, -, -, e6, e7⟩ := blocks_at t
  refine ⟨t, flush5_3 t, ?_⟩
  rw [mem_block]
  intro a
  match a with
  | ⟨0, _⟩ =>
    show win5_3.index t (0 : Fin 2) * 5000 ≤ (i 0).val ∧ (i 0).val < win5_3.index t (0 : Fin 2) * 5000 + 5000
    rw [e6, ht]; omega
  | ⟨1, _⟩ =>
    show win5_3.index t (1 : Fin 2) * 128 ≤ (i 1).val ∧ (i 1).val < win5_3.index t (1 : Fin 2) * 128 + 128
    rw [e7]; omega

/-- The array the pass leaves: the round's end computed from the arrays it found. -/
theorem array_eq (c : Dev nD) : (dat5 V c).arrAt 3 cfg5.N = mix (V c main_v34) (V c main_arg1) (V c main_arg0) :=
  (dat5 V c).arrAt_eq_of_cover 3 (mix (V c main_v34) (V c main_arg1) (V c main_arg0)) (fun t _ => flushed_eq V c t)
    (fun i => covered i)

end AtEntry

variable (m : (ℓ : Loc nD τ sig) → Buf (Elt F) ℓ) (ρ : Dev nD → PrngReg)

/-- Across the pass: its output at the round's end of its inputs, the four arguments as they were. -/
theorem result (c : Dev nD) : W9 m ρ c (Proc.devRef .tc main_v35)
    = mix (W8 m ρ c (Proc.devRef .tc main_v34)) (W8 m ρ c (Proc.devRef .tc main_arg1)) (W8 m ρ c (Proc.devRef .tc main_arg0)) :=
  (W9_arr m ρ c 3).trans (array_eq (V8 m ρ) c)
theorem keep_arg0 (c : Dev nD) : W9 m ρ c (Proc.devRef .tc main_arg0) = W8 m ρ c (Proc.devRef .tc main_arg0) :=
  (W9_arr m ρ c 2).trans (((dat5 (V8 m ρ) c).arrAt_in 2 rfl _).trans (A_eq5 (V8 m ρ) c 2))
theorem keep_arg1 (c : Dev nD) : W9 m ρ c (Proc.devRef .tc main_arg1) = W8 m ρ c (Proc.devRef .tc main_arg1) :=
  (W9_arr m ρ c 1).trans (((dat5 (V8 m ρ) c).arrAt_in 1 rfl _).trans (A_eq5 (V8 m ρ) c 1))
theorem keep_arg2 (c : Dev nD) : W9 m ρ c (Proc.devRef .tc main_arg2) = W8 m ρ c (Proc.devRef .tc main_arg2) :=
  W9_of_ne m ρ c main_arg2 (by decide)
theorem keep_arg3 (c : Dev nD) : W9 m ρ c (Proc.devRef .tc main_arg3) = W8 m ρ c (Proc.devRef .tc main_arg3) :=
  W9_of_ne m ρ c main_arg3 (by decide)

end Cert.KernelIdeal.Hand.Pass5

end
-- ==== Proof.Pass6.lean ====
/-
  Pass 6 of the idealized kernel: every row of an array times its node's factor, 5000 rows at a time.

  The pass reads the array `main_v35` and the factor column through blocks of 5000 rows and writes `main_v36`
  block by block; block `t` of each starts at row `5000 t`. What a grid point writes back is its block of
  `scaleRows` of the two arrays as the pass finds them; the twenty blocks cover the rows, so the array
  the pass leaves is `scaleRows` of them. The other buffers the chain needs are as the pass found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass6

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The three index maps over the grid: point `t`'s blocks are block `t` along the rows and block 0 across. -/
theorem blocks_at : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

section AtEntry
variable (V : (c : Dev nD) → (b : Ref sig .tc) → Buf (Elt F) ((c : Thread nD τ).loc b))

/-- What point `t` writes back is block `t` of the scaled rows of the arrays the pass finds. -/
theorem flushed_eq (c : Dev nD) (t : Fin cfg6.N) :
    (dat6 V c).flushed 2 t = ((cfg6.win 2).blk t).view.read (Elt F) (scaleRows (V c main_v35) (V c main_arg1)) := by
  show (cfg6.win 2).cut (grid6.coords t) ((dat6 V c).after 2 t) = _
  rw [after6_2]
  unfold out6_2
  rw [View.canon_unit_zero offsets_zero]
  simp only [View.ld_unit_zero (S := S5000x128) offsets_zero, View.ld_unit_zero (S := S5000x1) offsets_zero]
  obtain ⟨e0, e1, e2, e3, e4, e5⟩ := blocks_at t
  funext j
  refine scaleRows_block_cast shapeCasts_S5000x128_S5000x128 broadcasts_S5000x1_S5000x128 (V c main_v35) (V c main_arg1) (iblk6 V c 0 t) (iblk6 V c 1 t)
    (t.val * 5000) (((cfg6.win 2).blk t).view.emb) (fun y => ?_) (fun y => ?_) (fun k i hi => ?_) j
  · show win6_2.index t (0 : Fin 2) * 5000 + 1 * (y 0).val = _
    rw [e4]; omega
  · show V c main_v35 (((cfg6.win 0).blk t).view.emb y) = V c main_v35 (((cfg6.win 2).blk t).view.emb y)
    refine congrArg _ (funext fun a => Fin.ext ?_)
    match a with
    | ⟨0, _⟩ => show win6_0.index t (0 : Fin 2) * 5000 + 1 * (y 0).val = win6_2.index t (0 : Fin 2) * 5000 + 1 * (y 0).val; rw [e0, e4]
    | ⟨1, _⟩ => show win6_0.index t (1 : Fin 2) * 128 + 1 * (y 1).val = win6_2.index t (1 : Fin 2) * 128 + 1 * (y 1).val; rw [e1, e5]
  · show V c main_arg1 (((cfg6.win 1).blk t).view.emb k) = V c main_arg1 i
    refine congrArg _ (funext fun a => Fin.ext ?_)
    match a with
    | ⟨0, _⟩ => show win6_1.index t (0 : Fin 2) * 5000 + 1 * (k 0).val = (i 0).val; rw [e2, hi]; omega
    | ⟨1, _⟩ =>
      show win6_1.index t (1 : Fin 2) * 1 + 1 * (k 1).val = (i 1).val
      have hk : (k 1).val < 1 := (k 1).isLt
      have hi1 : (i 1).val < 1 := (i 1).isLt
      rw [e3]; omega

/-- An index of the array is in point `t`'s block iff each coordinate is in the block's range on its axis. -/
theorem mem_block (t : Fin cfg6.N) (i : S100000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v36).slice (win6_2.rect t)).set ↔ _
  rw [View.set_slice_whole, Rect.mem_set_unit]
  exact Iff.rfl

/-- Row `r` is in the block of point `r / 5000`. -/
theorem covered (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  obtain ⟨t, ht⟩ : ∃ t : Fin cfg6.N, t.val = (i 0).val / 5000 := ⟨⟨(i 0).val / 5000, by rw [hN]; omega⟩, rfl⟩
  obtain ⟨-, -, -, -, e4, e5⟩ := blocks_at t
  refine ⟨t, flush6_2 t, ?_⟩
  rw [mem_block]
  intro a
  match a with
  | ⟨0, _⟩ =>
    show win6_2.index t (0 : Fin 2) * 5000 ≤ (i 0).val ∧ (i 0).val < win6_2.index t (0 : Fin 2) * 5000 + 5000
    rw [e4, ht]; omega
  | ⟨1, _⟩ =>
    show win6_2.index t (1 : Fin 2) * 128 ≤ (i 1).val ∧ (i 1).val < win6_2.index t (1 : Fin 2) * 128 + 128
    rw [e5]; omega

/-- The array the pass leaves: the scaled rows of the arrays it found. -/
theorem array_eq (c : Dev nD) : (dat6 V c).arrAt 2 cfg6.N = scaleRows (V c main_v35) (V c main_arg1) :=
  (dat6 V c).arrAt_eq_of_cover 2 (scaleRows (V c main_v35) (V c main_arg1)) (fun t _ => flushed_eq V c t) (fun i => covered i)

end AtEntry

variable (m : (ℓ : Loc nD τ sig) → Buf (Elt F) ℓ) (ρ : Dev nD → PrngReg)

/-- Across the pass: its output at the scaled rows of its input, the four arguments as they were. -/
theorem result (c : Dev nD) : W10 m ρ c (Proc.devRef .tc main_v36)
    = scaleRows (W9 m ρ c (Proc.devRef .tc main_v35)) (W9 m ρ c (Proc.devRef .tc main_arg1)) :=
  (W10_arr m ρ c 2).trans (array_eq (V9 m ρ) c)
theorem keep_arg0 (c : Dev nD) : W10 m ρ c (Proc.devRef .tc main_arg0) = W9 m ρ c (Proc.devRef .tc main_arg0) :=
  W10_of_ne m ρ c main_arg0 (by decide)
theorem keep_arg1 (c : Dev nD) : W10 m ρ c (Proc.devRef .tc main_arg1) = W9 m ρ c (Proc.devRef .tc main_arg1) :=
  (W10_arr m ρ c 1).trans (((dat6 (V9 m ρ) c).arrAt_in 1 rfl _).trans (A_eq6 (V9 m ρ) c 1))
theorem keep_arg2 (c : Dev nD) : W10 m ρ c (Proc.devRef .tc main_arg2) = W9 m ρ c (Proc.devRef .tc main_arg2) :=
  W10_of_ne m ρ c main_arg2 (by decide)
theorem keep_arg3 (c : Dev nD) : W10 m ρ c (Proc.devRef .tc main_arg3) = W9 m ρ c (Proc.devRef .tc main_arg3) :=
  W10_of_ne m ρ c main_arg3 (by decide)

end Cert.KernelIdeal.Hand.Pass6

end
-- ==== Proof.Edges7.lean ====
/-
  The host operations between two passes of the idealized kernel (stretch 7): the edge aggregation.

  From any buffer contents the thirteen operations leave in `main_v46` the aggregation (Spec: `aggregate`) of
  the rows of `main_v36` along the edge lists, and write none of the four arguments.
-/
import proofs.«108799_j25357486915690_1_alg».proof.Proof.Gen.KernelIdeal.Frame
import proofs.«108799_j25357486915690_1_alg».proof.Proof.Spec

set_option maxRecDepth 16384

noncomputable section

namespace Cert.KernelIdeal.Hand.Edges7

open Cert.KernelIdeal Cert.KernelIdeal.Gen Cert.Appnp
open Idealize.ShloMosaic Idealize.ShloMosaic.TcCoe Idealize.ShloMosaic.StableHlo Idealize.SL.Sem

variable {F : FTy → Type} [FloatOps F]

set_option maxHeartbeats 2000000 in
/-- After the stretch the scatter's result holds the aggregation of the gathered array. -/
theorem result (Wc : Valuation τ sig (Elt F)) :
    StableHlo.after hostOps7 Wc (Proc.devRef .tc main_v46)
      = aggregate gather_S100000x128_S1600000x1_S1600000x128_1_0_n_n_0_1_1128 scatter_S100000x128_S1600000x1_S1600000x128_1_0_0_1
          (Wc (Proc.devRef .tc main_arg2)) (Wc (Proc.devRef .tc main_arg3)) (Wc (Proc.devRef .tc main_v36)) := by
  after_results
  rfl

theorem keep_arg0 (Wc : Valuation τ sig (Elt F)) :
    StableHlo.after hostOps7 Wc (Proc.devRef .tc main_arg0) = Wc (Proc.devRef .tc main_arg0) := by
  after_results
theorem keep_arg1 (Wc : Valuation τ sig (Elt F)) :
    StableHlo.after hostOps7 Wc (Proc.devRef .tc main_arg1) = Wc (Proc.devRef .tc main_arg1) := by
  after_results
theorem keep_arg2 (Wc : Valuation τ sig (Elt F)) :
    StableHlo.after hostOps7 Wc (Proc.devRef .tc main_arg2) = Wc (Proc.devRef .tc main_arg2) := by
  after_results
theorem keep_arg3 (Wc : Valuation τ sig (Elt F)) :
    StableHlo.after hostOps7 Wc (Proc.devRef .tc main_arg3) = Wc (Proc.devRef .tc main_arg3) := by
  after_results

end Cert.KernelIdeal.Hand.Edges7

end
-- ==== Proof.Pass7.lean ====
/-
  Pass 7 of the idealized kernel: the end of a round, 5000 rows at a time.

  The pass reads the aggregate `main_v46`, the factor column and the input features through blocks of 5000
  rows and writes `main_v47` block by block; block `t` of each starts at row `5000 t`. What a grid point
  writes back is its block of `mix` of the three arrays as the pass finds them; the twenty blocks cover the
  rows, so the array the pass leaves is `mix` of them. The other buffers the chain needs are as the pass
  found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass7

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The four index maps over the grid: point `t`'s blocks are block `t` along the rows and block 0 across. -/
theorem blocks_at : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

section AtEntry
variable (V : (c : Dev nD) → (b : Ref sig .tc) → Buf (Elt F) ((c : Thread nD τ).loc b))

/-- What point `t` writes back is block `t` of the round's end computed from the arrays the pass finds. -/
theorem flushed_eq (c : Dev nD) (t : Fin cfg7.N) :
    (dat7 V c).flushed 3 t
      = ((cfg7.win 3).blk t).view.read (Elt F) (mix (V c main_v46) (V c main_arg1) (V c main_arg0)) := by
  show (cfg7.win 3).cut (grid7.coords t) ((dat7 V c).after 3 t) = _
  rw [after7_3]
  unfold out7_3
  rw [View.canon_unit_zero offsets_zero]
  simp only [View.ld_unit_zero (S := S5000x128) offsets_zero, View.ld_unit_zero (S := S5000x1) offsets_zero]
  obtain ⟨e0, e1, e2, e3, e4, e5, e6, e7⟩ := blocks_at t
  funext j
  refine mix_block shapeCasts_S5000x128_S5000x128 broadcasts_S5000x1_S5000x128 (V c main_v46) (V c main_arg1) (V c main_arg0)
    (iblk7 V c 0 t) (iblk7 V c 1 t) (iblk7 V c 2 t)
    (t.val * 5000) (((cfg7.win 3).blk t).view.emb) (fun y => ?_) (fun y => ?_) (fun k i hi => ?_) (fun y => ?_) j
  · show win7_3.index t (0 : Fin 2) * 5000 + 1 * (y 0).val = _
    rw [e6]; omega
  · show V c main_v46 (((cfg7.win 0).blk t).view.emb y) = V c main_v46 (((cfg7.win 3).blk t).view.emb y)
    refine congrArg _ (funext fun a => Fin.ext ?_)
    match a with
    | ⟨0, _⟩ => show win7_0.index t (0 : Fin 2) * 5000 + 1 * (y 0).val = win7_3.index t (0 : Fin 2) * 5000 + 1 * (y 0).val; rw [e0, e6]
    | ⟨1, _⟩ => show win7_0.index t (1 : Fin 2) * 128 + 1 * (y 1).val = win7_3.index t (1 : Fin 2) * 128 + 1 * (y 1).val; rw [e1, e7]
  · show V c main_arg1 (((cfg7.win 1).blk t).view.emb k) = V c main_arg1 i
    refine congrArg _ (funext fun a => Fin.ext ?_)
    match a with
    | ⟨0, _⟩ => show win7_1.index t (0 : Fin 2) * 5000 + 1 * (k 0).val = (i 0).val; rw [e2, hi]; omega
    | ⟨1, _⟩ =>
      show win7_1.index t (1 : Fin 2) * 1 + 1 * (k 1).val = (i 1).val
      have hk : (k 1).val < 1 := (k 1).isLt
      have hi1 : (i 1).val < 1 := (i 1).isLt
      rw [e3]; omega
  · show V c main_arg0 (((cfg7.win 2).blk t).view.emb y) = V c main_arg0 (((cfg7.win 3).blk t).view.emb y)
    refine congrArg _ (funext fun a => Fin.ext ?_)
    match a with
    | ⟨0, _⟩ => show win7_2.index t (0 : Fin 2) * 5000 + 1 * (y 0).val = win7_3.index t (0 : Fin 2) * 5000 + 1 * (y 0).val; rw [e4, e6]
    | ⟨1, _⟩ => show win7_2.index t (1 : Fin 2) * 128 + 1 * (y 1).val = win7_3.index t (1 : Fin 2) * 128 + 1 * (y 1).val; rw [e5, e7]

/-- An index of the array is in point `t`'s block iff each coordinate is in the block's range on its axis. -/
theorem mem_block (t : Fin cfg7.N) (i : S100000x128.Idx) :
    i ∈ ((cfg7.win 3).blk t).view.set ↔ ∀ a : Fin 2, win7_3.index t a * S5000x128.size a ≤ (i a).val
      ∧ (i a).val < win7_3.index t a * S5000x128.size a + S5000x128.size a := by
  show i ∈ ((View.whole main_v47).slice (win7_3.rect t)).set ↔ _
  rw [View.set_slice_whole, Rect.mem_set_unit]
  exact Iff.rfl

/-- Row `r` is in the block of point `r / 5000`. -/
theorem covered (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  have hN : cfg7.N = 20 := N_7
  obtain ⟨t, ht⟩ : ∃ t : Fin cfg7.N, t.val = (i 0).val / 5000 := ⟨⟨(i 0).val / 5000, by rw [hN]; omega⟩, rfl⟩
  obtain ⟨-, -, -, -, -, -, e6, e7⟩ := blocks_at t
  refine ⟨t, flush7_3 t, ?_⟩
  rw [mem_block]
  intro a
  match a with
  | ⟨0, _⟩ =>
    show win7_3.index t (0 : Fin 2) * 5000 ≤ (i 0).val ∧ (i 0).val < win7_3.index t (0 : Fin 2) * 5000 + 5000
    rw [e6, ht]; omega
  | ⟨1, _⟩ =>
    show win7_3.index t (1 : Fin 2) * 128 ≤ (i 1).val ∧ (i 1).val < win7_3.index t (1 : Fin 2) * 128 + 128
    rw [e7]; omega

/-- The array the pass leaves: the round's end computed from the arrays it found. -/
theorem array_eq (c : Dev nD) : (dat7 V c).arrAt 3 cfg7.N = mix (V c main_v46) (V c main_arg1) (V c main_arg0) :=
  (dat7 V c).arrAt_eq_of_cover 3 (mix (V c main_v46) (V c main_arg1) (V c main_arg0)) (fun t _ => flushed_eq V c t)
    (fun i => covered i)

end AtEntry

variable (m : (ℓ : Loc nD τ sig) → Buf (Elt F) ℓ) (ρ : Dev nD → PrngReg)

/-- Across the pass: its output at the round's end of its inputs, the four arguments as they were. -/
theorem result (c : Dev nD) : W12 m ρ c (Proc.devRef .tc main_v47)
    = mix (W11 m ρ c (Proc.devRef .tc main_v46)) (W11 m ρ c (Proc.devRef .tc main_arg1)) (W11 m ρ c (Proc.devRef .tc main_arg0)) :=
  (W12_arr m ρ c 3).trans (array_eq (V11 m ρ) c)
theorem keep_arg0 (c : Dev nD) : W12 m ρ c (Proc.devRef .tc main_arg0) = W11 m ρ c (Proc.devRef .tc main_arg0) :=
  (W12_arr m ρ c 2).trans (((dat7 (V11 m ρ) c).arrAt_in 2 rfl _).trans (A_eq7 (V11 m ρ) c 2))
theorem keep_arg1 (c : Dev nD) : W12 m ρ c (Proc.devRef .tc main_arg1) = W11 m ρ c (Proc.devRef .tc main_arg1) :=
  (W12_arr m ρ c 1).trans (((dat7 (V11 m ρ) c).arrAt_in 1 rfl _).trans (A_eq7 (V11 m ρ) c 1))
theorem keep_arg2 (c : Dev nD) : W12 m ρ c (Proc.devRef .tc main_arg2) = W11 m ρ c (Proc.devRef .tc main_arg2) :=
  W12_of_ne m ρ c main_arg2 (by decide)
theorem keep_arg3 (c : Dev nD) : W12 m ρ c (Proc.devRef .tc main_arg3) = W11 m ρ c (Proc.devRef .tc main_arg3) :=
  W12_of_ne m ρ c main_arg3 (by decide)

end Cert.KernelIdeal.Hand.Pass7

end
-- ==== Proof.Pass8.lean ====
/-
  Pass 8 of the idealized kernel: every row of an array times its node's factor, 5000 rows at a time.

  The pass reads the array `main_v47` and the factor column through blocks of 5000 rows and writes `main_v48`
  block by block; block `t` of each starts at row `5000 t`. What a grid point writes back is its block of
  `scaleRows` of the two arrays as the pass finds them; the twenty blocks cover the rows, so the array
  the pass leaves is `scaleRows` of them. The other buffers the chain needs are as the pass found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass8

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The three index maps over the grid: point `t`'s blocks are block `t` along the rows and block 0 across. -/
theorem blocks_at : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

section AtEntry
variable (V : (c : Dev nD) → (b : Ref sig .tc) → Buf (Elt F) ((c : Thread nD τ).loc b))

/-- What point `t` writes back is block `t` of the scaled rows of the arrays the pass finds. -/
theorem flushed_eq (c : Dev nD) (t : Fin cfg8.N) :
    (dat8 V c).flushed 2 t = ((cfg8.win 2).blk t).view.read (Elt F) (scaleRows (V c main_v47) (V c main_arg1)) := by
  show (cfg8.win 2).cut (grid8.coords t) ((dat8 V c).after 2 t) = _
  rw [after8_2]
  unfold out8_2
  rw [View.canon_unit_zero offsets_zero]
  simp only [View.ld_unit_zero (S := S5000x128) offsets_zero, View.ld_unit_zero (S := S5000x1) offsets_zero]
  obtain ⟨e0, e1, e2, e3, e4, e5⟩ := blocks_at t
  funext j
  refine scaleRows_block_cast shapeCasts_S5000x128_S5000x128 broadcasts_S5000x1_S5000x128 (V c main_v47) (V c main_arg1) (iblk8 V c 0 t) (iblk8 V c 1 t)
    (t.val * 5000) (((cfg8.win 2).blk t).view.emb) (fun y => ?_) (fun y => ?_) (fun k i hi => ?_) j
  · show win8_2.index t (0 : Fin 2) * 5000 + 1 * (y 0).val = _
    rw [e4]; omega
  · show V c main_v47 (((cfg8.win 0).blk t).view.emb y) = V c main_v47 (((cfg8.win 2).blk t).view.emb y)
    refine congrArg _ (funext fun a => Fin.ext ?_)
    match a with
    | ⟨0, _⟩ => show win8_0.index t (0 : Fin 2) * 5000 + 1 * (y 0).val = win8_2.index t (0 : Fin 2) * 5000 + 1 * (y 0).val; rw [e0, e4]
    | ⟨1, _⟩ => show win8_0.index t (1 : Fin 2) * 128 + 1 * (y 1).val = win8_2.index t (1 : Fin 2) * 128 + 1 * (y 1).val; rw [e1, e5]
  · show V c main_arg1 (((cfg8.win 1).blk t).view.emb k) = V c main_arg1 i
    refine congrArg _ (funext fun a => Fin.ext ?_)
    match a with
    | ⟨0, _⟩ => show win8_1.index t (0 : Fin 2) * 5000 + 1 * (k 0).val = (i 0).val; rw [e2, hi]; omega
    | ⟨1, _⟩ =>
      show win8_1.index t (1 : Fin 2) * 1 + 1 * (k 1).val = (i 1).val
      have hk : (k 1).val < 1 := (k 1).isLt
      have hi1 : (i 1).val < 1 := (i 1).isLt
      rw [e3]; omega

/-- An index of the array is in point `t`'s block iff each coordinate is in the block's range on its axis. -/
theorem mem_block (t : Fin cfg8.N) (i : S100000x128.Idx) :
    i ∈ ((cfg8.win 2).blk t).view.set ↔ ∀ a : Fin 2, win8_2.index t a * S5000x128.size a ≤ (i a).val
      ∧ (i a).val < win8_2.index t a * S5000x128.size a + S5000x128.size a := by
  show i ∈ ((View.whole main_v48).slice (win8_2.rect t)).set ↔ _
  rw [View.set_slice_whole, Rect.mem_set_unit]
  exact Iff.rfl

/-- Row `r` is in the block of point `r / 5000`. -/
theorem covered (i : S100000x128.Idx) :
    ∃ t : Fin cfg8.N, (cfg8.win 2).flush t = true ∧ i ∈ ((cfg8.win 2).blk t).view.set := by
  have hi0 : (i 0).val < 100000 := (i 0).isLt
  have hi1 : (i 1).val < 128 := (i 1).isLt
  have hN : cfg8.N = 20 := N_8
  obtain ⟨t, ht⟩ : ∃ t : Fin cfg8.N, t.val = (i 0).val / 5000 := ⟨⟨(i 0).val / 5000, by rw [hN]; omega⟩, rfl⟩
  obtain ⟨-, -, -, -, e4, e5⟩ := blocks_at t
  refine ⟨t, flush8_2 t, ?_⟩
  rw [mem_block]
  intro a
  match a with
  | ⟨0, _⟩ =>
    show win8_2.index t (0 : Fin 2) * 5000 ≤ (i 0).val ∧ (i 0).val < win8_2.index t (0 : Fin 2) * 5000 + 5000
    rw [e4, ht]; omega
  | ⟨1, _⟩ =>
    show win8_2.index t (1 : Fin 2) * 128 ≤ (i 1).val ∧ (i 1).val < win8_2.index t (1 : Fin 2) * 128 + 128
    rw [e5]; omega

/-- The array the pass leaves: the scaled rows of the arrays it found. -/
theorem array_eq (c : Dev nD) : (dat8 V c).arrAt 2 cfg8.N = scaleRows (V c main_v47) (V c main_arg1) :=
  (dat8 V c).arrAt_eq_of_cover 2 (scaleRows (V c main_v47) (V c main_arg1)) (fun t _ => flushed_eq V c t) (fun i => covered i)

end AtEntry

variable (m : (ℓ : Loc nD τ sig) → Buf (Elt F) ℓ) (ρ : Dev nD → PrngReg)

/-- Across the pass: its output at the scaled rows of its input, the four arguments as they were. -/
theorem result (c : Dev nD) : W13 m ρ c (Proc.devRef .tc main_v48)
    = scaleRows (W12 m ρ c (Proc.devRef .tc main_v47)) (W12 m ρ c (Proc.devRef .tc main_arg1)) :=
  (W13_arr m ρ c 2).trans (array_eq (V12 m ρ) c)
theorem keep_arg0 (c : Dev nD) : W13 m ρ c (Proc.devRef .tc main_arg0) = W12 m ρ c (Proc.devRef .tc main_arg0) :=
  W13_of_ne m ρ c main_arg0 (by decide)
theorem keep_arg1 (c : Dev nD) : W13 m ρ c (Proc.devRef .tc main_arg1) = W12 m ρ c (Proc.devRef .tc main_arg1) :=
  (W13_arr m ρ c 1).trans (((dat8 (V12 m ρ) c).arrAt_in 1 rfl _).trans (A_eq8 (V12 m ρ) c 1))
theorem keep_arg2 (c : Dev nD) : W13 m ρ c (Proc.devRef .tc main_arg2) = W12 m ρ c (Proc.devRef .tc main_arg2) :=
  W13_of_ne m ρ c main_arg2 (by decide)
theorem keep_arg3 (c : Dev nD) : W13 m ρ c (Proc.devRef .tc main_arg3) = W12 m ρ c (Proc.devRef .tc main_arg3) :=
  W13_of_ne m ρ c main_arg3 (by decide)

end Cert.KernelIdeal.Hand.Pass8

end
-- ==== Proof.Edges9.lean ====
/-
  The host operations between two passes of the idealized kernel (stretch 9): the edge aggregation.

  From any buffer contents the thirteen operations leave in `main_v58` the aggregation (Spec: `aggregate`) of
  the rows of `main_v48` along the edge lists, and write none of the four arguments.
-/
import proofs.«108799_j25357486915690_1_alg».proof.Proof.Gen.KernelIdeal.Frame
import proofs.«108799_j25357486915690_1_alg».proof.Proof.Spec

set_option maxRecDepth 16384

noncomputable section

namespace Cert.KernelIdeal.Hand.Edges9

open Cert.KernelIdeal Cert.KernelIdeal.Gen Cert.Appnp
open Idealize.ShloMosaic Idealize.ShloMosaic.TcCoe Idealize.ShloMosaic.StableHlo Idealize.SL.Sem

variable {F : FTy → Type} [FloatOps F]

set_option maxHeartbeats 2000000 in
/-- After the stretch the scatter's result holds the aggregation of the gathered array. -/
theorem result (Wc : Valuation τ sig (Elt F)) :
    StableHlo.after hostOps9 Wc (Proc.devRef .tc main_v58)
      = aggregate gather_S100000x128_S1600000x1_S1600000x128_1_0_n_n_0_1_1128 scatter_S100000x128_S1600000x1_S1600000x128_1_0_0_1
          (Wc (Proc.devRef .tc main_arg2)) (Wc (Proc.devRef .tc main_arg3)) (Wc (Proc.devRef .tc main_v48)) := by
  after_results
  rfl

theorem keep_arg0 (Wc : Valuation τ sig (Elt F)) :
    StableHlo.after hostOps9 Wc (Proc.devRef .tc main_arg0) = Wc (Proc.devRef .tc main_arg0) := by
  after_results
theorem keep_arg1 (Wc : Valuation τ sig (Elt F)) :
    StableHlo.after hostOps9 Wc (Proc.devRef .tc main_arg1) = Wc (Proc.devRef .tc main_arg1) := by
  after_results
theorem keep_arg2 (Wc : Valuation τ sig (Elt F)) :
    StableHlo.after hostOps9 Wc (Proc.devRef .tc main_arg2) = Wc (Proc.devRef .tc main_arg2) := by
  after_results
theorem keep_arg3 (Wc : Valuation τ sig (Elt F)) :
    StableHlo.after hostOps9 Wc (Proc.devRef .tc main_arg3) = Wc (Proc.devRef .tc main_arg3) := by
  after_results

end Cert.KernelIdeal.Hand.Edges9

end
-- ==== Proof.Pass9.lean ====
/-
  Pass 9 of the idealized kernel: the end of a round, 5000 rows at a time.

  The pass reads the aggregate `main_v58`, the factor column and the input features through blocks of 5000
  rows and writes `main_v59` block by block; block `t` of each starts at row `5000 t`. What a grid point
  writes back is its block of `mix` of the three arrays as the pass finds them; the twenty blocks cover the
  rows, so the array the pass leaves is `mix` of them. The other buffers the chain needs are as the pass
  found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass9

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The four index maps over the grid: point `t`'s blocks are block `t` along the rows and block 0 across. -/
theorem blocks_at : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

section AtEntry
variable (V : (c : Dev nD) → (b : Ref sig .tc) → Buf (Elt F) ((c : Thread nD τ).loc b))

/-- What point `t` writes back is block `t` of the round's end computed from the arrays the pass finds. -/
theorem flushed_eq (c : Dev nD) (t : Fin cfg9.N) :
    (dat9 V c).flushed 3 t
      = ((cfg9.win 3).blk t).view.read (Elt F) (mix (V c main_v58) (V c main_arg1) (V c main_arg0)) := by
  show (cfg9.win 3).cut (grid9.coords t) ((dat9 V c).after 3 t) = _
  rw [after9_3]
  unfold out9_3
  rw [View.canon_unit_zero offsets_zero]
  simp only [View.ld_unit_zero (S := S5000x128) offsets_zero, View.ld_unit_zero (S := S5000x1) offsets_zero]
  obtain ⟨e0, e1, e2, e3, e4, e5, e6, e7⟩ := blocks_at t
  funext j
  refine mix_block shapeCasts_S5000x128_S5000x128 broadcasts_S5000x1_S5000x128 (V c main_v58) (V c main_arg1) (V c main_arg0)
    (iblk9 V c 0 t) (iblk9 V c 1 t) (iblk9 V c 2 t)
    (t.val * 5000) (((cfg9.win 3).blk t).view.emb) (fun y => ?_) (fun y => ?_) (fun k i hi => ?_) (fun y => ?_) j
  · show win9_3.index t (0 : Fin 2) * 5000 + 1 * (y 0).val = _
    rw [e6]; omega
  · show V c main_v58 (((cfg9.win 0).blk t).view.emb y) = V c main_v58 (((cfg9.win 3).blk t).view.emb y)
    refine congrArg _ (funext fun a => Fin.ext ?_)
    match a with
    | ⟨0, _⟩ => show win9_0.index t (0 : Fin 2) * 5000 + 1 * (y 0).val = win9_3.index t (0 : Fin 2) * 5000 + 1 * (y 0).val; rw [e0, e6]
    | ⟨1, _⟩ => show win9_0.index t (1 : Fin 2) * 128 + 1 * (y 1).val = win9_3.index t (1 : Fin 2) * 128 + 1 * (y 1).val; rw [e1, e7]
  · show V c main_arg1 (((cfg9.win 1).blk t).view.emb k) = V c main_arg1 i
    refine congrArg _ (funext fun a => Fin.ext ?_)
    match a with
    | ⟨0, _⟩ => show win9_1.index t (0 : Fin 2) * 5000 + 1 * (k 0).val = (i 0).val; rw [e2, hi]; omega
    | ⟨1, _⟩ =>
      show win9_1.index t (1 : Fin 2) * 1 + 1 * (k 1).val = (i 1).val
      have hk : (k 1).val < 1 := (k 1).isLt
      have hi1 : (i 1).val < 1 := (i 1).isLt
      rw [e3]; omega
  · show V c main_arg0 (((cfg9.win 2).blk t).view.emb y) = V c main_arg0 (((cfg9.win 3).blk t).view.emb y)
    refine congrArg _ (funext fun a => Fin.ext ?_)
    match a with
    | ⟨0, _⟩ => show win9_2.index t (0 : Fin 2) * 5000 + 1 * (y 0).val = win9_3.index t (0 : Fin 2) * 5000 + 1 * (y 0).val; rw [e4, e6]
    | ⟨1, _⟩ => show win9_2.index t (1 : Fin 2) * 128 + 1 * (y 1).val = win9_3.index t (1 : Fin 2) * 128 + 1 * (y 1).val; rw [e5, e7]

/-- An index of the array is in point `t`'s block iff each coordinate is in the block's range on its axis. -/
theorem mem_block (t : Fin cfg9.N) (i : S100000x128.Idx) :
    i ∈ ((cfg9.win 3).blk t).view.set ↔ ∀ a : Fin 2, win9_3.index t a * S5000x128.size a ≤ (i a).val
      ∧ (i a).val < win9_3.index t a * S5000x128.size a + S5000x128.size a := by
  show i ∈ ((View.whole main_v59).slice (win9_3.rect t)).set ↔ _
  rw [View.set_slice_whole, Rect.mem_set_unit]
  exact Iff.rfl

/-- Row `r` is in the block of point `r / 5000`. -/
theorem covered (i : S100000x128.Idx) :
    ∃ t : Fin cfg9.N, (cfg9.win 3).flush t = true ∧ i ∈ ((cfg9.win 3).blk t).view.set := by
  have hi0 : (i 0).val < 100000 := (i 0).isLt
  have hi1 : (i 1).val < 128 := (i 1).isLt
  have hN : cfg9.N = 20 := N_9
  obtain ⟨t, ht⟩ : ∃ t : Fin cfg9.N, t.val = (i 0).val / 5000 := ⟨⟨(i 0).val / 5000, by rw [hN]; omega⟩, rfl⟩
  obtain ⟨-, -, -, -, -, -, e6, e7⟩ := blocks_at t
  refine ⟨t, flush9_3 t, ?_⟩
  rw [mem_block]
  intro a
  match a with
  | ⟨0, _⟩ =>
    show win9_3.index t (0 : Fin 2) * 5000 ≤ (i 0).val ∧ (i 0).val < win9_3.index t (0 : Fin 2) * 5000 + 5000
    rw [e6, ht]; omega
  | ⟨1, _⟩ =>
    show win9_3.index t (1 : Fin 2) * 128 ≤ (i 1).val ∧ (i 1).val < win9_3.index t (1 : Fin 2) * 128 + 128
    rw [e7]; omega

/-- The array the pass leaves: the round's end computed from the arrays it found. -/
theorem array_eq (c : Dev nD) : (dat9 V c).arrAt 3 cfg9.N = mix (V c main_v58) (V c main_arg1) (V c main_arg0) :=
  (dat9 V c).arrAt_eq_of_cover 3 (mix (V c main_v58) (V c main_arg1) (V c main_arg0)) (fun t _ => flushed_eq V c t)
    (fun i => covered i)

end AtEntry

variable (m : (ℓ : Loc nD τ sig) → Buf (Elt F) ℓ) (ρ : Dev nD → PrngReg)

/-- Across the pass: its output at the round's end of its inputs, the four arguments as they were. -/
theorem result (c : Dev nD) : W15 m ρ c (Proc.devRef .tc main_v59)
    = mix (W14 m ρ c (Proc.devRef .tc main_v58)) (W14 m ρ c (Proc.devRef .tc main_arg1)) (W14 m ρ c (Proc.devRef .tc main_arg0)) :=
  (W15_arr m ρ c 3).trans (array_eq (V14 m ρ) c)
theorem keep_arg0 (c : Dev nD) : W15 m ρ c (Proc.devRef .tc main_arg0) = W14 m ρ c (Proc.devRef .tc main_arg0) :=
  (W15_arr m ρ c 2).trans (((dat9 (V14 m ρ) c).arrAt_in 2 rfl _).trans (A_eq9 (V14 m ρ) c 2))
theorem keep_arg1 (c : Dev nD) : W15 m ρ c (Proc.devRef .tc main_arg1) = W14 m ρ c (Proc.devRef .tc main_arg1) :=
  (W15_arr m ρ c 1).trans (((dat9 (V14 m ρ) c).arrAt_in 1 rfl _).trans (A_eq9 (V14 m ρ) c 1))
theorem keep_arg2 (c : Dev nD) : W15 m ρ c (Proc.devRef .tc main_arg2) = W14 m ρ c (Proc.devRef .tc main_arg2) :=
  W15_of_ne m ρ c main_arg2 (by decide)
theorem keep_arg3 (c : Dev nD) : W15 m ρ c (Proc.devRef .tc main_arg3) = W14 m ρ c (Proc.devRef .tc main_arg3) :=
  W15_of_ne m ρ c main_arg3 (by decide)

end Cert.KernelIdeal.Hand.Pass9

end
-- ==== Proof.Pass10.lean ====
/-
  Pass 10 of the idealized kernel: every row of an array times its node's factor, 5000 rows at a time.

  The pass reads the array `main_v59` and the factor column through blocks of 5000 rows and writes `main_v60`
  block by block; block `t` of each starts at row `5000 t`. What a grid point writes back is its block of
  `scaleRows` of the two arrays as the pass finds them; the twenty blocks cover the rows, so the array
  the pass leaves is `scaleRows` of them. The other buffers the chain needs are as the pass found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass10

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The three index maps over the grid: point `t`'s blocks are block `t` along the rows and block 0 across. -/
theorem blocks_at : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

section AtEntry
variable (V : (c : Dev nD) → (b : Ref sig .tc) → Buf (Elt F) ((c : Thread nD τ).loc b))

/-- What point `t` writes back is block `t` of the scaled rows of the arrays the pass finds. -/
theorem flushed_eq (c : Dev nD) (t : Fin cfg10.N) :
    (dat10 V c).flushed 2 t = ((cfg10.win 2).blk t).view.read (Elt F) (scaleRows (V c main_v59) (V c main_arg1)) := by
  show (cfg10.win 2).cut (grid10.coords t) ((dat10 V c).after 2 t) = _
  rw [after10_2]
  unfold out10_2
  rw [View.canon_unit_zero offsets_zero]
  simp only [View.ld_unit_zero (S := S5000x128) offsets_zero, View.ld_unit_zero (S := S5000x1) offsets_zero]
  obtain ⟨e0, e1, e2, e3, e4, e5⟩ := blocks_at t
  funext j
  refine scaleRows_block_cast shapeCasts_S5000x128_S5000x128 broadcasts_S5000x1_S5000x128 (V c main_v59) (V c main_arg1) (iblk10 V c 0 t) (iblk10 V c 1 t)
    (t.val * 5000) (((cfg10.win 2).blk t).view.emb) (fun y => ?_) (fun y => ?_) (fun k i hi => ?_) j
  · show win10_2.index t (0 : Fin 2) * 5000 + 1 * (y 0).val = _
    rw [e4]; omega
  · show V c main_v59 (((cfg10.win 0).blk t).view.emb y) = V c main_v59 (((cfg10.win 2).blk t).view.emb y)
    refine congrArg _ (funext fun a => Fin.ext ?_)
    match a with
    | ⟨0, _⟩ => show win10_0.index t (0 : Fin 2) * 5000 + 1 * (y 0).val = win10_2.index t (0 : Fin 2) * 5000 + 1 * (y 0).val; rw [e0, e4]
    | ⟨1, _⟩ => show win10_0.index t (1 : Fin 2) * 128 + 1 * (y 1).val = win10_2.index t (1 : Fin 2) * 128 + 1 * (y 1).val; rw [e1, e5]
  · show V c main_arg1 (((cfg10.win 1).blk t).view.emb k) = V c main_arg1 i
    refine congrArg _ (funext fun a => Fin.ext ?_)
    match a with
    | ⟨0, _⟩ => show win10_1.index t (0 : Fin 2) * 5000 + 1 * (k 0).val = (i 0).val; rw [e2, hi]; omega
    | ⟨1, _⟩ =>
      show win10_1.index t (1 : Fin 2) * 1 + 1 * (k 1).val = (i 1).val
      have hk : (k 1).val < 1 := (k 1).isLt
      have hi1 : (i 1).val < 1 := (i 1).isLt
      rw [e3]; omega

/-- An index of the array is in point `t`'s block iff each coordinate is in the block's range on its axis. -/
theorem mem_block (t : Fin cfg10.N) (i : S100000x128.Idx) :
    i ∈ ((cfg10.win 2).blk t).view.set ↔ ∀ a : Fin 2, win10_2.index t a * S5000x128.size a ≤ (i a).val
      ∧ (i a).val < win10_2.index t a * S5000x128.size a + S5000x128.size a := by
  show i ∈ ((View.whole main_v60).slice (win10_2.rect t)).set ↔ _
  rw [View.set_slice_whole, Rect.mem_set_unit]
  exact Iff.rfl

/-- Row `r` is in the block of point `r / 5000`. -/
theorem covered (i : S100000x128.Idx) :
    ∃ t : Fin cfg10.N, (cfg10.win 2).flush t = true ∧ i ∈ ((cfg10.win 2).blk t).view.set := by
  have hi0 : (i 0).val < 100000 := (i 0).isLt
  have hi1 : (i 1).val < 128 := (i 1).isLt
  have hN : cfg10.N = 20 := N_10
  obtain ⟨t, ht⟩ : ∃ t : Fin cfg10.N, t.val = (i 0).val / 5000 := ⟨⟨(i 0).val / 5000, by rw [hN]; omega⟩, rfl⟩
  obtain ⟨-, -, -, -, e4, e5⟩ := blocks_at t
  refine ⟨t, flush10_2 t, ?_⟩
  rw [mem_block]
  intro a
  match a with
  | ⟨0, _⟩ =>
    show win10_2.index t (0 : Fin 2) * 5000 ≤ (i 0).val ∧ (i 0).val < win10_2.index t (0 : Fin 2) * 5000 + 5000
    rw [e4, ht]; omega
  | ⟨1, _⟩ =>
    show win10_2.index t (1 : Fin 2) * 128 ≤ (i 1).val ∧ (i 1).val < win10_2.index t (1 : Fin 2) * 128 + 128
    rw [e5]; omega

/-- The array the pass leaves: the scaled rows of the arrays it found. -/
theorem array_eq (c : Dev nD) : (dat10 V c).arrAt 2 cfg10.N = scaleRows (V c main_v59) (V c main_arg1) :=
  (dat10 V c).arrAt_eq_of_cover 2 (scaleRows (V c main_v59) (V c main_arg1)) (fun t _ => flushed_eq V c t) (fun i => covered i)

end AtEntry

variable (m : (ℓ : Loc nD τ sig) → Buf (Elt F) ℓ) (ρ : Dev nD → PrngReg)

/-- Across the pass: its output at the scaled rows of its input, the four arguments as they were. -/
theorem result (c : Dev nD) : W16 m ρ c (Proc.devRef .tc main_v60)
    = scaleRows (W15 m ρ c (Proc.devRef .tc main_v59)) (W15 m ρ c (Proc.devRef .tc main_arg1)) :=
  (W16_arr m ρ c 2).trans (array_eq (V15 m ρ) c)
theorem keep_arg0 (c : Dev nD) : W16 m ρ c (Proc.devRef .tc main_arg0) = W15 m ρ c (Proc.devRef .tc main_arg0) :=
  W16_of_ne m ρ c main_arg0 (by decide)
theorem keep_arg1 (c : Dev nD) : W16 m ρ c (Proc.devRef .tc main_arg1) = W15 m ρ c (Proc.devRef .tc main_arg1) :=
  (W16_arr m ρ c 1).trans (((dat10 (V15 m ρ) c).arrAt_in 1 rfl _).trans (A_eq10 (V15 m ρ) c 1))
theorem keep_arg2 (c : Dev nD) : W16 m ρ c (Proc.devRef .tc main_arg2) = W15 m ρ c (Proc.devRef .tc main_arg2) :=
  W16_of_ne m ρ c main_arg2 (by decide)
theorem keep_arg3 (c : Dev nD) : W16 m ρ c (Proc.devRef .tc main_arg3) = W15 m ρ c (Proc.devRef .tc main_arg3) :=
  W16_of_ne m ρ c main_arg3 (by decide)

end Cert.KernelIdeal.Hand.Pass10

end
-- ==== Proof.Edges11.lean ====
/-
  The host operations between two passes of the idealized kernel (stretch 11): the edge aggregation.

  From any buffer contents the thirteen operations leave in `main_v70` the aggregation (Spec: `aggregate`) of
  the rows of `main_v60` along the edge lists, and write none of the four arguments.
-/
import proofs.«108799_j25357486915690_1_alg».proof.Proof.Gen.KernelIdeal.Frame
import proofs.«108799_j25357486915690_1_alg».proof.Proof.Spec

set_option maxRecDepth 16384

noncomputable section

namespace Cert.KernelIdeal.Hand.Edges11

open Cert.KernelIdeal Cert.KernelIdeal.Gen Cert.Appnp
open Idealize.ShloMosaic Idealize.ShloMosaic.TcCoe Idealize.ShloMosaic.StableHlo Idealize.SL.Sem

variable {F : FTy → Type} [FloatOps F]

set_option maxHeartbeats 2000000 in
/-- After the stretch the scatter's result holds the aggregation of the gathered array. -/
theorem result (Wc : Valuation τ sig (Elt F)) :
    StableHlo.after hostOps11 Wc (Proc.devRef .tc main_v70)
      = aggregate gather_S100000x128_S1600000x1_S1600000x128_1_0_n_n_0_1_1128 scatter_S100000x128_S1600000x1_S1600000x128_1_0_0_1
          (Wc (Proc.devRef .tc main_arg2)) (Wc (Proc.devRef .tc main_arg3)) (Wc (Proc.devRef .tc main_v60)) := by
  after_results
  rfl

theorem keep_arg0 (Wc : Valuation τ sig (Elt F)) :
    StableHlo.after hostOps11 Wc (Proc.devRef .tc main_arg0) = Wc (Proc.devRef .tc main_arg0) := by
  after_results
theorem keep_arg1 (Wc : Valuation τ sig (Elt F)) :
    StableHlo.after hostOps11 Wc (Proc.devRef .tc main_arg1) = Wc (Proc.devRef .tc main_arg1) := by
  after_results
theorem keep_arg2 (Wc : Valuation τ sig (Elt F)) :
    StableHlo.after hostOps11 Wc (Proc.devRef .tc main_arg2) = Wc (Proc.devRef .tc main_arg2) := by
  after_results
theorem keep_arg3 (Wc : Valuation τ sig (Elt F)) :
    StableHlo.after hostOps11 Wc (Proc.devRef .tc main_arg3) = Wc (Proc.devRef .tc main_arg3) := by
  after_results

end Cert.KernelIdeal.Hand.Edges11

end
-- ==== Proof.Pass11.lean ====
/-
  Pass 11 of the idealized kernel: the end of a round, 5000 rows at a time.

  The pass reads the aggregate `main_v70`, the factor column and the input features through blocks of 5000
  rows and writes `main_v71` block by block; block `t` of each starts at row `5000 t`. What a grid point
  writes back is its block of `mix` of the three arrays as the pass finds them; the twenty blocks cover the
  rows, so the array the pass leaves is `mix` of them. The other buffers the chain needs are as the pass
  found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass11

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The four index maps over the grid: point `t`'s blocks are block `t` along the rows and block 0 across. -/
theorem blocks_at : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0 :=
  (by decide +kernel : ∀ t : Fin grid11.N, _)

section AtEntry
variable (V : (c : Dev nD) → (b : Ref sig .tc) → Buf (Elt F) ((c : Thread nD τ).loc b))

/-- What point `t` writes back is block `t` of the round's end computed from the arrays the pass finds. -/
theorem flushed_eq (c : Dev nD) (t : Fin cfg11.N) :
    (dat11 V c).flushed 3 t
      = ((cfg11.win 3).blk t).view.read (Elt F) (mix (V c main_v70) (V c main_arg1) (V c main_arg0)) := by
  show (cfg11.win 3).cut (grid11.coords t) ((dat11 V c).after 3 t) = _
  rw [after11_3]
  unfold out11_3
  rw [View.canon_unit_zero offsets_zero]
  simp only [View.ld_unit_zero (S := S5000x128) offsets_zero, View.ld_unit_zero (S := S5000x1) offsets_zero]
  obtain ⟨e0, e1, e2, e3, e4, e5, e6, e7⟩ := blocks_at t
  funext j
  refine mix_block shapeCasts_S5000x128_S5000x128 broadcasts_S5000x1_S5000x128 (V c main_v70) (V c main_arg1) (V c main_arg0)
    (iblk11 V c 0 t) (iblk11 V c 1 t) (iblk11 V c 2 t)
    (t.val * 5000) (((cfg11.win 3).blk t).view.emb) (fun y => ?_) (fun y => ?_) (fun k i hi => ?_) (fun y => ?_) j
  · show win11_3.index t (0 : Fin 2) * 5000 + 1 * (y 0).val = _
    rw [e6]; omega
  · show V c main_v70 (((cfg11.win 0).blk t).view.emb y) = V c main_v70 (((cfg11.win 3).blk t).view.emb y)
    refine congrArg _ (funext fun a => Fin.ext ?_)
    match a with
    | ⟨0, _⟩ => show win11_0.index t (0 : Fin 2) * 5000 + 1 * (y 0).val = win11_3.index t (0 : Fin 2) * 5000 + 1 * (y 0).val; rw [e0, e6]
    | ⟨1, _⟩ => show win11_0.index t (1 : Fin 2) * 128 + 1 * (y 1).val = win11_3.index t (1 : Fin 2) * 128 + 1 * (y 1).val; rw [e1, e7]
  · show V c main_arg1 (((cfg11.win 1).blk t).view.emb k) = V c main_arg1 i
    refine congrArg _ (funext fun a => Fin.ext ?_)
    match a with
    | ⟨0, _⟩ => show win11_1.index t (0 : Fin 2) * 5000 + 1 * (k 0).val = (i 0).val; rw [e2, hi]; omega
    | ⟨1, _⟩ =>
      show win11_1.index t (1 : Fin 2) * 1 + 1 * (k 1).val = (i 1).val
      have hk : (k 1).val < 1 := (k 1).isLt
      have hi1 : (i 1).val < 1 := (i 1).isLt
      rw [e3]; omega
  · show V c main_arg0 (((cfg11.win 2).blk t).view.emb y) = V c main_arg0 (((cfg11.win 3).blk t).view.emb y)
    refine congrArg _ (funext fun a => Fin.ext ?_)
    match a with
    | ⟨0, _⟩ => show win11_2.index t (0 : Fin 2) * 5000 + 1 * (y 0).val = win11_3.index t (0 : Fin 2) * 5000 + 1 * (y 0).val; rw [e4, e6]
    | ⟨1, _⟩ => show win11_2.index t (1 : Fin 2) * 128 + 1 * (y 1).val = win11_3.index t (1 : Fin 2) * 128 + 1 * (y 1).val; rw [e5, e7]

/-- An index of the array is in point `t`'s block iff each coordinate is in the block's range on its axis. -/
theorem mem_block (t : Fin cfg11.N) (i : S100000x128.Idx) :
    i ∈ ((cfg11.win 3).blk t).view.set ↔ ∀ a : Fin 2, win11_3.index t a * S5000x128.size a ≤ (i a).val
      ∧ (i a).val < win11_3.index t a * S5000x128.size a + S5000x128.size a := by
  show i ∈ ((View.whole main_v71).slice (win11_3.rect t)).set ↔ _
  rw [View.set_slice_whole, Rect.mem_set_unit]
  exact Iff.rfl

/-- Row `r` is in the block of point `r / 5000`. -/
theorem covered (i : S100000x128.Idx) :
    ∃ t : Fin cfg11.N, (cfg11.win 3).flush t = true ∧ i ∈ ((cfg11.win 3).blk t).view.set := by
  have hi0 : (i 0).val < 100000 := (i 0).isLt
  have hi1 : (i 1).val < 128 := (i 1).isLt
  have hN : cfg11.N = 20 := N_11
  obtain ⟨t, ht⟩ : ∃ t : Fin cfg11.N, t.val = (i 0).val / 5000 := ⟨⟨(i 0).val / 5000, by rw [hN]; omega⟩, rfl⟩
  obtain ⟨-, -, -, -, -, -, e6, e7⟩ := blocks_at t
  refine ⟨t, flush11_3 t, ?_⟩
  rw [mem_block]
  intro a
  match a with
  | ⟨0, _⟩ =>
    show win11_3.index t (0 : Fin 2) * 5000 ≤ (i 0).val ∧ (i 0).val < win11_3.index t (0 : Fin 2) * 5000 + 5000
    rw [e6, ht]; omega
  | ⟨1, _⟩ =>
    show win11_3.index t (1 : Fin 2) * 128 ≤ (i 1).val ∧ (i 1).val < win11_3.index t (1 : Fin 2) * 128 + 128
    rw [e7]; omega

/-- The array the pass leaves: the round's end computed from the arrays it found. -/
theorem array_eq (c : Dev nD) : (dat11 V c).arrAt 3 cfg11.N = mix (V c main_v70) (V c main_arg1) (V c main_arg0) :=
  (dat11 V c).arrAt_eq_of_cover 3 (mix (V c main_v70) (V c main_arg1) (V c main_arg0)) (fun t _ => flushed_eq V c t)
    (fun i => covered i)

end AtEntry

variable (m : (ℓ : Loc nD τ sig) → Buf (Elt F) ℓ) (ρ : Dev nD → PrngReg)

/-- Across the pass: its output at the round's end of its inputs, the four arguments as they were. -/
theorem result (c : Dev nD) : W18 m ρ c (Proc.devRef .tc main_v71)
    = mix (W17 m ρ c (Proc.devRef .tc main_v70)) (W17 m ρ c (Proc.devRef .tc main_arg1)) (W17 m ρ c (Proc.devRef .tc main_arg0)) :=
  (W18_arr m ρ c 3).trans (array_eq (V17 m ρ) c)
theorem keep_arg0 (c : Dev nD) : W18 m ρ c (Proc.devRef .tc main_arg0) = W17 m ρ c (Proc.devRef .tc main_arg0) :=
  (W18_arr m ρ c 2).trans (((dat11 (V17 m ρ) c).arrAt_in 2 rfl _).trans (A_eq11 (V17 m ρ) c 2))
theorem keep_arg1 (c : Dev nD) : W18 m ρ c (Proc.devRef .tc main_arg1) = W17 m ρ c (Proc.devRef .tc main_arg1) :=
  (W18_arr m ρ c 1).trans (((dat11 (V17 m ρ) c).arrAt_in 1 rfl _).trans (A_eq11 (V17 m ρ) c 1))
theorem keep_arg2 (c : Dev nD) : W18 m ρ c (Proc.devRef .tc main_arg2) = W17 m ρ c (Proc.devRef .tc main_arg2) :=
  W18_of_ne m ρ c main_arg2 (by decide)
theorem keep_arg3 (c : Dev nD) : W18 m ρ c (Proc.devRef .tc main_arg3) = W17 m ρ c (Proc.devRef .tc main_arg3) :=
  W18_of_ne m ρ c main_arg3 (by decide)

end Cert.KernelIdeal.Hand.Pass11

end
-- ==== Proof.Pass12.lean ====
/-
  Pass 12 of the idealized kernel: every row of an array times its node's factor, 5000 rows at a time.

  The pass reads the array `main_v71` and the factor column through blocks of 5000 rows and writes `main_v72`
  block by block; block `t` of each starts at row `5000 t`. What a grid point writes back is its block of
  `scaleRows` of the two arrays as the pass finds them; the twenty blocks cover the rows, so the array
  the pass leaves is `scaleRows` of them. The other buffers the chain needs are as the pass found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass12

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The three index maps over the grid: point `t`'s blocks are block `t` along the rows and block 0 across. -/
theorem blocks_at : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0 :=
  (by decide +kernel : ∀ t : Fin grid12.N, _)

section AtEntry
variable (V : (c : Dev nD) → (b : Ref sig .tc) → Buf (Elt F) ((c : Thread nD τ).loc b))

/-- What point `t` writes back is block `t` of the scaled rows of the arrays the pass finds. -/
theorem flushed_eq (c : Dev nD) (t : Fin cfg12.N) :
    (dat12 V c).flushed 2 t = ((cfg12.win 2).blk t).view.read (Elt F) (scaleRows (V c main_v71) (V c main_arg1)) := by
  show (cfg12.win 2).cut (grid12.coords t) ((dat12 V c).after 2 t) = _
  rw [after12_2]
  unfold out12_2
  rw [View.canon_unit_zero offsets_zero]
  simp only [View.ld_unit_zero (S := S5000x128) offsets_zero, View.ld_unit_zero (S := S5000x1) offsets_zero]
  obtain ⟨e0, e1, e2, e3, e4, e5⟩ := blocks_at t
  funext j
  refine scaleRows_block_cast shapeCasts_S5000x128_S5000x128 broadcasts_S5000x1_S5000x128 (V c main_v71) (V c main_arg1) (iblk12 V c 0 t) (iblk12 V c 1 t)
    (t.val * 5000) (((cfg12.win 2).blk t).view.emb) (fun y => ?_) (fun y => ?_) (fun k i hi => ?_) j
  · show win12_2.index t (0 : Fin 2) * 5000 + 1 * (y 0).val = _
    rw [e4]; omega
  · show V c main_v71 (((cfg12.win 0).blk t).view.emb y) = V c main_v71 (((cfg12.win 2).blk t).view.emb y)
    refine congrArg _ (funext fun a => Fin.ext ?_)
    match a with
    | ⟨0, _⟩ => show win12_0.index t (0 : Fin 2) * 5000 + 1 * (y 0).val = win12_2.index t (0 : Fin 2) * 5000 + 1 * (y 0).val; rw [e0, e4]
    | ⟨1, _⟩ => show win12_0.index t (1 : Fin 2) * 128 + 1 * (y 1).val = win12_2.index t (1 : Fin 2) * 128 + 1 * (y 1).val; rw [e1, e5]
  · show V c main_arg1 (((cfg12.win 1).blk t).view.emb k) = V c main_arg1 i
    refine congrArg _ (funext fun a => Fin.ext ?_)
    match a with
    | ⟨0, _⟩ => show win12_1.index t (0 : Fin 2) * 5000 + 1 * (k 0).val = (i 0).val; rw [e2, hi]; omega
    | ⟨1, _⟩ =>
      show win12_1.index t (1 : Fin 2) * 1 + 1 * (k 1).val = (i 1).val
      have hk : (k 1).val < 1 := (k 1).isLt
      have hi1 : (i 1).val < 1 := (i 1).isLt
      rw [e3]; omega

/-- An index of the array is in point `t`'s block iff each coordinate is in the block's range on its axis. -/
theorem mem_block (t : Fin cfg12.N) (i : S100000x128.Idx) :
    i ∈ ((cfg12.win 2).blk t).view.set ↔ ∀ a : Fin 2, win12_2.index t a * S5000x128.size a ≤ (i a).val
      ∧ (i a).val < win12_2.index t a * S5000x128.size a + S5000x128.size a := by
  show i ∈ ((View.whole main_v72).slice (win12_2.rect t)).set ↔ _
  rw [View.set_slice_whole, Rect.mem_set_unit]
  exact Iff.rfl

/-- Row `r` is in the block of point `r / 5000`. -/
theorem covered (i : S100000x128.Idx) :
    ∃ t : Fin cfg12.N, (cfg12.win 2).flush t = true ∧ i ∈ ((cfg12.win 2).blk t).view.set := by
  have hi0 : (i 0).val < 100000 := (i 0).isLt
  have hi1 : (i 1).val < 128 := (i 1).isLt
  have hN : cfg12.N = 20 := N_12
  obtain ⟨t, ht⟩ : ∃ t : Fin cfg12.N, t.val = (i 0).val / 5000 := ⟨⟨(i 0).val / 5000, by rw [hN]; omega⟩, rfl⟩
  obtain ⟨-, -, -, -, e4, e5⟩ := blocks_at t
  refine ⟨t, flush12_2 t, ?_⟩
  rw [mem_block]
  intro a
  match a with
  | ⟨0, _⟩ =>
    show win12_2.index t (0 : Fin 2) * 5000 ≤ (i 0).val ∧ (i 0).val < win12_2.index t (0 : Fin 2) * 5000 + 5000
    rw [e4, ht]; omega
  | ⟨1, _⟩ =>
    show win12_2.index t (1 : Fin 2) * 128 ≤ (i 1).val ∧ (i 1).val < win12_2.index t (1 : Fin 2) * 128 + 128
    rw [e5]; omega

/-- The array the pass leaves: the scaled rows of the arrays it found. -/
theorem array_eq (c : Dev nD) : (dat12 V c).arrAt 2 cfg12.N = scaleRows (V c main_v71) (V c main_arg1) :=
  (dat12 V c).arrAt_eq_of_cover 2 (scaleRows (V c main_v71) (V c main_arg1)) (fun t _ => flushed_eq V c t) (fun i => covered i)

end AtEntry

variable (m : (ℓ : Loc nD τ sig) → Buf (Elt F) ℓ) (ρ : Dev nD → PrngReg)

/-- Across the pass: its output at the scaled rows of its input, the four arguments as they were. -/
theorem result (c : Dev nD) : W19 m ρ c (Proc.devRef .tc main_v72)
    = scaleRows (W18 m ρ c (Proc.devRef .tc main_v71)) (W18 m ρ c (Proc.devRef .tc main_arg1)) :=
  (W19_arr m ρ c 2).trans (array_eq (V18 m ρ) c)
theorem keep_arg0 (c : Dev nD) : W19 m ρ c (Proc.devRef .tc main_arg0) = W18 m ρ c (Proc.devRef .tc main_arg0) :=
  W19_of_ne m ρ c main_arg0 (by decide)
theorem keep_arg1 (c : Dev nD) : W19 m ρ c (Proc.devRef .tc main_arg1) = W18 m ρ c (Proc.devRef .tc main_arg1) :=
  (W19_arr m ρ c 1).trans (((dat12 (V18 m ρ) c).arrAt_in 1 rfl _).trans (A_eq12 (V18 m ρ) c 1))
theorem keep_arg2 (c : Dev nD) : W19 m ρ c (Proc.devRef .tc main_arg2) = W18 m ρ c (Proc.devRef .tc main_arg2) :=
  W19_of_ne m ρ c main_arg2 (by decide)
theorem keep_arg3 (c : Dev nD) : W19 m ρ c (Proc.devRef .tc main_arg3) = W18 m ρ c (Proc.devRef .tc main_arg3) :=
  W19_of_ne m ρ c main_arg3 (by decide)

end Cert.KernelIdeal.Hand.Pass12

end
-- ==== Proof.Edges13.lean ====
/-
  The host operations between two passes of the idealized kernel (stretch 13): the edge aggregation.

  From any buffer contents the thirteen operations leave in `main_v82` the aggregation (Spec: `aggregate`) of
  the rows of `main_v72` along the edge lists, and write none of the four arguments.
-/
import proofs.«108799_j25357486915690_1_alg».proof.Proof.Gen.KernelIdeal.Frame
import proofs.«108799_j25357486915690_1_alg».proof.Proof.Spec

set_option maxRecDepth 16384

noncomputable section

namespace Cert.KernelIdeal.Hand.Edges13

open Cert.KernelIdeal Cert.KernelIdeal.Gen Cert.Appnp
open Idealize.ShloMosaic Idealize.ShloMosaic.TcCoe Idealize.ShloMosaic.StableHlo Idealize.SL.Sem

variable {F : FTy → Type} [FloatOps F]

set_option maxHeartbeats 2000000 in
/-- After the stretch the scatter's result holds the aggregation of the gathered array. -/
theorem result (Wc : Valuation τ sig (Elt F)) :
    StableHlo.after hostOps13 Wc (Proc.devRef .tc main_v82)
      = aggregate gather_S100000x128_S1600000x1_S1600000x128_1_0_n_n_0_1_1128 scatter_S100000x128_S1600000x1_S1600000x128_1_0_0_1
          (Wc (Proc.devRef .tc main_arg2)) (Wc (Proc.devRef .tc main_arg3)) (Wc (Proc.devRef .tc main_v72)) := by
  after_results
  rfl

theorem keep_arg0 (Wc : Valuation τ sig (Elt F)) :
    StableHlo.after hostOps13 Wc (Proc.devRef .tc main_arg0) = Wc (Proc.devRef .tc main_arg0) := by
  after_results
theorem keep_arg1 (Wc : Valuation τ sig (Elt F)) :
    StableHlo.after hostOps13 Wc (Proc.devRef .tc main_arg1) = Wc (Proc.devRef .tc main_arg1) := by
  after_results
theorem keep_arg2 (Wc : Valuation τ sig (Elt F)) :
    StableHlo.after hostOps13 Wc (Proc.devRef .tc main_arg2) = Wc (Proc.devRef .tc main_arg2) := by
  after_results
theorem keep_arg3 (Wc : Valuation τ sig (Elt F)) :
    StableHlo.after hostOps13 Wc (Proc.devRef .tc main_arg3) = Wc (Proc.devRef .tc main_arg3) := by
  after_results

end Cert.KernelIdeal.Hand.Edges13

end
-- ==== Proof.Pass13.lean ====
/-
  Pass 13 of the idealized kernel: the end of a round, 5000 rows at a time.

  The pass reads the aggregate `main_v82`, the factor column and the input features through blocks of 5000
  rows and writes `main_v83` block by block; block `t` of each starts at row `5000 t`. What a grid point
  writes back is its block of `mix` of the three arrays as the pass finds them; the twenty blocks cover the
  rows, so the array the pass leaves is `mix` of them. The other buffers the chain needs are as the pass
  found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass13

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The four index maps over the grid: point `t`'s blocks are block `t` along the rows and block 0 across. -/
theorem blocks_at : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0 :=
  (by decide +kernel : ∀ t : Fin grid13.N, _)

section AtEntry
variable (V : (c : Dev nD) → (b : Ref sig .tc) → Buf (Elt F) ((c : Thread nD τ).loc b))

/-- What point `t` writes back is block `t` of the round's end computed from the arrays the pass finds. -/
theorem flushed_eq (c : Dev nD) (t : Fin cfg13.N) :
    (dat13 V c).flushed 3 t
      = ((cfg13.win 3).blk t).view.read (Elt F) (mix (V c main_v82) (V c main_arg1) (V c main_arg0)) := by
  show (cfg13.win 3).cut (grid13.coords t) ((dat13 V c).after 3 t) = _
  rw [after13_3]
  unfold out13_3
  rw [View.canon_unit_zero offsets_zero]
  simp only [View.ld_unit_zero (S := S5000x128) offsets_zero, View.ld_unit_zero (S := S5000x1) offsets_zero]
  obtain ⟨e0, e1, e2, e3, e4, e5, e6, e7⟩ := blocks_at t
  funext j
  refine mix_block shapeCasts_S5000x128_S5000x128 broadcasts_S5000x1_S5000x128 (V c main_v82) (V c main_arg1) (V c main_arg0)
    (iblk13 V c 0 t) (iblk13 V c 1 t) (iblk13 V c 2 t)
    (t.val * 5000) (((cfg13.win 3).blk t).view.emb) (fun y => ?_) (fun y => ?_) (fun k i hi => ?_) (fun y => ?_) j
  · show win13_3.index t (0 : Fin 2) * 5000 + 1 * (y 0).val = _
    rw [e6]; omega
  · show V c main_v82 (((cfg13.win 0).blk t).view.emb y) = V c main_v82 (((cfg13.win 3).blk t).view.emb y)
    refine congrArg _ (funext fun a => Fin.ext ?_)
    match a with
    | ⟨0, _⟩ => show win13_0.index t (0 : Fin 2) * 5000 + 1 * (y 0).val = win13_3.index t (0 : Fin 2) * 5000 + 1 * (y 0).val; rw [e0, e6]
    | ⟨1, _⟩ => show win13_0.index t (1 : Fin 2) * 128 + 1 * (y 1).val = win13_3.index t (1 : Fin 2) * 128 + 1 * (y 1).val; rw [e1, e7]
  · show V c main_arg1 (((cfg13.win 1).blk t).view.emb k) = V c main_arg1 i
    refine congrArg _ (funext fun a => Fin.ext ?_)
    match a with
    | ⟨0, _⟩ => show win13_1.index t (0 : Fin 2) * 5000 + 1 * (k 0).val = (i 0).val; rw [e2, hi]; omega
    | ⟨1, _⟩ =>
      show win13_1.index t (1 : Fin 2) * 1 + 1 * (k 1).val = (i 1).val
      have hk : (k 1).val < 1 := (k 1).isLt
      have hi1 : (i 1).val < 1 := (i 1).isLt
      rw [e3]; omega
  · show V c main_arg0 (((cfg13.win 2).blk t).view.emb y) = V c main_arg0 (((cfg13.win 3).blk t).view.emb y)
    refine congrArg _ (funext fun a => Fin.ext ?_)
    match a with
    | ⟨0, _⟩ => show win13_2.index t (0 : Fin 2) * 5000 + 1 * (y 0).val = win13_3.index t (0 : Fin 2) * 5000 + 1 * (y 0).val; rw [e4, e6]
    | ⟨1, _⟩ => show win13_2.index t (1 : Fin 2) * 128 + 1 * (y 1).val = win13_3.index t (1 : Fin 2) * 128 + 1 * (y 1).val; rw [e5, e7]

/-- An index of the array is in point `t`'s block iff each coordinate is in the block's range on its axis. -/
theorem mem_block (t : Fin cfg13.N) (i : S100000x128.Idx) :
    i ∈ ((cfg13.win 3).blk t).view.set ↔ ∀ a : Fin 2, win13_3.index t a * S5000x128.size a ≤ (i a).val
      ∧ (i a).val < win13_3.index t a * S5000x128.size a + S5000x128.size a := by
  show i ∈ ((View.whole main_v83).slice (win13_3.rect t)).set ↔ _
  rw [View.set_slice_whole, Rect.mem_set_unit]
  exact Iff.rfl

/-- Row `r` is in the block of point `r / 5000`. -/
theorem covered (i : S100000x128.Idx) :
    ∃ t : Fin cfg13.N, (cfg13.win 3).flush t = true ∧ i ∈ ((cfg13.win 3).blk t).view.set := by
  have hi0 : (i 0).val < 100000 := (i 0).isLt
  have hi1 : (i 1).val < 128 := (i 1).isLt
  have hN : cfg13.N = 20 := N_13
  obtain ⟨t, ht⟩ : ∃ t : Fin cfg13.N, t.val = (i 0).val / 5000 := ⟨⟨(i 0).val / 5000, by rw [hN]; omega⟩, rfl⟩
  obtain ⟨-, -, -, -, -, -, e6, e7⟩ := blocks_at t
  refine ⟨t, flush13_3 t, ?_⟩
  rw [mem_block]
  intro a
  match a with
  | ⟨0, _⟩ =>
    show win13_3.index t (0 : Fin 2) * 5000 ≤ (i 0).val ∧ (i 0).val < win13_3.index t (0 : Fin 2) * 5000 + 5000
    rw [e6, ht]; omega
  | ⟨1, _⟩ =>
    show win13_3.index t (1 : Fin 2) * 128 ≤ (i 1).val ∧ (i 1).val < win13_3.index t (1 : Fin 2) * 128 + 128
    rw [e7]; omega

/-- The array the pass leaves: the round's end computed from the arrays it found. -/
theorem array_eq (c : Dev nD) : (dat13 V c).arrAt 3 cfg13.N = mix (V c main_v82) (V c main_arg1) (V c main_arg0) :=
  (dat13 V c).arrAt_eq_of_cover 3 (mix (V c main_v82) (V c main_arg1) (V c main_arg0)) (fun t _ => flushed_eq V c t)
    (fun i => covered i)

end AtEntry

variable (m : (ℓ : Loc nD τ sig) → Buf (Elt F) ℓ) (ρ : Dev nD → PrngReg)

/-- Across the pass: its output at the round's end of its inputs, the four arguments as they were. -/
theorem result (c : Dev nD) : W21 m ρ c (Proc.devRef .tc main_v83)
    = mix (W20 m ρ c (Proc.devRef .tc main_v82)) (W20 m ρ c (Proc.devRef .tc main_arg1)) (W20 m ρ c (Proc.devRef .tc main_arg0)) :=
  (W21_arr m ρ c 3).trans (array_eq (V20 m ρ) c)
theorem keep_arg0 (c : Dev nD) : W21 m ρ c (Proc.devRef .tc main_arg0) = W20 m ρ c (Proc.devRef .tc main_arg0) :=
  (W21_arr m ρ c 2).trans (((dat13 (V20 m ρ) c).arrAt_in 2 rfl _).trans (A_eq13 (V20 m ρ) c 2))
theorem keep_arg1 (c : Dev nD) : W21 m ρ c (Proc.devRef .tc main_arg1) = W20 m ρ c (Proc.devRef .tc main_arg1) :=
  (W21_arr m ρ c 1).trans (((dat13 (V20 m ρ) c).arrAt_in 1 rfl _).trans (A_eq13 (V20 m ρ) c 1))
theorem keep_arg2 (c : Dev nD) : W21 m ρ c (Proc.devRef .tc main_arg2) = W20 m ρ c (Proc.devRef .tc main_arg2) :=
  W21_of_ne m ρ c main_arg2 (by decide)
theorem keep_arg3 (c : Dev nD) : W21 m ρ c (Proc.devRef .tc main_arg3) = W20 m ρ c (Proc.devRef .tc main_arg3) :=
  W21_of_ne m ρ c main_arg3 (by decide)

end Cert.KernelIdeal.Hand.Pass13

end
-- ==== Proof.Pass14.lean ====
/-
  Pass 14 of the idealized kernel: every row of an array times its node's factor, 5000 rows at a time.

  The pass reads the array `main_v83` and the factor column through blocks of 5000 rows and writes `main_v84`
  block by block; block `t` of each starts at row `5000 t`. What a grid point writes back is its block of
  `scaleRows` of the two arrays as the pass finds them; the twenty blocks cover the rows, so the array
  the pass leaves is `scaleRows` of them. The other buffers the chain needs are as the pass found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass14

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The three index maps over the grid: point `t`'s blocks are block `t` along the rows and block 0 across. -/
theorem blocks_at : ∀ t : Fin cfg14.N, win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0 :=
  (by decide +kernel : ∀ t : Fin grid14.N, _)

section AtEntry
variable (V : (c : Dev nD) → (b : Ref sig .tc) → Buf (Elt F) ((c : Thread nD τ).loc b))

/-- What point `t` writes back is block `t` of the scaled rows of the arrays the pass finds. -/
theorem flushed_eq (c : Dev nD) (t : Fin cfg14.N) :
    (dat14 V c).flushed 2 t = ((cfg14.win 2).blk t).view.read (Elt F) (scaleRows (V c main_v83) (V c main_arg1)) := by
  show (cfg14.win 2).cut (grid14.coords t) ((dat14 V c).after 2 t) = _
  rw [after14_2]
  unfold out14_2
  rw [View.canon_unit_zero offsets_zero]
  simp only [View.ld_unit_zero (S := S5000x128) offsets_zero, View.ld_unit_zero (S := S5000x1) offsets_zero]
  obtain ⟨e0, e1, e2, e3, e4, e5⟩ := blocks_at t
  funext j
  refine scaleRows_block_cast shapeCasts_S5000x128_S5000x128 broadcasts_S5000x1_S5000x128 (V c main_v83) (V c main_arg1) (iblk14 V c 0 t) (iblk14 V c 1 t)
    (t.val * 5000) (((cfg14.win 2).blk t).view.emb) (fun y => ?_) (fun y => ?_) (fun k i hi => ?_) j
  · show win14_2.index t (0 : Fin 2) * 5000 + 1 * (y 0).val = _
    rw [e4]; omega
  · show V c main_v83 (((cfg14.win 0).blk t).view.emb y) = V c main_v83 (((cfg14.win 2).blk t).view.emb y)
    refine congrArg _ (funext fun a => Fin.ext ?_)
    match a with
    | ⟨0, _⟩ => show win14_0.index t (0 : Fin 2) * 5000 + 1 * (y 0).val = win14_2.index t (0 : Fin 2) * 5000 + 1 * (y 0).val; rw [e0, e4]
    | ⟨1, _⟩ => show win14_0.index t (1 : Fin 2) * 128 + 1 * (y 1).val = win14_2.index t (1 : Fin 2) * 128 + 1 * (y 1).val; rw [e1, e5]
  · show V c main_arg1 (((cfg14.win 1).blk t).view.emb k) = V c main_arg1 i
    refine congrArg _ (funext fun a => Fin.ext ?_)
    match a with
    | ⟨0, _⟩ => show win14_1.index t (0 : Fin 2) * 5000 + 1 * (k 0).val = (i 0).val; rw [e2, hi]; omega
    | ⟨1, _⟩ =>
      show win14_1.index t (1 : Fin 2) * 1 + 1 * (k 1).val = (i 1).val
      have hk : (k 1).val < 1 := (k 1).isLt
      have hi1 : (i 1).val < 1 := (i 1).isLt
      rw [e3]; omega

/-- An index of the array is in point `t`'s block iff each coordinate is in the block's range on its axis. -/
theorem mem_block (t : Fin cfg14.N) (i : S100000x128.Idx) :
    i ∈ ((cfg14.win 2).blk t).view.set ↔ ∀ a : Fin 2, win14_2.index t a * S5000x128.size a ≤ (i a).val
      ∧ (i a).val < win14_2.index t a * S5000x128.size a + S5000x128.size a := by
  show i ∈ ((View.whole main_v84).slice (win14_2.rect t)).set ↔ _
  rw [View.set_slice_whole, Rect.mem_set_unit]
  exact Iff.rfl

/-- Row `r` is in the block of point `r / 5000`. -/
theorem covered (i : S100000x128.Idx) :
    ∃ t : Fin cfg14.N, (cfg14.win 2).flush t = true ∧ i ∈ ((cfg14.win 2).blk t).view.set := by
  have hi0 : (i 0).val < 100000 := (i 0).isLt
  have hi1 : (i 1).val < 128 := (i 1).isLt
  have hN : cfg14.N = 20 := N_14
  obtain ⟨t, ht⟩ : ∃ t : Fin cfg14.N, t.val = (i 0).val / 5000 := ⟨⟨(i 0).val / 5000, by rw [hN]; omega⟩, rfl⟩
  obtain ⟨-, -, -, -, e4, e5⟩ := blocks_at t
  refine ⟨t, flush14_2 t, ?_⟩
  rw [mem_block]
  intro a
  match a with
  | ⟨0, _⟩ =>
    show win14_2.index t (0 : Fin 2) * 5000 ≤ (i 0).val ∧ (i 0).val < win14_2.index t (0 : Fin 2) * 5000 + 5000
    rw [e4, ht]; omega
  | ⟨1, _⟩ =>
    show win14_2.index t (1 : Fin 2) * 128 ≤ (i 1).val ∧ (i 1).val < win14_2.index t (1 : Fin 2) * 128 + 128
    rw [e5]; omega

/-- The array the pass leaves: the scaled rows of the arrays it found. -/
theorem array_eq (c : Dev nD) : (dat14 V c).arrAt 2 cfg14.N = scaleRows (V c main_v83) (V c main_arg1) :=
  (dat14 V c).arrAt_eq_of_cover 2 (scaleRows (V c main_v83) (V c main_arg1)) (fun t _ => flushed_eq V c t) (fun i => covered i)

end AtEntry

variable (m : (ℓ : Loc nD τ sig) → Buf (Elt F) ℓ) (ρ : Dev nD → PrngReg)

/-- Across the pass: its output at the scaled rows of its input, the four arguments as they were. -/
theorem result (c : Dev nD) : W22 m ρ c (Proc.devRef .tc main_v84)
    = scaleRows (W21 m ρ c (Proc.devRef .tc main_v83)) (W21 m ρ c (Proc.devRef .tc main_arg1)) :=
  (W22_arr m ρ c 2).trans (array_eq (V21 m ρ) c)
theorem keep_arg0 (c : Dev nD) : W22 m ρ c (Proc.devRef .tc main_arg0) = W21 m ρ c (Proc.devRef .tc main_arg0) :=
  W22_of_ne m ρ c main_arg0 (by decide)
theorem keep_arg1 (c : Dev nD) : W22 m ρ c (Proc.devRef .tc main_arg1) = W21 m ρ c (Proc.devRef .tc main_arg1) :=
  (W22_arr m ρ c 1).trans (((dat14 (V21 m ρ) c).arrAt_in 1 rfl _).trans (A_eq14 (V21 m ρ) c 1))
theorem keep_arg2 (c : Dev nD) : W22 m ρ c (Proc.devRef .tc main_arg2) = W21 m ρ c (Proc.devRef .tc main_arg2) :=
  W22_of_ne m ρ c main_arg2 (by decide)
theorem keep_arg3 (c : Dev nD) : W22 m ρ c (Proc.devRef .tc main_arg3) = W21 m ρ c (Proc.devRef .tc main_arg3) :=
  W22_of_ne m ρ c main_arg3 (by decide)

end Cert.KernelIdeal.Hand.Pass14

end
-- ==== Proof.Edges15.lean ====
/-
  The host operations between two passes of the idealized kernel (stretch 15): the edge aggregation.

  From any buffer contents the thirteen operations leave in `main_v94` the aggregation (Spec: `aggregate`) of
  the rows of `main_v84` along the edge lists, and write none of the four arguments.
-/
import proofs.«108799_j25357486915690_1_alg».proof.Proof.Gen.KernelIdeal.Frame
import proofs.«108799_j25357486915690_1_alg».proof.Proof.Spec

set_option maxRecDepth 16384

noncomputable section

namespace Cert.KernelIdeal.Hand.Edges15

open Cert.KernelIdeal Cert.KernelIdeal.Gen Cert.Appnp
open Idealize.ShloMosaic Idealize.ShloMosaic.TcCoe Idealize.ShloMosaic.StableHlo Idealize.SL.Sem

variable {F : FTy → Type} [FloatOps F]

set_option maxHeartbeats 2000000 in
/-- After the stretch the scatter's result holds the aggregation of the gathered array. -/
theorem result (Wc : Valuation τ sig (Elt F)) :
    StableHlo.after hostOps15 Wc (Proc.devRef .tc main_v94)
      = aggregate gather_S100000x128_S1600000x1_S1600000x128_1_0_n_n_0_1_1128 scatter_S100000x128_S1600000x1_S1600000x128_1_0_0_1
          (Wc (Proc.devRef .tc main_arg2)) (Wc (Proc.devRef .tc main_arg3)) (Wc (Proc.devRef .tc main_v84)) := by
  after_results
  rfl

theorem keep_arg0 (Wc : Valuation τ sig (Elt F)) :
    StableHlo.after hostOps15 Wc (Proc.devRef .tc main_arg0) = Wc (Proc.devRef .tc main_arg0) := by
  after_results
theorem keep_arg1 (Wc : Valuation τ sig (Elt F)) :
    StableHlo.after hostOps15 Wc (Proc.devRef .tc main_arg1) = Wc (Proc.devRef .tc main_arg1) := by
  after_results
theorem keep_arg2 (Wc : Valuation τ sig (Elt F)) :
    StableHlo.after hostOps15 Wc (Proc.devRef .tc main_arg2) = Wc (Proc.devRef .tc main_arg2) := by
  after_results
theorem keep_arg3 (Wc : Valuation τ sig (Elt F)) :
    StableHlo.after hostOps15 Wc (Proc.devRef .tc main_arg3) = Wc (Proc.devRef .tc main_arg3) := by
  after_results

end Cert.KernelIdeal.Hand.Edges15

end
-- ==== Proof.Pass15.lean ====
/-
  Pass 15 of the idealized kernel: the end of a round, 5000 rows at a time.

  The pass reads the aggregate `main_v94`, the factor column and the input features through blocks of 5000
  rows and writes `main_v95` block by block; block `t` of each starts at row `5000 t`. What a grid point
  writes back is its block of `mix` of the three arrays as the pass finds them; the twenty blocks cover the
  rows, so the array the pass leaves is `mix` of them. The other buffers the chain needs are as the pass
  found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass15

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The four index maps over the grid: point `t`'s blocks are block `t` along the rows and block 0 across. -/
theorem blocks_at : ∀ t : Fin cfg15.N, win15_0.index t (0 : Fin 2) = t.val ∧ win15_0.index t (1 : Fin 2) = 0
    ∧ win15_1.index t (0 : Fin 2) = t.val ∧ win15_1.index t (1 : Fin 2) = 0
    ∧ win15_2.index t (0 : Fin 2) = t.val ∧ win15_2.index t (1 : Fin 2) = 0
    ∧ win15_3.index t (0 : Fin 2) = t.val ∧ win15_3.index t (1 : Fin 2) = 0 :=
  (by decide +kernel : ∀ t : Fin grid15.N, _)

section AtEntry
variable (V : (c : Dev nD) → (b : Ref sig .tc) → Buf (Elt F) ((c : Thread nD τ).loc b))

/-- What point `t` writes back is block `t` of the round's end computed from the arrays the pass finds. -/
theorem flushed_eq (c : Dev nD) (t : Fin cfg15.N) :
    (dat15 V c).flushed 3 t
      = ((cfg15.win 3).blk t).view.read (Elt F) (mix (V c main_v94) (V c main_arg1) (V c main_arg0)) := by
  show (cfg15.win 3).cut (grid15.coords t) ((dat15 V c).after 3 t) = _
  rw [after15_3]
  unfold out15_3
  rw [View.canon_unit_zero offsets_zero]
  simp only [View.ld_unit_zero (S := S5000x128) offsets_zero, View.ld_unit_zero (S := S5000x1) offsets_zero]
  obtain ⟨e0, e1, e2, e3, e4, e5, e6, e7⟩ := blocks_at t
  funext j
  refine mix_block shapeCasts_S5000x128_S5000x128 broadcasts_S5000x1_S5000x128 (V c main_v94) (V c main_arg1) (V c main_arg0)
    (iblk15 V c 0 t) (iblk15 V c 1 t) (iblk15 V c 2 t)
    (t.val * 5000) (((cfg15.win 3).blk t).view.emb) (fun y => ?_) (fun y => ?_) (fun k i hi => ?_) (fun y => ?_) j
  · show win15_3.index t (0 : Fin 2) * 5000 + 1 * (y 0).val = _
    rw [e6]; omega
  · show V c main_v94 (((cfg15.win 0).blk t).view.emb y) = V c main_v94 (((cfg15.win 3).blk t).view.emb y)
    refine congrArg _ (funext fun a => Fin.ext ?_)
    match a with
    | ⟨0, _⟩ => show win15_0.index t (0 : Fin 2) * 5000 + 1 * (y 0).val = win15_3.index t (0 : Fin 2) * 5000 + 1 * (y 0).val; rw [e0, e6]
    | ⟨1, _⟩ => show win15_0.index t (1 : Fin 2) * 128 + 1 * (y 1).val = win15_3.index t (1 : Fin 2) * 128 + 1 * (y 1).val; rw [e1, e7]
  · show V c main_arg1 (((cfg15.win 1).blk t).view.emb k) = V c main_arg1 i
    refine congrArg _ (funext fun a => Fin.ext ?_)
    match a with
    | ⟨0, _⟩ => show win15_1.index t (0 : Fin 2) * 5000 + 1 * (k 0).val = (i 0).val; rw [e2, hi]; omega
    | ⟨1, _⟩ =>
      show win15_1.index t (1 : Fin 2) * 1 + 1 * (k 1).val = (i 1).val
      have hk : (k 1).val < 1 := (k 1).isLt
      have hi1 : (i 1).val < 1 := (i 1).isLt
      rw [e3]; omega
  · show V c main_arg0 (((cfg15.win 2).blk t).view.emb y) = V c main_arg0 (((cfg15.win 3).blk t).view.emb y)
    refine congrArg _ (funext fun a => Fin.ext ?_)
    match a with
    | ⟨0, _⟩ => show win15_2.index t (0 : Fin 2) * 5000 + 1 * (y 0).val = win15_3.index t (0 : Fin 2) * 5000 + 1 * (y 0).val; rw [e4, e6]
    | ⟨1, _⟩ => show win15_2.index t (1 : Fin 2) * 128 + 1 * (y 1).val = win15_3.index t (1 : Fin 2) * 128 + 1 * (y 1).val; rw [e5, e7]

/-- An index of the array is in point `t`'s block iff each coordinate is in the block's range on its axis. -/
theorem mem_block (t : Fin cfg15.N) (i : S100000x128.Idx) :
    i ∈ ((cfg15.win 3).blk t).view.set ↔ ∀ a : Fin 2, win15_3.index t a * S5000x128.size a ≤ (i a).val
      ∧ (i a).val < win15_3.index t a * S5000x128.size a + S5000x128.size a := by
  show i ∈ ((View.whole main_v95).slice (win15_3.rect t)).set ↔ _
  rw [View.set_slice_whole, Rect.mem_set_unit]
  exact Iff.rfl

/-- Row `r` is in the block of point `r / 5000`. -/
theorem covered (i : S100000x128.Idx) :
    ∃ t : Fin cfg15.N, (cfg15.win 3).flush t = true ∧ i ∈ ((cfg15.win 3).blk t).view.set := by
  have hi0 : (i 0).val < 100000 := (i 0).isLt
  have hi1 : (i 1).val < 128 := (i 1).isLt
  have hN : cfg15.N = 20 := N_15
  obtain ⟨t, ht⟩ : ∃ t : Fin cfg15.N, t.val = (i 0).val / 5000 := ⟨⟨(i 0).val / 5000, by rw [hN]; omega⟩, rfl⟩
  obtain ⟨-, -, -, -, -, -, e6, e7⟩ := blocks_at t
  refine ⟨t, flush15_3 t, ?_⟩
  rw [mem_block]
  intro a
  match a with
  | ⟨0, _⟩ =>
    show win15_3.index t (0 : Fin 2) * 5000 ≤ (i 0).val ∧ (i 0).val < win15_3.index t (0 : Fin 2) * 5000 + 5000
    rw [e6, ht]; omega
  | ⟨1, _⟩ =>
    show win15_3.index t (1 : Fin 2) * 128 ≤ (i 1).val ∧ (i 1).val < win15_3.index t (1 : Fin 2) * 128 + 128
    rw [e7]; omega

/-- The array the pass leaves: the round's end computed from the arrays it found. -/
theorem array_eq (c : Dev nD) : (dat15 V c).arrAt 3 cfg15.N = mix (V c main_v94) (V c main_arg1) (V c main_arg0) :=
  (dat15 V c).arrAt_eq_of_cover 3 (mix (V c main_v94) (V c main_arg1) (V c main_arg0)) (fun t _ => flushed_eq V c t)
    (fun i => covered i)

end AtEntry

variable (m : (ℓ : Loc nD τ sig) → Buf (Elt F) ℓ) (ρ : Dev nD → PrngReg)

/-- Across the pass: its output at the round's end of its inputs, the four arguments as they were. -/
theorem result (c : Dev nD) : W24 m ρ c (Proc.devRef .tc main_v95)
    = mix (W23 m ρ c (Proc.devRef .tc main_v94)) (W23 m ρ c (Proc.devRef .tc main_arg1)) (W23 m ρ c (Proc.devRef .tc main_arg0)) :=
  (W24_arr m ρ c 3).trans (array_eq (V23 m ρ) c)
theorem keep_arg0 (c : Dev nD) : W24 m ρ c (Proc.devRef .tc main_arg0) = W23 m ρ c (Proc.devRef .tc main_arg0) :=
  (W24_arr m ρ c 2).trans (((dat15 (V23 m ρ) c).arrAt_in 2 rfl _).trans (A_eq15 (V23 m ρ) c 2))
theorem keep_arg1 (c : Dev nD) : W24 m ρ c (Proc.devRef .tc main_arg1) = W23 m ρ c (Proc.devRef .tc main_arg1) :=
  (W24_arr m ρ c 1).trans (((dat15 (V23 m ρ) c).arrAt_in 1 rfl _).trans (A_eq15 (V23 m ρ) c 1))
theorem keep_arg2 (c : Dev nD) : W24 m ρ c (Proc.devRef .tc main_arg2) = W23 m ρ c (Proc.devRef .tc main_arg2) :=
  W24_of_ne m ρ c main_arg2 (by decide)
theorem keep_arg3 (c : Dev nD) : W24 m ρ c (Proc.devRef .tc main_arg3) = W23 m ρ c (Proc.devRef .tc main_arg3) :=
  W24_of_ne m ρ c main_arg3 (by decide)

end Cert.KernelIdeal.Hand.Pass15

end
-- ==== Proof.Pass16.lean ====
/-
  Pass 16 of the idealized kernel: every row of an array times its node's factor, 5000 rows at a time.

  The pass reads the array `main_v95` and the factor column through blocks of 5000 rows and writes `main_v96`
  block by block; block `t` of each starts at row `5000 t`. What a grid point writes back is its block of
  `scaleRows` of the two arrays as the pass finds them; the twenty blocks cover the rows, so the array
  the pass leaves is `scaleRows` of them. The other buffers the chain needs are as the pass found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass16

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The three index maps over the grid: point `t`'s blocks are block `t` along the rows and block 0 across. -/
theorem blocks_at : ∀ t : Fin cfg16.N, win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0 :=
  (by decide +kernel : ∀ t : Fin grid16.N, _)

section AtEntry
variable (V : (c : Dev nD) → (b : Ref sig .tc) → Buf (Elt F) ((c : Thread nD τ).loc b))

/-- What point `t` writes back is block `t` of the scaled rows of the arrays the pass finds. -/
theorem flushed_eq (c : Dev nD) (t : Fin cfg16.N) :
    (dat16 V c).flushed 2 t = ((cfg16.win 2).blk t).view.read (Elt F) (scaleRows (V c main_v95) (V c main_arg1)) := by
  show (cfg16.win 2).cut (grid16.coords t) ((dat16 V c).after 2 t) = _
  rw [after16_2]
  unfold out16_2
  rw [View.canon_unit_zero offsets_zero]
  simp only [View.ld_unit_zero (S := S5000x128) offsets_zero, View.ld_unit_zero (S := S5000x1) offsets_zero]
  obtain ⟨e0, e1, e2, e3, e4, e5⟩ := blocks_at t
  funext j
  refine scaleRows_block_cast shapeCasts_S5000x128_S5000x128 broadcasts_S5000x1_S5000x128 (V c main_v95) (V c main_arg1) (iblk16 V c 0 t) (iblk16 V c 1 t)
    (t.val * 5000) (((cfg16.win 2).blk t).view.emb) (fun y => ?_) (fun y => ?_) (fun k i hi => ?_) j
  · show win16_2.index t (0 : Fin 2) * 5000 + 1 * (y 0).val = _
    rw [e4]; omega
  · show V c main_v95 (((cfg16.win 0).blk t).view.emb y) = V c main_v95 (((cfg16.win 2).blk t).view.emb y)
    refine congrArg _ (funext fun a => Fin.ext ?_)
    match a with
    | ⟨0, _⟩ => show win16_0.index t (0 : Fin 2) * 5000 + 1 * (y 0).val = win16_2.index t (0 : Fin 2) * 5000 + 1 * (y 0).val; rw [e0, e4]
    | ⟨1, _⟩ => show win16_0.index t (1 : Fin 2) * 128 + 1 * (y 1).val = win16_2.index t (1 : Fin 2) * 128 + 1 * (y 1).val; rw [e1, e5]
  · show V c main_arg1 (((cfg16.win 1).blk t).view.emb k) = V c main_arg1 i
    refine congrArg _ (funext fun a => Fin.ext ?_)
    match a with
    | ⟨0, _⟩ => show win16_1.index t (0 : Fin 2) * 5000 + 1 * (k 0).val = (i 0).val; rw [e2, hi]; omega
    | ⟨1, _⟩ =>
      show win16_1.index t (1 : Fin 2) * 1 + 1 * (k 1).val = (i 1).val
      have hk : (k 1).val < 1 := (k 1).isLt
      have hi1 : (i 1).val < 1 := (i 1).isLt
      rw [e3]; omega

/-- An index of the array is in point `t`'s block iff each coordinate is in the block's range on its axis. -/
theorem mem_block (t : Fin cfg16.N) (i : S100000x128.Idx) :
    i ∈ ((cfg16.win 2).blk t).view.set ↔ ∀ a : Fin 2, win16_2.index t a * S5000x128.size a ≤ (i a).val
      ∧ (i a).val < win16_2.index t a * S5000x128.size a + S5000x128.size a := by
  show i ∈ ((View.whole main_v96).slice (win16_2.rect t)).set ↔ _
  rw [View.set_slice_whole, Rect.mem_set_unit]
  exact Iff.rfl

/-- Row `r` is in the block of point `r / 5000`. -/
theorem covered (i : S100000x128.Idx) :
    ∃ t : Fin cfg16.N, (cfg16.win 2).flush t = true ∧ i ∈ ((cfg16.win 2).blk t).view.set := by
  have hi0 : (i 0).val < 100000 := (i 0).isLt
  have hi1 : (i 1).val < 128 := (i 1).isLt
  have hN : cfg16.N = 20 := N_16
  obtain ⟨t, ht⟩ : ∃ t : Fin cfg16.N, t.val = (i 0).val / 5000 := ⟨⟨(i 0).val / 5000, by rw [hN]; omega⟩, rfl⟩
  obtain ⟨-, -, -, -, e4, e5⟩ := blocks_at t
  refine ⟨t, flush16_2 t, ?_⟩
  rw [mem_block]
  intro a
  match a with
  | ⟨0, _⟩ =>
    show win16_2.index t (0 : Fin 2) * 5000 ≤ (i 0).val ∧ (i 0).val < win16_2.index t (0 : Fin 2) * 5000 + 5000
    rw [e4, ht]; omega
  | ⟨1, _⟩ =>
    show win16_2.index t (1 : Fin 2) * 128 ≤ (i 1).val ∧ (i 1).val < win16_2.index t (1 : Fin 2) * 128 + 128
    rw [e5]; omega

/-- The array the pass leaves: the scaled rows of the arrays it found. -/
theorem array_eq (c : Dev nD) : (dat16 V c).arrAt 2 cfg16.N = scaleRows (V c main_v95) (V c main_arg1) :=
  (dat16 V c).arrAt_eq_of_cover 2 (scaleRows (V c main_v95) (V c main_arg1)) (fun t _ => flushed_eq V c t) (fun i => covered i)

end AtEntry

variable (m : (ℓ : Loc nD τ sig) → Buf (Elt F) ℓ) (ρ : Dev nD → PrngReg)

/-- Across the pass: its output at the scaled rows of its input, the four arguments as they were. -/
theorem result (c : Dev nD) : W25 m ρ c (Proc.devRef .tc main_v96)
    = scaleRows (W24 m ρ c (Proc.devRef .tc main_v95)) (W24 m ρ c (Proc.devRef .tc main_arg1)) :=
  (W25_arr m ρ c 2).trans (array_eq (V24 m ρ) c)
theorem keep_arg0 (c : Dev nD) : W25 m ρ c (Proc.devRef .tc main_arg0) = W24 m ρ c (Proc.devRef .tc main_arg0) :=
  W25_of_ne m ρ c main_arg0 (by decide)
theorem keep_arg1 (c : Dev nD) : W25 m ρ c (Proc.devRef .tc main_arg1) = W24 m ρ c (Proc.devRef .tc main_arg1) :=
  (W25_arr m ρ c 1).trans (((dat16 (V24 m ρ) c).arrAt_in 1 rfl _).trans (A_eq16 (V24 m ρ) c 1))
theorem keep_arg2 (c : Dev nD) : W25 m ρ c (Proc.devRef .tc main_arg2) = W24 m ρ c (Proc.devRef .tc main_arg2) :=
  W25_of_ne m ρ c main_arg2 (by decide)
theorem keep_arg3 (c : Dev nD) : W25 m ρ c (Proc.devRef .tc main_arg3) = W24 m ρ c (Proc.devRef .tc main_arg3) :=
  W25_of_ne m ρ c main_arg3 (by decide)

end Cert.KernelIdeal.Hand.Pass16

end
-- ==== Proof.Edges17.lean ====
/-
  The host operations between two passes of the idealized kernel (stretch 17): the edge aggregation.

  From any buffer contents the thirteen operations leave in `main_v106` the aggregation (Spec: `aggregate`) of
  the rows of `main_v96` along the edge lists, and write none of the four arguments.
-/
import proofs.«108799_j25357486915690_1_alg».proof.Proof.Gen.KernelIdeal.Frame
import proofs.«108799_j25357486915690_1_alg».proof.Proof.Spec

set_option maxRecDepth 16384

noncomputable section

namespace Cert.KernelIdeal.Hand.Edges17

open Cert.KernelIdeal Cert.KernelIdeal.Gen Cert.Appnp
open Idealize.ShloMosaic Idealize.ShloMosaic.TcCoe Idealize.ShloMosaic.StableHlo Idealize.SL.Sem

variable {F : FTy → Type} [FloatOps F]

set_option maxHeartbeats 2000000 in
/-- After the stretch the scatter's result holds the aggregation of the gathered array. -/
theorem result (Wc : Valuation τ sig (Elt F)) :
    StableHlo.after hostOps17 Wc (Proc.devRef .tc main_v106)
      = aggregate gather_S100000x128_S1600000x1_S1600000x128_1_0_n_n_0_1_1128 scatter_S100000x128_S1600000x1_S1600000x128_1_0_0_1
          (Wc (Proc.devRef .tc main_arg2)) (Wc (Proc.devRef .tc main_arg3)) (Wc (Proc.devRef .tc main_v96)) := by
  after_results
  rfl

theorem keep_arg0 (Wc : Valuation τ sig (Elt F)) :
    StableHlo.after hostOps17 Wc (Proc.devRef .tc main_arg0) = Wc (Proc.devRef .tc main_arg0) := by
  after_results
theorem keep_arg1 (Wc : Valuation τ sig (Elt F)) :
    StableHlo.after hostOps17 Wc (Proc.devRef .tc main_arg1) = Wc (Proc.devRef .tc main_arg1) := by
  after_results
theorem keep_arg2 (Wc : Valuation τ sig (Elt F)) :
    StableHlo.after hostOps17 Wc (Proc.devRef .tc main_arg2) = Wc (Proc.devRef .tc main_arg2) := by
  after_results
theorem keep_arg3 (Wc : Valuation τ sig (Elt F)) :
    StableHlo.after hostOps17 Wc (Proc.devRef .tc main_arg3) = Wc (Proc.devRef .tc main_arg3) := by
  after_results

end Cert.KernelIdeal.Hand.Edges17

end
-- ==== Proof.Pass17.lean ====
/-
  Pass 17 of the idealized kernel: the end of a round, 5000 rows at a time.

  The pass reads the aggregate `main_v106`, the factor column and the input features through blocks of 5000
  rows and writes `main_v107` block by block; block `t` of each starts at row `5000 t`. What a grid point
  writes back is its block of `mix` of the three arrays as the pass finds them; the twenty blocks cover the
  rows, so the array the pass leaves is `mix` of them. The other buffers the chain needs are as the pass
  found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass17

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The four index maps over the grid: point `t`'s blocks are block `t` along the rows and block 0 across. -/
theorem blocks_at : ∀ t : Fin cfg17.N, win17_0.index t (0 : Fin 2) = t.val ∧ win17_0.index t (1 : Fin 2) = 0
    ∧ win17_1.index t (0 : Fin 2) = t.val ∧ win17_1.index t (1 : Fin 2) = 0
    ∧ win17_2.index t (0 : Fin 2) = t.val ∧ win17_2.index t (1 : Fin 2) = 0
    ∧ win17_3.index t (0 : Fin 2) = t.val ∧ win17_3.index t (1 : Fin 2) = 0 :=
  (by decide +kernel : ∀ t : Fin grid17.N, _)

section AtEntry
variable (V : (c : Dev nD) → (b : Ref sig .tc) → Buf (Elt F) ((c : Thread nD τ).loc b))

/-- What point `t` writes back is block `t` of the round's end computed from the arrays the pass finds. -/
theorem flushed_eq (c : Dev nD) (t : Fin cfg17.N) :
    (dat17 V c).flushed 3 t
      = ((cfg17.win 3).blk t).view.read (Elt F) (mix (V c main_v106) (V c main_arg1) (V c main_arg0)) := by
  show (cfg17.win 3).cut (grid17.coords t) ((dat17 V c).after 3 t) = _
  rw [after17_3]
  unfold out17_3
  rw [View.canon_unit_zero offsets_zero]
  simp only [View.ld_unit_zero (S := S5000x128) offsets_zero, View.ld_unit_zero (S := S5000x1) offsets_zero]
  obtain ⟨e0, e1, e2, e3, e4, e5, e6, e7⟩ := blocks_at t
  funext j
  refine mix_block shapeCasts_S5000x128_S5000x128 broadcasts_S5000x1_S5000x128 (V c main_v106) (V c main_arg1) (V c main_arg0)
    (iblk17 V c 0 t) (iblk17 V c 1 t) (iblk17 V c 2 t)
    (t.val * 5000) (((cfg17.win 3).blk t).view.emb) (fun y => ?_) (fun y => ?_) (fun k i hi => ?_) (fun y => ?_) j
  · show win17_3.index t (0 : Fin 2) * 5000 + 1 * (y 0).val = _
    rw [e6]; omega
  · show V c main_v106 (((cfg17.win 0).blk t).view.emb y) = V c main_v106 (((cfg17.win 3).blk t).view.emb y)
    refine congrArg _ (funext fun a => Fin.ext ?_)
    match a with
    | ⟨0, _⟩ => show win17_0.index t (0 : Fin 2) * 5000 + 1 * (y 0).val = win17_3.index t (0 : Fin 2) * 5000 + 1 * (y 0).val; rw [e0, e6]
    | ⟨1, _⟩ => show win17_0.index t (1 : Fin 2) * 128 + 1 * (y 1).val = win17_3.index t (1 : Fin 2) * 128 + 1 * (y 1).val; rw [e1, e7]
  · show V c main_arg1 (((cfg17.win 1).blk t).view.emb k) = V c main_arg1 i
    refine congrArg _ (funext fun a => Fin.ext ?_)
    match a with
    | ⟨0, _⟩ => show win17_1.index t (0 : Fin 2) * 5000 + 1 * (k 0).val = (i 0).val; rw [e2, hi]; omega
    | ⟨1, _⟩ =>
      show win17_1.index t (1 : Fin 2) * 1 + 1 * (k 1).val = (i 1).val
      have hk : (k 1).val < 1 := (k 1).isLt
      have hi1 : (i 1).val < 1 := (i 1).isLt
      rw [e3]; omega
  · show V c main_arg0 (((cfg17.win 2).blk t).view.emb y) = V c main_arg0 (((cfg17.win 3).blk t).view.emb y)
    refine congrArg _ (funext fun a => Fin.ext ?_)
    match a with
    | ⟨0, _⟩ => show win17_2.index t (0 : Fin 2) * 5000 + 1 * (y 0).val = win17_3.index t (0 : Fin 2) * 5000 + 1 * (y 0).val; rw [e4, e6]
    | ⟨1, _⟩ => show win17_2.index t (1 : Fin 2) * 128 + 1 * (y 1).val = win17_3.index t (1 : Fin 2) * 128 + 1 * (y 1).val; rw [e5, e7]

/-- An index of the array is in point `t`'s block iff each coordinate is in the block's range on its axis. -/
theorem mem_block (t : Fin cfg17.N) (i : S100000x128.Idx) :
    i ∈ ((cfg17.win 3).blk t).view.set ↔ ∀ a : Fin 2, win17_3.index t a * S5000x128.size a ≤ (i a).val
      ∧ (i a).val < win17_3.index t a * S5000x128.size a + S5000x128.size a := by
  show i ∈ ((View.whole main_v107).slice (win17_3.rect t)).set ↔ _
  rw [View.set_slice_whole, Rect.mem_set_unit]
  exact Iff.rfl

/-- Row `r` is in the block of point `r / 5000`. -/
theorem covered (i : S100000x128.Idx) :
    ∃ t : Fin cfg17.N, (cfg17.win 3).flush t = true ∧ i ∈ ((cfg17.win 3).blk t).view.set := by
  have hi0 : (i 0).val < 100000 := (i 0).isLt
  have hi1 : (i 1).val < 128 := (i 1).isLt
  have hN : cfg17.N = 20 := N_17
  obtain ⟨t, ht⟩ : ∃ t : Fin cfg17.N, t.val = (i 0).val / 5000 := ⟨⟨(i 0).val / 5000, by rw [hN]; omega⟩, rfl⟩
  obtain ⟨-, -, -, -, -, -, e6, e7⟩ := blocks_at t
  refine ⟨t, flush17_3 t, ?_⟩
  rw [mem_block]
  intro a
  match a with
  | ⟨0, _⟩ =>
    show win17_3.index t (0 : Fin 2) * 5000 ≤ (i 0).val ∧ (i 0).val < win17_3.index t (0 : Fin 2) * 5000 + 5000
    rw [e6, ht]; omega
  | ⟨1, _⟩ =>
    show win17_3.index t (1 : Fin 2) * 128 ≤ (i 1).val ∧ (i 1).val < win17_3.index t (1 : Fin 2) * 128 + 128
    rw [e7]; omega

/-- The array the pass leaves: the round's end computed from the arrays it found. -/
theorem array_eq (c : Dev nD) : (dat17 V c).arrAt 3 cfg17.N = mix (V c main_v106) (V c main_arg1) (V c main_arg0) :=
  (dat17 V c).arrAt_eq_of_cover 3 (mix (V c main_v106) (V c main_arg1) (V c main_arg0)) (fun t _ => flushed_eq V c t)
    (fun i => covered i)

end AtEntry

variable (m : (ℓ : Loc nD τ sig) → Buf (Elt F) ℓ) (ρ : Dev nD → PrngReg)

/-- Across the pass: its output at the round's end of its inputs, the four arguments as they were. -/
theorem result (c : Dev nD) : W27 m ρ c (Proc.devRef .tc main_v107)
    = mix (W26 m ρ c (Proc.devRef .tc main_v106)) (W26 m ρ c (Proc.devRef .tc main_arg1)) (W26 m ρ c (Proc.devRef .tc main_arg0)) :=
  (W27_arr m ρ c 3).trans (array_eq (V26 m ρ) c)
theorem keep_arg0 (c : Dev nD) : W27 m ρ c (Proc.devRef .tc main_arg0) = W26 m ρ c (Proc.devRef .tc main_arg0) :=
  (W27_arr m ρ c 2).trans (((dat17 (V26 m ρ) c).arrAt_in 2 rfl _).trans (A_eq17 (V26 m ρ) c 2))
theorem keep_arg1 (c : Dev nD) : W27 m ρ c (Proc.devRef .tc main_arg1) = W26 m ρ c (Proc.devRef .tc main_arg1) :=
  (W27_arr m ρ c 1).trans (((dat17 (V26 m ρ) c).arrAt_in 1 rfl _).trans (A_eq17 (V26 m ρ) c 1))
theorem keep_arg2 (c : Dev nD) : W27 m ρ c (Proc.devRef .tc main_arg2) = W26 m ρ c (Proc.devRef .tc main_arg2) :=
  W27_of_ne m ρ c main_arg2 (by decide)
theorem keep_arg3 (c : Dev nD) : W27 m ρ c (Proc.devRef .tc main_arg3) = W26 m ρ c (Proc.devRef .tc main_arg3) :=
  W27_of_ne m ρ c main_arg3 (by decide)

end Cert.KernelIdeal.Hand.Pass17

end
-- ==== Proof.Pass18.lean ====
/-
  Pass 18 of the idealized kernel: every row of an array times its node's factor, 5000 rows at a time.

  The pass reads the array `main_v107` and the factor column through blocks of 5000 rows and writes `main_v108`
  block by block; block `t` of each starts at row `5000 t`. What a grid point writes back is its block of
  `scaleRows` of the two arrays as the pass finds them; the twenty blocks cover the rows, so the array
  the pass leaves is `scaleRows` of them. The other buffers the chain needs are as the pass found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass18

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The three index maps over the grid: point `t`'s blocks are block `t` along the rows and block 0 across. -/
theorem blocks_at : ∀ t : Fin cfg18.N, win18_0.index t (0 : Fin 2) = t.val ∧ win18_0.index t (1 : Fin 2) = 0
    ∧ win18_1.index t (0 : Fin 2) = t.val ∧ win18_1.index t (1 : Fin 2) = 0
    ∧ win18_2.index t (0 : Fin 2) = t.val ∧ win18_2.index t (1 : Fin 2) = 0 :=
  (by decide +kernel : ∀ t : Fin grid18.N, _)

section AtEntry
variable (V : (c : Dev nD) → (b : Ref sig .tc) → Buf (Elt F) ((c : Thread nD τ).loc b))

/-- What point `t` writes back is block `t` of the scaled rows of the arrays the pass finds. -/
theorem flushed_eq (c : Dev nD) (t : Fin cfg18.N) :
    (dat18 V c).flushed 2 t = ((cfg18.win 2).blk t).view.read (Elt F) (scaleRows (V c main_v107) (V c main_arg1)) := by
  show (cfg18.win 2).cut (grid18.coords t) ((dat18 V c).after 2 t) = _
  rw [after18_2]
  unfold out18_2
  rw [View.canon_unit_zero offsets_zero]
  simp only [View.ld_unit_zero (S := S5000x128) offsets_zero, View.ld_unit_zero (S := S5000x1) offsets_zero]
  obtain ⟨e0, e1, e2, e3, e4, e5⟩ := blocks_at t
  funext j
  refine scaleRows_block_cast shapeCasts_S5000x128_S5000x128 broadcasts_S5000x1_S5000x128 (V c main_v107) (V c main_arg1) (iblk18 V c 0 t) (iblk18 V c 1 t)
    (t.val * 5000) (((cfg18.win 2).blk t).view.emb) (fun y => ?_) (fun y => ?_) (fun k i hi => ?_) j
  · show win18_2.index t (0 : Fin 2) * 5000 + 1 * (y 0).val = _
    rw [e4]; omega
  · show V c main_v107 (((cfg18.win 0).blk t).view.emb y) = V c main_v107 (((cfg18.win 2).blk t).view.emb y)
    refine congrArg _ (funext fun a => Fin.ext ?_)
    match a with
    | ⟨0, _⟩ => show win18_0.index t (0 : Fin 2) * 5000 + 1 * (y 0).val = win18_2.index t (0 : Fin 2) * 5000 + 1 * (y 0).val; rw [e0, e4]
    | ⟨1, _⟩ => show win18_0.index t (1 : Fin 2) * 128 + 1 * (y 1).val = win18_2.index t (1 : Fin 2) * 128 + 1 * (y 1).val; rw [e1, e5]
  · show V c main_arg1 (((cfg18.win 1).blk t).view.emb k) = V c main_arg1 i
    refine congrArg _ (funext fun a => Fin.ext ?_)
    match a with
    | ⟨0, _⟩ => show win18_1.index t (0 : Fin 2) * 5000 + 1 * (k 0).val = (i 0).val; rw [e2, hi]; omega
    | ⟨1, _⟩ =>
      show win18_1.index t (1 : Fin 2) * 1 + 1 * (k 1).val = (i 1).val
      have hk : (k 1).val < 1 := (k 1).isLt
      have hi1 : (i 1).val < 1 := (i 1).isLt
      rw [e3]; omega

/-- An index of the array is in point `t`'s block iff each coordinate is in the block's range on its axis. -/
theorem mem_block (t : Fin cfg18.N) (i : S100000x128.Idx) :
    i ∈ ((cfg18.win 2).blk t).view.set ↔ ∀ a : Fin 2, win18_2.index t a * S5000x128.size a ≤ (i a).val
      ∧ (i a).val < win18_2.index t a * S5000x128.size a + S5000x128.size a := by
  show i ∈ ((View.whole main_v108).slice (win18_2.rect t)).set ↔ _
  rw [View.set_slice_whole, Rect.mem_set_unit]
  exact Iff.rfl

/-- Row `r` is in the block of point `r / 5000`. -/
theorem covered (i : S100000x128.Idx) :
    ∃ t : Fin cfg18.N, (cfg18.win 2).flush t = true ∧ i ∈ ((cfg18.win 2).blk t).view.set := by
  have hi0 : (i 0).val < 100000 := (i 0).isLt
  have hi1 : (i 1).val < 128 := (i 1).isLt
  have hN : cfg18.N = 20 := N_18
  obtain ⟨t, ht⟩ : ∃ t : Fin cfg18.N, t.val = (i 0).val / 5000 := ⟨⟨(i 0).val / 5000, by rw [hN]; omega⟩, rfl⟩
  obtain ⟨-, -, -, -, e4, e5⟩ := blocks_at t
  refine ⟨t, flush18_2 t, ?_⟩
  rw [mem_block]
  intro a
  match a with
  | ⟨0, _⟩ =>
    show win18_2.index t (0 : Fin 2) * 5000 ≤ (i 0).val ∧ (i 0).val < win18_2.index t (0 : Fin 2) * 5000 + 5000
    rw [e4, ht]; omega
  | ⟨1, _⟩ =>
    show win18_2.index t (1 : Fin 2) * 128 ≤ (i 1).val ∧ (i 1).val < win18_2.index t (1 : Fin 2) * 128 + 128
    rw [e5]; omega

/-- The array the pass leaves: the scaled rows of the arrays it found. -/
theorem array_eq (c : Dev nD) : (dat18 V c).arrAt 2 cfg18.N = scaleRows (V c main_v107) (V c main_arg1) :=
  (dat18 V c).arrAt_eq_of_cover 2 (scaleRows (V c main_v107) (V c main_arg1)) (fun t _ => flushed_eq V c t) (fun i => covered i)

end AtEntry

variable (m : (ℓ : Loc nD τ sig) → Buf (Elt F) ℓ) (ρ : Dev nD → PrngReg)

/-- Across the pass: its output at the scaled rows of its input, the four arguments as they were. -/
theorem result (c : Dev nD) : W28 m ρ c (Proc.devRef .tc main_v108)
    = scaleRows (W27 m ρ c (Proc.devRef .tc main_v107)) (W27 m ρ c (Proc.devRef .tc main_arg1)) :=
  (W28_arr m ρ c 2).trans (array_eq (V27 m ρ) c)
theorem keep_arg0 (c : Dev nD) : W28 m ρ c (Proc.devRef .tc main_arg0) = W27 m ρ c (Proc.devRef .tc main_arg0) :=
  W28_of_ne m ρ c main_arg0 (by decide)
theorem keep_arg1 (c : Dev nD) : W28 m ρ c (Proc.devRef .tc main_arg1) = W27 m ρ c (Proc.devRef .tc main_arg1) :=
  (W28_arr m ρ c 1).trans (((dat18 (V27 m ρ) c).arrAt_in 1 rfl _).trans (A_eq18 (V27 m ρ) c 1))
theorem keep_arg2 (c : Dev nD) : W28 m ρ c (Proc.devRef .tc main_arg2) = W27 m ρ c (Proc.devRef .tc main_arg2) :=
  W28_of_ne m ρ c main_arg2 (by decide)
theorem keep_arg3 (c : Dev nD) : W28 m ρ c (Proc.devRef .tc main_arg3) = W27 m ρ c (Proc.devRef .tc main_arg3) :=
  W28_of_ne m ρ c main_arg3 (by decide)

end Cert.KernelIdeal.Hand.Pass18

end
-- ==== Proof.Edges19.lean ====
/-
  The host operations between two passes of the idealized kernel (stretch 19): the edge aggregation.

  From any buffer contents the thirteen operations leave in `main_v118` the aggregation (Spec: `aggregate`) of
  the rows of `main_v108` along the edge lists, and write none of the four arguments.
-/
import proofs.«108799_j25357486915690_1_alg».proof.Proof.Gen.KernelIdeal.Frame
import proofs.«108799_j25357486915690_1_alg».proof.Proof.Spec

set_option maxRecDepth 16384

noncomputable section

namespace Cert.KernelIdeal.Hand.Edges19

open Cert.KernelIdeal Cert.KernelIdeal.Gen Cert.Appnp
open Idealize.ShloMosaic Idealize.ShloMosaic.TcCoe Idealize.ShloMosaic.StableHlo Idealize.SL.Sem

variable {F : FTy → Type} [FloatOps F]

set_option maxHeartbeats 2000000 in
/-- After the stretch the scatter's result holds the aggregation of the gathered array. -/
theorem result (Wc : Valuation τ sig (Elt F)) :
    StableHlo.after hostOps19 Wc (Proc.devRef .tc main_v118)
      = aggregate gather_S100000x128_S1600000x1_S1600000x128_1_0_n_n_0_1_1128 scatter_S100000x128_S1600000x1_S1600000x128_1_0_0_1
          (Wc (Proc.devRef .tc main_arg2)) (Wc (Proc.devRef .tc main_arg3)) (Wc (Proc.devRef .tc main_v108)) := by
  after_results
  rfl

theorem keep_arg0 (Wc : Valuation τ sig (Elt F)) :
    StableHlo.after hostOps19 Wc (Proc.devRef .tc main_arg0) = Wc (Proc.devRef .tc main_arg0) := by
  after_results
theorem keep_arg1 (Wc : Valuation τ sig (Elt F)) :
    StableHlo.after hostOps19 Wc (Proc.devRef .tc main_arg1) = Wc (Proc.devRef .tc main_arg1) := by
  after_results
theorem keep_arg2 (Wc : Valuation τ sig (Elt F)) :
    StableHlo.after hostOps19 Wc (Proc.devRef .tc main_arg2) = Wc (Proc.devRef .tc main_arg2) := by
  after_results
theorem keep_arg3 (Wc : Valuation τ sig (Elt F)) :
    StableHlo.after hostOps19 Wc (Proc.devRef .tc main_arg3) = Wc (Proc.devRef .tc main_arg3) := by
  after_results

end Cert.KernelIdeal.Hand.Edges19

end
-- ==== Proof.Pass19.lean ====
/-
  Pass 19 of the idealized kernel: the end of a round, 5000 rows at a time.

  The pass reads the aggregate `main_v118`, the factor column and the input features through blocks of 5000
  rows and writes `main_v119` block by block; block `t` of each starts at row `5000 t`. What a grid point
  writes back is its block of `mix` of the three arrays as the pass finds them; the twenty blocks cover the
  rows, so the array the pass leaves is `mix` of them. The other buffers the chain needs are as the pass
  found them.
-/
import proofs.«108799_j25357486915690_1_alg».proof.Proof.Gen.KernelIdeal.Frame
import proofs.«108799_j25357486915690_1_alg».proof.Proof.Spec

set_option maxRecDepth 16384

noncomputable section

namespace Cert.KernelIdeal.Hand.Pass19

open Cert.KernelIdeal Cert.KernelIdeal.Gen Cert.Appnp
open Idealize.ShloMosaic Idealize.ShloMosaic.TcCoe Idealize.SL.Sem
open Idealize.ShloMosaic.Pipeline (Dat)

variable {F : FTy → Type} [FloatOps F]

theorem offsets_zero : (![0, 0] : Fin 2 → Nat) = fun _ => 0 := funext fun a => by fin_cases a <;> rfl

/-- The four index maps over the grid: point `t`'s blocks are block `t` along the rows and block 0 across. -/
theorem blocks_at : ∀ t : Fin cfg19.N, win19_0.index t (0 : Fin 2) = t.val ∧ win19_0.index t (1 : Fin 2) = 0
    ∧ win19_1.index t (0 : Fin 2) = t.val ∧ win19_1.index t (1 : Fin 2) = 0
    ∧ win19_2.index t (0 : Fin 2) = t.val ∧ win19_2.index t (1 : Fin 2) = 0
    ∧ win19_3.index t (0 : Fin 2) = t.val ∧ win19_3.index t (1 : Fin 2) = 0 :=
  (by decide +kernel : ∀ t : Fin grid19.N, _)

section AtEntry
variable (V : (c : Dev nD) → (b : Ref sig .tc) → Buf (Elt F) ((c : Thread nD τ).loc b))

/-- What point `t` writes back is block `t` of the round's end computed from the arrays the pass finds. -/
theorem flushed_eq (c : Dev nD) (t : Fin cfg19.N) :
    (dat19 V c).flushed 3 t
      = ((cfg19.win 3).blk t).view.read (Elt F) (mix (V c main_v118) (V c main_arg1) (V c main_arg0)) := by
  show (cfg19.win 3).cut (grid19.coords t) ((dat19 V c).after 3 t) = _
  rw [after19_3]
  unfold out19_3
  rw [View.canon_unit_zero offsets_zero]
  simp only [View.ld_unit_zero (S := S5000x128) offsets_zero, View.ld_unit_zero (S := S5000x1) offsets_zero]
  obtain ⟨e0, e1, e2, e3, e4, e5, e6, e7⟩ := blocks_at t
  funext j
  refine mix_block shapeCasts_S5000x128_S5000x128 broadcasts_S5000x1_S5000x128 (V c main_v118) (V c main_arg1) (V c main_arg0)
    (iblk19 V c 0 t) (iblk19 V c 1 t) (iblk19 V c 2 t)
    (t.val * 5000) (((cfg19.win 3).blk t).view.emb) (fun y => ?_) (fun y => ?_) (fun k i hi => ?_) (fun y => ?_) j
  · show win19_3.index t (0 : Fin 2) * 5000 + 1 * (y 0).val = _
    rw [e6]; omega
  · show V c main_v118 (((cfg19.win 0).blk t).view.emb y) = V c main_v118 (((cfg19.win 3).blk t).view.emb y)
    refine congrArg _ (funext fun a => Fin.ext ?_)
    match a with
    | ⟨0, _⟩ => show win19_0.index t (0 : Fin 2) * 5000 + 1 * (y 0).val = win19_3.index t (0 : Fin 2) * 5000 + 1 * (y 0).val; rw [e0, e6]
    | ⟨1, _⟩ => show win19_0.index t (1 : Fin 2) * 128 + 1 * (y 1).val = win19_3.index t (1 : Fin 2) * 128 + 1 * (y 1).val; rw [e1, e7]
  · show V c main_arg1 (((cfg19.win 1).blk t).view.emb k) = V c main_arg1 i
    refine congrArg _ (funext fun a => Fin.ext ?_)
    match a with
    | ⟨0, _⟩ => show win19_1.index t (0 : Fin 2) * 5000 + 1 * (k 0).val = (i 0).val; rw [e2, hi]; omega
    | ⟨1, _⟩ =>
      show win19_1.index t (1 : Fin 2) * 1 + 1 * (k 1).val = (i 1).val
      have hk : (k 1).val < 1 := (k 1).isLt
      have hi1 : (i 1).val < 1 := (i 1).isLt
      rw [e3]; omega
  · show V c main_arg0 (((cfg19.win 2).blk t).view.emb y) = V c main_arg0 (((cfg19.win 3).blk t).view.emb y)
    refine congrArg _ (funext fun a => Fin.ext ?_)
    match a with
    | ⟨0, _⟩ => show win19_2.index t (0 : Fin 2) * 5000 + 1 * (y 0).val = win19_3.index t (0 : Fin 2) * 5000 + 1 * (y 0).val; rw [e4, e6]
    | ⟨1, _⟩ => show win19_2.index t (1 : Fin 2) * 128 + 1 * (y 1).val = win19_3.index t (1 : Fin 2) * 128 + 1 * (y 1).val; rw [e5, e7]

/-- An index of the array is in point `t`'s block iff each coordinate is in the block's range on its axis. -/
theorem mem_block (t : Fin cfg19.N) (i : S100000x128.Idx) :
    i ∈ ((cfg19.win 3).blk t).view.set ↔ ∀ a : Fin 2, win19_3.index t a * S5000x128.size a ≤ (i a).val
      ∧ (i a).val < win19_3.index t a * S5000x128.size a + S5000x128.size a := by
  show i ∈ ((View.whole main_v119).slice (win19_3.rect t)).set ↔ _
  rw [View.set_slice_whole, Rect.mem_set_unit]
  exact Iff.rfl

/-- Row `r` is in the block of point `r / 5000`. -/
theorem covered (i : S100000x128.Idx) :
    ∃ t : Fin cfg19.N, (cfg19.win 3).flush t = true ∧ i ∈ ((cfg19.win 3).blk t).view.set := by
  have hi0 : (i 0).val < 100000 := (i 0).isLt
  have hi1 : (i 1).val < 128 := (i 1).isLt
  have hN : cfg19.N = 20 := N_19
  obtain ⟨t, ht⟩ : ∃ t : Fin cfg19.N, t.val = (i 0).val / 5000 := ⟨⟨(i 0).val / 5000, by rw [hN]; omega⟩, rfl⟩
  obtain ⟨-, -, -, -, -, -, e6, e7⟩ := blocks_at t
  refine ⟨t, flush19_3 t, ?_⟩
  rw [mem_block]
  intro a
  match a with
  | ⟨0, _⟩ =>
    show win19_3.index t (0 : Fin 2) * 5000 ≤ (i 0).val ∧ (i 0).val < win19_3.index t (0 : Fin 2) * 5000 + 5000
    rw [e6, ht]; omega
  | ⟨1, _⟩ =>
    show win19_3.index t (1 : Fin 2) * 128 ≤ (i 1).val ∧ (i 1).val < win19_3.index t (1 : Fin 2) * 128 + 128
    rw [e7]; omega

/-- The array the pass leaves: the round's end computed from the arrays it found. -/
theorem array_eq (c : Dev nD) : (dat19 V c).arrAt 3 cfg19.N = mix (V c main_v118) (V c main_arg1) (V c main_arg0) :=
  (dat19 V c).arrAt_eq_of_cover 3 (mix (V c main_v118) (V c main_arg1) (V c main_arg0)) (fun t _ => flushed_eq V c t)
    (fun i => covered i)

end AtEntry

variable (m : (ℓ : Loc nD τ sig) → Buf (Elt F) ℓ) (ρ : Dev nD → PrngReg)

/-- Across the pass: its output at the round's end of its inputs, the four arguments as they were. -/
theorem result (c : Dev nD) : W30 m ρ c (Proc.devRef .tc main_v119)
    = mix (W29 m ρ c (Proc.devRef .tc main_v118)) (W29 m ρ c (Proc.devRef .tc main_arg1)) (W29 m ρ c (Proc.devRef .tc main_arg0)) :=
  (W30_arr m ρ c 3).trans (array_eq (V29 m ρ) c)
theorem keep_arg0 (c : Dev nD) : W30 m ρ c (Proc.devRef .tc main_arg0) = W29 m ρ c (Proc.devRef .tc main_arg0) :=
  (W30_arr m ρ c 2).trans (((dat19 (V29 m ρ) c).arrAt_in 2 rfl _).trans (A_eq19 (V29 m ρ) c 2))
theorem keep_arg1 (c : Dev nD) : W30 m ρ c (Proc.devRef .tc main_arg1) = W29 m ρ c (Proc.devRef .tc main_arg1) :=
  (W30_arr m ρ c 1).trans (((dat19 (V29 m ρ) c).arrAt_in 1 rfl _).trans (A_eq19 (V29 m ρ) c 1))
theorem keep_arg2 (c : Dev nD) : W30 m ρ c (Proc.devRef .tc main_arg2) = W29 m ρ c (Proc.devRef .tc main_arg2) :=
  W30_of_ne m ρ c main_arg2 (by decide)
theorem keep_arg3 (c : Dev nD) : W30 m ρ c (Proc.devRef .tc main_arg3) = W29 m ρ c (Proc.devRef .tc main_arg3) :=
  W30_of_ne m ρ c main_arg3 (by decide)

end Cert.KernelIdeal.Hand.Pass19

end
-- ==== Proof.Boundaries.lean ====
/-
  The idealized kernel's result, boundary by boundary.

  Between the launch and the return the program crosses thirty boundaries: after each of its twenty passes over
  the rows and after each of its ten stretches of host operations. At every boundary the four arguments are as
  launched, and the newest array is known: after the first pass the input's rows scaled; after a stretch of
  host operations the aggregation of that; after a round's last pass the features after one more round
  (`propagate … (k+1)` is by definition `mix` of the aggregation of the scaled `propagate … k`); after the
  next pass those features' rows scaled again. At the last boundary the result buffer holds the features after
  ten rounds.
-/
import proofs.«108799_j25357486915690_1_alg».proof.Proof.Pass0
import proofs.«108799_j25357486915690_1_alg».proof.Proof.Edges1
import proofs.«108799_j25357486915690_1_alg».proof.Proof.Pass1
import proofs.«108799_j25357486915690_1_alg».proof.Proof.Pass2
import proofs.«108799_j25357486915690_1_alg».proof.Proof.Edges3
import proofs.«108799_j25357486915690_1_alg».proof.Proof.Pass3
import proofs.«108799_j25357486915690_1_alg».proof.Proof.Pass4
import proofs.«108799_j25357486915690_1_alg».proof.Proof.Edges5
import proofs.«108799_j25357486915690_1_alg».proof.Proof.Pass5
import proofs.«108799_j25357486915690_1_alg».proof.Proof.Pass6
import proofs.«108799_j25357486915690_1_alg».proof.Proof.Edges7
import proofs.«108799_j25357486915690_1_alg».proof.Proof.Pass7
import proofs.«108799_j25357486915690_1_alg».proof.Proof.Pass8
import proofs.«108799_j25357486915690_1_alg».proof.Proof.Edges9
import proofs.«108799_j25357486915690_1_alg».proof.Proof.Pass9
import proofs.«108799_j25357486915690_1_alg».proof.Proof.Pass10
import proofs.«108799_j25357486915690_1_alg».proof.Proof.Edges11
import proofs.«108799_j25357486915690_1_alg».proof.Proof.Pass11
import proofs.«108799_j25357486915690_1_alg».proof.Proof.Pass12
import proofs.«108799_j25357486915690_1_alg».proof.Proof.Edges13
import proofs.«108799_j25357486915690_1_alg».proof.Proof.Pass13
import proofs.«108799_j25357486915690_1_alg».proof.Proof.Pass14
import proofs.«108799_j25357486915690_1_alg».proof.Proof.Edges15
import proofs.«108799_j25357486915690_1_alg».proof.Proof.Pass15
import proofs.«108799_j25357486915690_1_alg».proof.Proof.Pass16
import proofs.«108799_j25357486915690_1_alg».proof.Proof.Edges17
import proofs.«108799_j25357486915690_1_alg».proof.Proof.Pass17
import proofs.«108799_j25357486915690_1_alg».proof.Proof.Pass18
import proofs.«108799_j25357486915690_1_alg».proof.Proof.Edges19
import proofs.«108799_j25357486915690_1_alg».proof.Proof.Pass19

set_option maxRecDepth 16384

noncomputable section

namespace Cert.KernelIdeal.Hand

open Cert.KernelIdeal Cert.KernelIdeal.Gen Cert.Appnp
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- The launch contents of the arguments on core `c`: the features, the factor column, and the aggregation along
    the two edge lists. -/
abbrev feat : FVec F SNd .f32 := m ((c : Thread nD τ).loc main_arg0)
abbrev factor : FVec F SN1 .f32 := m ((c : Thread nD τ).loc main_arg1)
abbrev edgeAgg : FVec F SNd .f32 → FVec F SNd .f32 :=
  aggregate gather_S100000x128_S1600000x1_S1600000x128_1_0_n_n_0_1_1128 scatter_S100000x128_S1600000x1_S1600000x128_1_0_0_1
    (m ((c : Thread nD τ).loc main_arg2)) (m ((c : Thread nD τ).loc main_arg3))
/-- The features after `k` rounds, from the launch contents. -/
abbrev rounds (k : Nat) : FVec F SNd .f32 := propagate (edgeAgg m c) (factor m c) (feat m c) k

/-- The four arguments are as launched. -/
def ArgsKept (Wc : Valuation τ sig (Elt F)) : Prop :=
  Wc (Proc.devRef .tc main_arg0) = m ((c : Thread nD τ).loc main_arg0)
  ∧ Wc (Proc.devRef .tc main_arg1) = m ((c : Thread nD τ).loc main_arg1)
  ∧ Wc (Proc.devRef .tc main_arg2) = m ((c : Thread nD τ).loc main_arg2)
  ∧ Wc (Proc.devRef .tc main_arg3) = m ((c : Thread nD τ).loc main_arg3)

variable {m c} in
theorem ArgsKept.step {Wc Wc' : Valuation τ sig (Elt F)} (h : ArgsKept m c Wc)
    (h0 : Wc' (Proc.devRef .tc main_arg0) = Wc (Proc.devRef .tc main_arg0))
    (h1 : Wc' (Proc.devRef .tc main_arg1) = Wc (Proc.devRef .tc main_arg1))
    (h2 : Wc' (Proc.devRef .tc main_arg2) = Wc (Proc.devRef .tc main_arg2))
    (h3 : Wc' (Proc.devRef .tc main_arg3) = Wc (Proc.devRef .tc main_arg3)) : ArgsKept m c Wc' :=
  ⟨h0.trans h.1, h1.trans h.2.1, h2.trans h.2.2.1, h3.trans h.2.2.2⟩

/-- At the launch. -/
theorem at0 : ArgsKept m c (W0 m ρ c) := ⟨rfl, rfl, rfl, rfl⟩

/-- After the first pass: the input's rows scaled. -/
theorem at1 : ArgsKept m c (W1 m ρ c)
    ∧ W1 m ρ c (Proc.devRef .tc main_v0) = scaleRows (rounds m c 0) (factor m c) := by
  have A := at0 m ρ c
  refine ⟨A.step (Pass0.keep_arg0 m ρ c) (Pass0.keep_arg1 m ρ c) (Pass0.keep_arg2 m ρ c) (Pass0.keep_arg3 m ρ c), ?_⟩
  rw [Pass0.result m ρ c, A.1, A.2.1]
  rfl

/-- After stretch 1 of host operations: the aggregation of the scaled features of round 0. -/
theorem at2 : ArgsKept m c (W2 m ρ c)
    ∧ W2 m ρ c (Proc.devRef .tc main_v10) = edgeAgg m c (scaleRows (rounds m c 0) (factor m c)) := by
  obtain ⟨A, hX⟩ := at1 m ρ c
  refine ⟨A.step (Edges1.keep_arg0 (W1 m ρ c)) (Edges1.keep_arg1 (W1 m ρ c)) (Edges1.keep_arg2 (W1 m ρ c))
    (Edges1.keep_arg3 (W1 m ρ c)), ?_⟩
  show StableHlo.after hostOps1 (W1 m ρ c) (Proc.devRef .tc main_v10) = _
  rw [Edges1.result (W1 m ρ c), hX, A.2.2.1, A.2.2.2]

/-- After pass 1: the features after 1 round. -/
theorem at3 : ArgsKept m c (W3 m ρ c)
    ∧ W3 m ρ c (Proc.devRef .tc main_v11) = rounds m c 1 := by
  obtain ⟨A, hX⟩ := at2 m ρ c
  refine ⟨A.step (Pass1.keep_arg0 m ρ c) (Pass1.keep_arg1 m ρ c) (Pass1.keep_arg2 m ρ c) (Pass1.keep_arg3 m ρ c), ?_⟩
  rw [Pass1.result m ρ c, hX, A.1, A.2.1]
  rfl

/-- After pass 2: those features' rows scaled. -/
theorem at4 : ArgsKept m c (W4 m ρ c)
    ∧ W4 m ρ c (Proc.devRef .tc main_v12) = scaleRows (rounds m c 1) (factor m c) := by
  obtain ⟨A, hX⟩ := at3 m ρ c
  refine ⟨A.step (Pass2.keep_arg0 m ρ c) (Pass2.keep_arg1 m ρ c) (Pass2.keep_arg2 m ρ c) (Pass2.keep_arg3 m ρ c), ?_⟩
  rw [Pass2.result m ρ c, hX, A.2.1]

/-- After stretch 3 of host operations: the aggregation of the scaled features of round 1. -/
theorem at5 : ArgsKept m c (W5 m ρ c)
    ∧ W5 m ρ c (Proc.devRef .tc main_v22) = edgeAgg m c (scaleRows (rounds m c 1) (factor m c)) := by
  obtain ⟨A, hX⟩ := at4 m ρ c
  refine ⟨A.step (Edges3.keep_arg0 (W4 m ρ c)) (Edges3.keep_arg1 (W4 m ρ c)) (Edges3.keep_arg2 (W4 m ρ c))
    (Edges3.keep_arg3 (W4 m ρ c)), ?_⟩
  show StableHlo.after hostOps3 (W4 m ρ c) (Proc.devRef .tc main_v22) = _
  rw [Edges3.result (W4 m ρ c), hX, A.2.2.1, A.2.2.2]

/-- After pass 3: the features after 2 rounds. -/
theorem at6 : ArgsKept m c (W6 m ρ c)
    ∧ W6 m ρ c (Proc.devRef .tc main_v23) = rounds m c 2 := by
  obtain ⟨A, hX⟩ := at5 m ρ c
  refine ⟨A.step (Pass3.keep_arg0 m ρ c) (Pass3.keep_arg1 m ρ c) (Pass3.keep_arg2 m ρ c) (Pass3.keep_arg3 m ρ c), ?_⟩
  rw [Pass3.result m ρ c, hX, A.1, A.2.1]
  rfl

/-- After pass 4: those features' rows scaled. -/
theorem at7 : ArgsKept m c (W7 m ρ c)
    ∧ W7 m ρ c (Proc.devRef .tc main_v24) = scaleRows (rounds m c 2) (factor m c) := by
  obtain ⟨A, hX⟩ := at6 m ρ c
  refine ⟨A.step (Pass4.keep_arg0 m ρ c) (Pass4.keep_arg1 m ρ c) (Pass4.keep_arg2 m ρ c) (Pass4.keep_arg3 m ρ c), ?_⟩
  rw [Pass4.result m ρ c, hX, A.2.1]

/-- After stretch 5 of host operations: the aggregation of the scaled features of round 2. -/
theorem at8 : ArgsKept m c (W8 m ρ c)
    ∧ W8 m ρ c (Proc.devRef .tc main_v34) = edgeAgg m c (scaleRows (rounds m c 2) (factor m c)) := by
  obtain ⟨A, hX⟩ := at7 m ρ c
  refine ⟨A.step (Edges5.keep_arg0 (W7 m ρ c)) (Edges5.keep_arg1 (W7 m ρ c)) (Edges5.keep_arg2 (W7 m ρ c))
    (Edges5.keep_arg3 (W7 m ρ c)), ?_⟩
  show StableHlo.after hostOps5 (W7 m ρ c) (Proc.devRef .tc main_v34) = _
  rw [Edges5.result (W7 m ρ c), hX, A.2.2.1, A.2.2.2]

/-- After pass 5: the features after 3 rounds. -/
theorem at9 : ArgsKept m c (W9 m ρ c)
    ∧ W9 m ρ c (Proc.devRef .tc main_v35) = rounds m c 3 := by
  obtain ⟨A, hX⟩ := at8 m ρ c
  refine ⟨A.step (Pass5.keep_arg0 m ρ c) (Pass5.keep_arg1 m ρ c) (Pass5.keep_arg2 m ρ c) (Pass5.keep_arg3 m ρ c), ?_⟩
  rw [Pass5.result m ρ c, hX, A.1, A.2.1]
  rfl

/-- After pass 6: those features' rows scaled. -/
theorem at10 : ArgsKept m c (W10 m ρ c)
    ∧ W10 m ρ c (Proc.devRef .tc main_v36) = scaleRows (rounds m c 3) (factor m c) := by
  obtain ⟨A, hX⟩ := at9 m ρ c
  refine ⟨A.step (Pass6.keep_arg0 m ρ c) (Pass6.keep_arg1 m ρ c) (Pass6.keep_arg2 m ρ c) (Pass6.keep_arg3 m ρ c), ?_⟩
  rw [Pass6.result m ρ c, hX, A.2.1]

/-- After stretch 7 of host operations: the aggregation of the scaled features of round 3. -/
theorem at11 : ArgsKept m c (W11 m ρ c)
    ∧ W11 m ρ c (Proc.devRef .tc main_v46) = edgeAgg m c (scaleRows (rounds m c 3) (factor m c)) := by
  obtain ⟨A, hX⟩ := at10 m ρ c
  refine ⟨A.step (Edges7.keep_arg0 (W10 m ρ c)) (Edges7.keep_arg1 (W10 m ρ c)) (Edges7.keep_arg2 (W10 m ρ c))
    (Edges7.keep_arg3 (W10 m ρ c)), ?_⟩
  show StableHlo.after hostOps7 (W10 m ρ c) (Proc.devRef .tc main_v46) = _
  rw [Edges7.result (W10 m ρ c), hX, A.2.2.1, A.2.2.2]

/-- After pass 7: the features after 4 rounds. -/
theorem at12 : ArgsKept m c (W12 m ρ c)
    ∧ W12 m ρ c (Proc.devRef .tc main_v47) = rounds m c 4 := by
  obtain ⟨A, hX⟩ := at11 m ρ c
  refine ⟨A.step (Pass7.keep_arg0 m ρ c) (Pass7.keep_arg1 m ρ c) (Pass7.keep_arg2 m ρ c) (Pass7.keep_arg3 m ρ c), ?_⟩
  rw [Pass7.result m ρ c, hX, A.1, A.2.1]
  rfl

/-- After pass 8: those features' rows scaled. -/
theorem at13 : ArgsKept m c (W13 m ρ c)
    ∧ W13 m ρ c (Proc.devRef .tc main_v48) = scaleRows (rounds m c 4) (factor m c) := by
  obtain ⟨A, hX⟩ := at12 m ρ c
  refine ⟨A.step (Pass8.keep_arg0 m ρ c) (Pass8.keep_arg1 m ρ c) (Pass8.keep_arg2 m ρ c) (Pass8.keep_arg3 m ρ c), ?_⟩
  rw [Pass8.result m ρ c, hX, A.2.1]

/-- After stretch 9 of host operations: the aggregation of the scaled features of round 4. -/
theorem at14 : ArgsKept m c (W14 m ρ c)
    ∧ W14 m ρ c (Proc.devRef .tc main_v58) = edgeAgg m c (scaleRows (rounds m c 4) (factor m c)) := by
  obtain ⟨A, hX⟩ := at13 m ρ c
  refine ⟨A.step (Edges9.keep_arg0 (W13 m ρ c)) (Edges9.keep_arg1 (W13 m ρ c)) (Edges9.keep_arg2 (W13 m ρ c))
    (Edges9.keep_arg3 (W13 m ρ c)), ?_⟩
  show StableHlo.after hostOps9 (W13 m ρ c) (Proc.devRef .tc main_v58) = _
  rw [Edges9.result (W13 m ρ c), hX, A.2.2.1, A.2.2.2]

/-- After pass 9: the features after 5 rounds. -/
theorem at15 : ArgsKept m c (W15 m ρ c)
    ∧ W15 m ρ c (Proc.devRef .tc main_v59) = rounds m c 5 := by
  obtain ⟨A, hX⟩ := at14 m ρ c
  refine ⟨A.step (Pass9.keep_arg0 m ρ c) (Pass9.keep_arg1 m ρ c) (Pass9.keep_arg2 m ρ c) (Pass9.keep_arg3 m ρ c), ?_⟩
  rw [Pass9.result m ρ c, hX, A.1, A.2.1]
  rfl

/-- After pass 10: those features' rows scaled. -/
theorem at16 : ArgsKept m c (W16 m ρ c)
    ∧ W16 m ρ c (Proc.devRef .tc main_v60) = scaleRows (rounds m c 5) (factor m c) := by
  obtain ⟨A, hX⟩ := at15 m ρ c
  refine ⟨A.step (Pass10.keep_arg0 m ρ c) (Pass10.keep_arg1 m ρ c) (Pass10.keep_arg2 m ρ c) (Pass10.keep_arg3 m ρ c), ?_⟩
  rw [Pass10.result m ρ c, hX, A.2.1]

/-- After stretch 11 of host operations: the aggregation of the scaled features of round 5. -/
theorem at17 : ArgsKept m c (W17 m ρ c)
    ∧ W17 m ρ c (Proc.devRef .tc main_v70) = edgeAgg m c (scaleRows (rounds m c 5) (factor m c)) := by
  obtain ⟨A, hX⟩ := at16 m ρ c
  refine ⟨A.step (Edges11.keep_arg0 (W16 m ρ c)) (Edges11.keep_arg1 (W16 m ρ c)) (Edges11.keep_arg2 (W16 m ρ c))
    (Edges11.keep_arg3 (W16 m ρ c)), ?_⟩
  show StableHlo.after hostOps11 (W16 m ρ c) (Proc.devRef .tc main_v70) = _
  rw [Edges11.result (W16 m ρ c), hX, A.2.2.1, A.2.2.2]

/-- After pass 11: the features after 6 rounds. -/
theorem at18 : ArgsKept m c (W18 m ρ c)
    ∧ W18 m ρ c (Proc.devRef .tc main_v71) = rounds m c 6 := by
  obtain ⟨A, hX⟩ := at17 m ρ c
  refine ⟨A.step (Pass11.keep_arg0 m ρ c) (Pass11.keep_arg1 m ρ c) (Pass11.keep_arg2 m ρ c) (Pass11.keep_arg3 m ρ c), ?_⟩
  rw [Pass11.result m ρ c, hX, A.1, A.2.1]
  rfl

/-- After pass 12: those features' rows scaled. -/
theorem at19 : ArgsKept m c (W19 m ρ c)
    ∧ W19 m ρ c (Proc.devRef .tc main_v72) = scaleRows (rounds m c 6) (factor m c) := by
  obtain ⟨A, hX⟩ := at18 m ρ c
  refine ⟨A.step (Pass12.keep_arg0 m ρ c) (Pass12.keep_arg1 m ρ c) (Pass12.keep_arg2 m ρ c) (Pass12.keep_arg3 m ρ c), ?_⟩
  rw [Pass12.result m ρ c, hX, A.2.1]

/-- After stretch 13 of host operations: the aggregation of the scaled features of round 6. -/
theorem at20 : ArgsKept m c (W20 m ρ c)
    ∧ W20 m ρ c (Proc.devRef .tc main_v82) = edgeAgg m c (scaleRows (rounds m c 6) (factor m c)) := by
  obtain ⟨A, hX⟩ := at19 m ρ c
  refine ⟨A.step (Edges13.keep_arg0 (W19 m ρ c)) (Edges13.keep_arg1 (W19 m ρ c)) (Edges13.keep_arg2 (W19 m ρ c))
    (Edges13.keep_arg3 (W19 m ρ c)), ?_⟩
  show StableHlo.after hostOps13 (W19 m ρ c) (Proc.devRef .tc main_v82) = _
  rw [Edges13.result (W19 m ρ c), hX, A.2.2.1, A.2.2.2]

/-- After pass 13: the features after 7 rounds. -/
theorem at21 : ArgsKept m c (W21 m ρ c)
    ∧ W21 m ρ c (Proc.devRef .tc main_v83) = rounds m c 7 := by
  obtain ⟨A, hX⟩ := at20 m ρ c
  refine ⟨A.step (Pass13.keep_arg0 m ρ c) (Pass13.keep_arg1 m ρ c) (Pass13.keep_arg2 m ρ c) (Pass13.keep_arg3 m ρ c), ?_⟩
  rw [Pass13.result m ρ c, hX, A.1, A.2.1]
  rfl

/-- After pass 14: those features' rows scaled. -/
theorem at22 : ArgsKept m c (W22 m ρ c)
    ∧ W22 m ρ c (Proc.devRef .tc main_v84) = scaleRows (rounds m c 7) (factor m c) := by
  obtain ⟨A, hX⟩ := at21 m ρ c
  refine ⟨A.step (Pass14.keep_arg0 m ρ c) (Pass14.keep_arg1 m ρ c) (Pass14.keep_arg2 m ρ c) (Pass14.keep_arg3 m ρ c), ?_⟩
  rw [Pass14.result m ρ c, hX, A.2.1]

/-- After stretch 15 of host operations: the aggregation of the scaled features of round 7. -/
theorem at23 : ArgsKept m c (W23 m ρ c)
    ∧ W23 m ρ c (Proc.devRef .tc main_v94) = edgeAgg m c (scaleRows (rounds m c 7) (factor m c)) := by
  obtain ⟨A, hX⟩ := at22 m ρ c
  refine ⟨A.step (Edges15.keep_arg0 (W22 m ρ c)) (Edges15.keep_arg1 (W22 m ρ c)) (Edges15.keep_arg2 (W22 m ρ c))
    (Edges15.keep_arg3 (W22 m ρ c)), ?_⟩
  show StableHlo.after hostOps15 (W22 m ρ c) (Proc.devRef .tc main_v94) = _
  rw [Edges15.result (W22 m ρ c), hX, A.2.2.1, A.2.2.2]

/-- After pass 15: the features after 8 rounds. -/
theorem at24 : ArgsKept m c (W24 m ρ c)
    ∧ W24 m ρ c (Proc.devRef .tc main_v95) = rounds m c 8 := by
  obtain ⟨A, hX⟩ := at23 m ρ c
  refine ⟨A.step (Pass15.keep_arg0 m ρ c) (Pass15.keep_arg1 m ρ c) (Pass15.keep_arg2 m ρ c) (Pass15.keep_arg3 m ρ c), ?_⟩
  rw [Pass15.result m ρ c, hX, A.1, A.2.1]
  rfl

/-- After pass 16: those features' rows scaled. -/
theorem at25 : ArgsKept m c (W25 m ρ c)
    ∧ W25 m ρ c (Proc.devRef .tc main_v96) = scaleRows (rounds m c 8) (factor m c) := by
  obtain ⟨A, hX⟩ := at24 m ρ c
  refine ⟨A.step (Pass16.keep_arg0 m ρ c) (Pass16.keep_arg1 m ρ c) (Pass16.keep_arg2 m ρ c) (Pass16.keep_arg3 m ρ c), ?_⟩
  rw [Pass16.result m ρ c, hX, A.2.1]

/-- After stretch 17 of host operations: the aggregation of the scaled features of round 8. -/
theorem at26 : ArgsKept m c (W26 m ρ c)
    ∧ W26 m ρ c (Proc.devRef .tc main_v106) = edgeAgg m c (scaleRows (rounds m c 8) (factor m c)) := by
  obtain ⟨A, hX⟩ := at25 m ρ c
  refine ⟨A.step (Edges17.keep_arg0 (W25 m ρ c)) (Edges17.keep_arg1 (W25 m ρ c)) (Edges17.keep_arg2 (W25 m ρ c))
    (Edges17.keep_arg3 (W25 m ρ c)), ?_⟩
  show StableHlo.after hostOps17 (W25 m ρ c) (Proc.devRef .tc main_v106) = _
  rw [Edges17.result (W25 m ρ c), hX, A.2.2.1, A.2.2.2]

/-- After pass 17: the features after 9 rounds. -/
theorem at27 : ArgsKept m c (W27 m ρ c)
    ∧ W27 m ρ c (Proc.devRef .tc main_v107) = rounds m c 9 := by
  obtain ⟨A, hX⟩ := at26 m ρ c
  refine ⟨A.step (Pass17.keep_arg0 m ρ c) (Pass17.keep_arg1 m ρ c) (Pass17.keep_arg2 m ρ c) (Pass17.keep_arg3 m ρ c), ?_⟩
  rw [Pass17.result m ρ c, hX, A.1, A.2.1]
  rfl

/-- After pass 18: those features' rows scaled. -/
theorem at28 : ArgsKept m c (W28 m ρ c)
    ∧ W28 m ρ c (Proc.devRef .tc main_v108) = scaleRows (rounds m c 9) (factor m c) := by
  obtain ⟨A, hX⟩ := at27 m ρ c
  refine ⟨A.step (Pass18.keep_arg0 m ρ c) (Pass18.keep_arg1 m ρ c) (Pass18.keep_arg2 m ρ c) (Pass18.keep_arg3 m ρ c), ?_⟩
  rw [Pass18.result m ρ c, hX, A.2.1]

/-- After stretch 19 of host operations: the aggregation of the scaled features of round 9. -/
theorem at29 : ArgsKept m c (W29 m ρ c)
    ∧ W29 m ρ c (Proc.devRef .tc main_v118) = edgeAgg m c (scaleRows (rounds m c 9) (factor m c)) := by
  obtain ⟨A, hX⟩ := at28 m ρ c
  refine ⟨A.step (Edges19.keep_arg0 (W28 m ρ c)) (Edges19.keep_arg1 (W28 m ρ c)) (Edges19.keep_arg2 (W28 m ρ c))
    (Edges19.keep_arg3 (W28 m ρ c)), ?_⟩
  show StableHlo.after hostOps19 (W28 m ρ c) (Proc.devRef .tc main_v118) = _
  rw [Edges19.result (W28 m ρ c), hX, A.2.2.1, A.2.2.2]

/-- After pass 19: the features after 10 rounds. -/
theorem at30 : ArgsKept m c (W30 m ρ c)
    ∧ W30 m ρ c (Proc.devRef .tc main_v119) = rounds m c 10 := by
  obtain ⟨A, hX⟩ := at29 m ρ c
  refine ⟨A.step (Pass19.keep_arg0 m ρ c) (Pass19.keep_arg1 m ρ c) (Pass19.keep_arg2 m ρ c) (Pass19.keep_arg3 m ρ c), ?_⟩
  rw [Pass19.result m ρ c, hX, A.1, A.2.1]
  rfl

/-- The result buffer at the last boundary: the features after ten rounds. -/
theorem result_eq : W30 m ρ c (Proc.devRef .tc main_v119) = rounds m c 10 := (at30 m ρ c).2

end Cert.KernelIdeal.Hand

end
-- ==== Proof.Reference.lean ====
/-
  The idealized reference's result.

  The reference is one straight line of host operations: ten times over, the features' rows are scaled by the
  factor column, aggregated along the edges, scaled again, scaled by 0.9 and added to a tenth of the input.
  Its run ends with the result buffer at the composition of those operations on the launch contents of the
  arguments; that composition is, operation for operation, `propagate` of the aggregation at ten rounds.
-/
import proofs.«108799_j25357486915690_1_alg».proof.Proof.Gen.ReferenceIdeal.Run
import proofs.«108799_j25357486915690_1_alg».proof.Proof.Spec

set_option maxRecDepth 16384

noncomputable section

namespace Cert.ReferenceIdeal.Hand

open Cert.ReferenceIdeal Cert.ReferenceIdeal.Gen Cert.Appnp
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- The launch contents of the arguments on core `c`, and the aggregation along the two edge lists. -/
abbrev feat : FVec F SNd .f32 := m ((c.tc : Thread nD τ).loc main_arg0)
abbrev factor : FVec F SN1 .f32 := m ((c.tc : Thread nD τ).loc main_arg1)
abbrev edgeAgg : FVec F SNd .f32 → FVec F SNd .f32 :=
  aggregate gather_S100000x128_S1600000x1_S1600000x128_1_0_n_n_0_1_1128 scatter_S100000x128_S1600000x1_S1600000x128_1_0_0_1
    (m ((c.tc : Thread nD τ).loc main_arg2)) (m ((c.tc : Thread nD τ).loc main_arg3))
/-- The features after `k` rounds, from the launch contents. -/
abbrev rounds (k : Nat) : FVec F SNd .f32 := propagate (edgeAgg m c) (factor m c) (feat m c) k

set_option maxHeartbeats 4000000 in
/-- Every weakly fair execution of the reference ends, nothing faulting, with the result buffer at the features
    after ten rounds and the arguments as launched. -/
theorem run_result : θ_run defs (onTc (τ := τ) (main (F := F))) ⟨m, fun _ => 0, ρ⟩ fun r => ∀ c : Dev nD,
      r.2.mem ((c.tc : Thread nD τ).loc main_v189) = rounds m c 10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Cert.ReferenceIdeal.Value.run m ρ)

end Cert.ReferenceIdeal.Hand

end
-- ==== Proof.lean ====
/-
  A tiled implementation of ten rounds of normalised graph propagation against its plain reference.

  Both programs compute, ten times over, `h ↦ (agg (h · n) · n) · 0.9 + h₀ · 0.1`: the rows of the features
  scaled by the per-node factors, aggregated along the edges (gather at the sources, add up at the targets),
  scaled again, and mixed with the input. The kernel does the two row scalings and the mix in passes over
  blocks of 5000 rows and leaves the aggregation to host operations; the reference is host operations
  throughout. No law of arithmetic is needed: entry for entry the two programs apply the same operations in
  the same order to the same operands, and the finiteness of the inputs is never used.

  * Spec: the function (`scaleRows`, `mix`, `aggregate`, `propagate`) and what a block of rows of it is.
  * Pass0 … Pass19: the array each tiled pass leaves is `scaleRows` / `mix` of the arrays it finds.
  * Edges1 … Edges19: each stretch of host operations leaves the aggregation.
  * KernelRun, Boundaries: the kernel's run ends with its result at `propagate … 10`.
  * Reference: so does the reference's.
  Here: the three frames, and the two results are one array once the arguments agree.
-/
import proofs.«108799_j25357486915690_1_alg».proof.Defs
import proofs.«108799_j25357486915690_1_alg».proof.Proof.Gen.Kernel
import proofs.«108799_j25357486915690_1_alg».proof.Proof.Gen.Kernel.Frame
import proofs.«108799_j25357486915690_1_alg».proof.Proof.Gen.KernelIdeal
import proofs.«108799_j25357486915690_1_alg».proof.Proof.Gen.KernelIdeal.Frame
import proofs.«108799_j25357486915690_1_alg».proof.Proof.Gen.ReferenceIdeal
import proofs.«108799_j25357486915690_1_alg».proof.Proof.Gen.ReferenceIdeal.Run
import proofs.«108799_j25357486915690_1_alg».proof.Proof.Gen.Pre_finite_inputs
import proofs.«108799_j25357486915690_1_alg».proof.Proof.KernelRun
import proofs.«108799_j25357486915690_1_alg».proof.Proof.Boundaries
import proofs.«108799_j25357486915690_1_alg».proof.Proof.Reference

noncomputable section

namespace Cert.Proof

open Idealize.ShloMosaic Idealize.SL.Sem Cert.Appnp

/-- The kernel as printed runs to the end and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the features after ten rounds: the kernel by
    its thirty boundaries, the reference by its one line of operations; the two spell the aggregation with
    dimension records that are the same records. -/
theorem algebraic : Cert.algebraic_KernelIdeal_ReferenceIdeal := by
  intro m ρ m' ρ' _ hagree
  refine ⟨fun c => Cert.KernelIdeal.Hand.rounds m c 10, ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Hand.run_result (F := Ideal) m' ρ')
    obtain ⟨e0, e1, e2, e3⟩ := hagree c
    show Cert.ReferenceIdeal.Hand.rounds m' c 10 = Cert.KernelIdeal.Hand.rounds m c 10
    unfold Cert.ReferenceIdeal.Hand.rounds Cert.ReferenceIdeal.Hand.feat Cert.ReferenceIdeal.Hand.factor
      Cert.ReferenceIdeal.Hand.edgeAgg
    rw [e0, e1, e2, e3]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
